-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S8192 : Shape := ⟨1, ![8192]⟩
abbrev S8192x1 : Shape := ⟨2, ![8192, 1]⟩
abbrev S1024x256 : Shape := ⟨2, ![1024, 256]⟩
abbrev S2048x256 : Shape := ⟨2, ![2048, 256]⟩
abbrev S1024x1 : Shape := ⟨2, ![1024, 1]⟩
abbrev S1024x2048 : Shape := ⟨2, ![1024, 2048]⟩
abbrev S1024 : Shape := ⟨1, ![1024]⟩

abbrev nBuf : Space → Nat
  | .hbm => 41
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S8192x256, .bf16⟩
  | .hbm, ⟨24, _⟩ => ⟨S4096x256, .f32⟩
  | .hbm, ⟨25, _⟩ => ⟨S_, .f32⟩
  | .hbm, ⟨26, _⟩ => ⟨S4096, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192, .f32⟩
  | .hbm, ⟨32, _⟩ => ⟨S8192x1, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S2048x256, .bf16⟩
  | .local _ .vmem, ⟨3, _⟩ => ⟨S2048x256, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  bitsLt_bf16_f32 : FTy.bits .bf16 < FTy.bits .f32
  concatenates_S4096_S4096_S8192_d0 : Shape.Concatenates [S4096, S4096] S8192 0
  bcast_S_S8192 : S_.BroadcastsInDim S8192 (![] : Fin 0 → Fin S8192.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S1024x2048_S1024 : S1024x2048.Reduces [1] S1024
  shapeCasts_S1024_S1024x1 : S1024.ShapeCasts S1024x1
  iota_S1024x2048_d0_w32 : S1024x2048.Iotas .tc 32 [0]
  iota_S1024x2048_d1_w32 : S1024x2048.Iotas .tc 32 [1]
  shapeCasts_S8192x1_S8192 : S8192x1.ShapeCasts S8192
  reducesTo_S8192_S_d0 : S8192.ReducesTo [0] S_
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .bf16 = 32 ∨ (Rect.block (s := S8192x256) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_v17) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S256x8192 : Shape := ⟨2, ![256, 8192]⟩
abbrev S8192x8192 : Shape := ⟨2, ![8192, 8192]⟩
abbrev S4096x2 : Shape := ⟨2, ![4096, 2]⟩
abbrev S8192 : Shape := ⟨1, ![8192]⟩

abbrev nBuf : Space → Nat
  | .hbm => 97
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S256x8192, .f32⟩
  | .hbm, ⟨24, _⟩ => ⟨S8192x8192, .f32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S4096x1, .i32⟩
  | .hbm, ⟨44, _⟩ => ⟨S4096x1, .i32⟩
  | .hbm, ⟨45, _⟩ => ⟨S4096x2, .i32⟩
  | .hbm, ⟨46, _⟩ => ⟨S4096, .f32⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S4096, .i32⟩
  | .hbm, ⟨64, _⟩ => ⟨S4096x1, .i32⟩
  | .hbm, ⟨65, _⟩ => ⟨S4096x1, .i32⟩
  | .hbm, ⟨66, _⟩ => ⟨S4096x2, .i32⟩
  | .hbm, ⟨67, _⟩ => ⟨S4096, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S8192, .f32⟩
  | .hbm, ⟨73, _⟩ => ⟨S8192x8192, .i32⟩
  | .hbm, ⟨74, _⟩ => ⟨S8192x8192, .i32⟩
  | .hbm, ⟨75, _⟩ => ⟨S_, .i32⟩
  | .hbm, ⟨76, _⟩ => ⟨S8192x8192, .i32⟩
  | .hbm, ⟨77, _⟩ => ⟨S8192x8192, .i32⟩
  | .hbm, ⟨78, _⟩ => ⟨S8192x8192, .i1⟩
  | .hbm, ⟨79, _⟩ => ⟨S8192x8192, .f32⟩
  | .hbm, ⟨80, _⟩ => ⟨S_, .f32⟩
  | .hbm, ⟨81, _⟩ => ⟨S8192x8192, .f32⟩
  | .hbm, ⟨82, _⟩ => ⟨S8192x8192, .f32⟩
  | .hbm, ⟨83, _⟩ => ⟨S_, .f32⟩
  | .hbm, ⟨84, _⟩ => ⟨S8192x8192, .f32⟩
  | .hbm, ⟨85, _⟩ => ⟨S8192x8192, .f32⟩
  | .hbm, ⟨86, _⟩ => ⟨S8192x8192, .f32⟩
  | .hbm, ⟨87, _⟩ => ⟨S8192x8192, .f32⟩
  | .hbm, ⟨88, _⟩ => ⟨S_, .f32⟩
  | .hbm, ⟨89, _⟩ => ⟨S8192, .f32⟩
  | .hbm, ⟨90, _⟩ => ⟨S8192, .f32⟩
  | .hbm, ⟨91, _⟩ => ⟨S8192, .f32⟩
  | .hbm, ⟨92, _⟩ => ⟨S8192, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_5 : Ref sig .tc := ⟨.hbm, 36, rfl⟩
abbrev main_v27 : Ref sig .tc := ⟨.hbm, 37, rfl⟩
abbrev main_v28 : Ref sig .tc := ⟨.hbm, 38, rfl⟩
abbrev main_c_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_7 : Ref sig .tc := ⟨.hbm, 47, rfl⟩
abbrev main_v36 : Ref sig .tc := ⟨.hbm, 48, rfl⟩
abbrev main_v37 : Ref sig .tc := ⟨.hbm, 49, rfl⟩
abbrev main_c_8 : Ref sig .tc := ⟨.hbm, 50, rfl⟩
abbrev main_v38 : Ref sig .tc := ⟨.hbm, 51, rfl⟩
abbrev main_v39 : Ref sig .tc := ⟨.hbm, 52, rfl⟩
abbrev main_c_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_10 : Ref sig .tc := ⟨.hbm, 57, rfl⟩
abbrev main_v43 : Ref sig .tc := ⟨.hbm, 58, rfl⟩
abbrev main_v44 : Ref sig .tc := ⟨.hbm, 59, rfl⟩
abbrev main_c_11 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_12 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_13 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_14 : Ref sig .tc := ⟨.hbm, 80, rfl⟩
abbrev main_v62 : Ref sig .tc := ⟨.hbm, 81, rfl⟩
abbrev main_v63 : Ref sig .tc := ⟨.hbm, 82, rfl⟩
abbrev main_cst_15 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_16 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_17 : Ref sig .tc := ⟨.hbm, 93, rfl⟩
abbrev main_v72 : Ref sig .tc := ⟨.hbm, 94, rfl⟩
abbrev main_cst_18 : Ref sig .tc := ⟨.hbm, 95, rfl⟩
abbrev main_v73 : Ref sig .tc := ⟨.hbm, 96, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  transposes_S8192x256_S256x8192_1_0 : S8192x256.Transposes [1, 0] S256x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.RefRun.lean ====
/-
  The reference program's 95 host operations, run in order from any contents of the buffers, leave in the result
  buffer the last stage of the program read as a function of the two argument arrays, and leave the two argument
  arrays as they were.

  The list is cut into nine consecutive stretches: the two normalisations and the stacked matrix (21 operations); its
  transpose and the similarity matrix (2); the first gather's two columns of start indices (20), their side-by-side
  concatenation and the gather (2); the same for the second gather (19 and 2); the two gathers end to end, over the
  temperature, exponentiated (5); the mask, the exponentials, their product and its row sums (17); and the last
  stretch, the mean of minus the logarithm of the quotient (7). Running a concatenation of lists is running the
  first and then the second, so the run of the whole list is the nine runs in turn. Each stretch is read on its own,
  from arbitrary contents V: the buffer it is read at holds the stage's term over what V holds at the stretch's
  inputs, and a buffer the stretch does not write holds what V held. A stretch that ends in a concatenation followed
  by a gather is cut before the concatenation, so that the two concatenated columns are read as whole buffers.
-/
import proofs.«138062_j35948876267977_2_alg».proof.Proof.RunP
import proofs.«138062_j35948876267977_2_alg».proof.Proof.ReadP
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo
open Cert.ReferenceIdeal.ValueP (ops)

section Stretches
variable {F : FTy → Type} [FloatOps F]

abbrev c1 : List (HloOp τ sig (Elt F)) :=
  [ binary main_arg0 main_arg0 main_v0 (mulf : (⟨S4096x256, .f32⟩ : BufTy).Contents (Elt F) → (⟨S4096x256, .f32⟩ : BufTy).Contents (Elt F) → (⟨S4096x256, .f32⟩ : BufTy).Contents (Elt F)),
    nullary main_cst (constant S_ .f32 0x00000000#32),
    binary main_v0 main_cst main_v1 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    unary main_v1 main_v2 (broadcastInDim S4096x1 ![0] bcast_S4096_S4096x1_0 : (⟨S4096, .f32⟩ : BufTy).Contents (Elt F) → (⟨S4096x1, .f32⟩ : BufTy).Contents (Elt F)),
    unary main_v2 main_v3 (Host.sqrt : (⟨S4096x1, .f32⟩ : BufTy).Contents (Elt F) → (⟨S4096x1, .f32⟩ : BufTy).Contents (Elt F)),
    nullary main_cst_0 (constant S_ .f32 0x2B8CBCCC#32),
    unary main_cst_0 main_v4 (broadcastInDim S4096x1 ![] bcast_S_S4096x1 : (⟨S_, .f32⟩ : BufTy).Contents (Elt F) → (⟨S4096x1, .f32⟩ : BufTy).Contents (Elt F)),
    binary main_v3 main_v4 main_v5 (maximumf : (⟨S4096x1, .f32⟩ : BufTy).Contents (Elt F) → (⟨S4096x1, .f32⟩ : BufTy).Contents (Elt F) → (⟨S4096x1, .f32⟩ : BufTy).Contents (Elt F)),
    unary main_v5 main_v6 (broadcastInDim S4096x256 ![0, 1] bcast_S4096x1_S4096x256_0_1 : (⟨S4096x1, .f32⟩ : BufTy).Contents (Elt F) → (⟨S4096x256, .f32⟩ : BufTy).Contents (Elt F)),
    binary main_arg0 main_v6 main_v7 (Host.divf : (⟨S4096x256, .f32⟩ : BufTy).Contents (Elt F) → (⟨S4096x256, .f32⟩ : BufTy).Contents (Elt F) → (⟨S4096x256, .f32⟩ : BufTy).Contents (Elt F)),
    binary main_arg1 main_arg1 main_v8 (mulf : (⟨S4096x256, .f32⟩ : BufTy).Contents (Elt F) → (⟨S4096x256, .f32⟩ : BufTy).Contents (Elt F) → (⟨S4096x256, .f32⟩ : BufTy).Contents (Elt F)),
    nullary main_cst_1 (constant S_ .f32 0x00000000#32),
    binary main_v8 main_cst_1 main_v9 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    unary main_v9 main_v10 (broadcastInDim S4096x1 ![0] bcast_S4096_S4096x1_0 : (⟨S4096, .f32⟩ : BufTy).Contents (Elt F) → (⟨S4096x1, .f32⟩ : BufTy).Contents (Elt F)),
    unary main_v10 main_v11 (Host.sqrt : (⟨S4096x1, .f32⟩ : BufTy).Contents (Elt F) → (⟨S4096x1, .f32⟩ : BufTy).Contents (Elt F)),
    nullary main_cst_2 (constant S_ .f32 0x2B8CBCCC#32),
    unary main_cst_2 main_v12 (broadcastInDim S4096x1 ![] bcast_S_S4096x1 : (⟨S_, .f32⟩ : BufTy).Contents (Elt F) → (⟨S4096x1, .f32⟩ : BufTy).Contents (Elt F)),
    binary main_v11 main_v12 main_v13 (maximumf : (⟨S4096x1, .f32⟩ : BufTy).Contents (Elt F) → (⟨S4096x1, .f32⟩ : BufTy).Contents (Elt F) → (⟨S4096x1, .f32⟩ : BufTy).Contents (Elt F)),
    unary main_v13 main_v14 (broadcastInDim S4096x256 ![0, 1] bcast_S4096x1_S4096x256_0_1 : (⟨S4096x1, .f32⟩ : BufTy).Contents (Elt F) → (⟨S4096x256, .f32⟩ : BufTy).Contents (Elt F)),
    binary main_arg1 main_v14 main_v15 (Host.divf : (⟨S4096x256, .f32⟩ : BufTy).Contents (Elt F) → (⟨S4096x256, .f32⟩ : BufTy).Contents (Elt F) → (⟨S4096x256, .f32⟩ : BufTy).Contents (Elt F)),
    binary main_v7 main_v15 main_v16 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)) ]

abbrev c2 : List (HloOp τ sig (Elt F)) :=
  [ unary main_v16 main_v17 ((transpose S256x8192 [1, 0] · transposes_S8192x256_S256x8192_1_0) : (⟨S8192x256, .f32⟩ : BufTy).Contents (Elt F) → (⟨S256x8192, .f32⟩ : BufTy).Contents (Elt F)),
    binary main_v16 main_v17 main_v18 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)) ]

abbrev c3a : List (HloOp τ sig (Elt F)) :=
  [ nullary main_v19 (iotaInDim S4096 32 0),
    nullary main_c (constantI S_ 32 4096#32),
    unary main_c main_v20 (broadcastInDim S4096 ![] bcast_S_S4096 : (⟨S_, .i32⟩ : BufTy).Contents (Elt F) → (⟨S4096, .i32⟩ : BufTy).Contents (Elt F)),
    binary main_v19 main_v20 main_v21 (addi : (⟨S4096, .i32⟩ : BufTy).Contents (Elt F) → (⟨S4096, .i32⟩ : BufTy).Contents (Elt F) → (⟨S4096, .i32⟩ : BufTy).Contents (Elt F)),
    nullary main_c_3 (constantI S_ 32 0#32),
    unary main_c_3 main_v22 (broadcastInDim S4096 ![] bcast_S_S4096 : (⟨S_, .i32⟩ : BufTy).Contents (Elt F) → (⟨S4096, .i32⟩ : BufTy).Contents (Elt F)),
    binary main_v19 main_v22 main_v23 (cmpi .slt : (⟨S4096, .i32⟩ : BufTy).Contents (Elt F) → (⟨S4096, .i32⟩ : BufTy).Contents (Elt F) → (⟨S4096, .i1⟩ : BufTy).Contents (Elt F)),
    nullary main_c_4 (constantI S_ 32 8192#32),
    unary main_c_4 main_v24 (broadcastInDim S4096 ![] bcast_S_S4096 : (⟨S_, .i32⟩ : BufTy).Contents (Elt F) → (⟨S4096, .i32⟩ : BufTy).Contents (Elt F)),
    binary main_v19 main_v24 main_v25 (addi : (⟨S4096, .i32⟩ : BufTy).Contents (Elt F) → (⟨S4096, .i32⟩ : BufTy).Contents (Elt F) → (⟨S4096, .i32⟩ : BufTy).Contents (Elt F)),
    ternary main_v23 main_v25 main_v19 main_v26 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_5 (constantI S_ 32 0#32),
    unary main_c_5 main_v27 (broadcastInDim S4096 ![] bcast_S_S4096 : (⟨S_, .i32⟩ : BufTy).Contents (Elt F) → (⟨S4096, .i32⟩ : BufTy).Contents (Elt F)),
    binary main_v21 main_v27 main_v28 (cmpi .slt : (⟨S4096, .i32⟩ : BufTy).Contents (Elt F) → (⟨S4096, .i32⟩ : BufTy).Contents (Elt F) → (⟨S4096, .i1⟩ : BufTy).Contents (Elt F)),
    nullary main_c_6 (constantI S_ 32 8192#32),
    unary main_c_6 main_v29 (broadcastInDim S4096 ![] bcast_S_S4096 : (⟨S_, .i32⟩ : BufTy).Contents (Elt F) → (⟨S4096, .i32⟩ : BufTy).Contents (Elt F)),
    binary main_v21 main_v29 main_v30 (addi : (⟨S4096, .i32⟩ : BufTy).Contents (Elt F) → (⟨S4096, .i32⟩ : BufTy).Contents (Elt F) → (⟨S4096, .i32⟩ : BufTy).Contents (Elt F)),
    ternary main_v28 main_v30 main_v21 main_v31 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v26 main_v32 (broadcastInDim S4096x1 ![0] bcast_S4096_S4096x1_0 : (⟨S4096, .i32⟩ : BufTy).Contents (Elt F) → (⟨S4096x1, .i32⟩ : BufTy).Contents (Elt F)),
    unary main_v31 main_v33 (broadcastInDim S4096x1 ![0] bcast_S4096_S4096x1_0 : (⟨S4096, .i32⟩ : BufTy).Contents (Elt F) → (⟨S4096x1, .i32⟩ : BufTy).Contents (Elt F)) ]

abbrev c3b : List (HloOp τ sig (Elt F)) :=
  [ binary main_v32 main_v33 main_v34 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v18 main_v34 main_v35 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)) ]

abbrev c4a : List (HloOp τ sig (Elt F)) :=
  [ nullary main_c_7 (constantI S_ 32 4096#32),
    unary main_c_7 main_v36 (broadcastInDim S4096 ![] bcast_S_S4096 : (⟨S_, .i32⟩ : BufTy).Contents (Elt F) → (⟨S4096, .i32⟩ : BufTy).Contents (Elt F)),
    binary main_v19 main_v36 main_v37 (addi : (⟨S4096, .i32⟩ : BufTy).Contents (Elt F) → (⟨S4096, .i32⟩ : BufTy).Contents (Elt F) → (⟨S4096, .i32⟩ : BufTy).Contents (Elt F)),
    nullary main_c_8 (constantI S_ 32 0#32),
    unary main_c_8 main_v38 (broadcastInDim S4096 ![] bcast_S_S4096 : (⟨S_, .i32⟩ : BufTy).Contents (Elt F) → (⟨S4096, .i32⟩ : BufTy).Contents (Elt F)),
    binary main_v37 main_v38 main_v39 (cmpi .slt : (⟨S4096, .i32⟩ : BufTy).Contents (Elt F) → (⟨S4096, .i32⟩ : BufTy).Contents (Elt F) → (⟨S4096, .i1⟩ : BufTy).Contents (Elt F)),
    nullary main_c_9 (constantI S_ 32 8192#32),
    unary main_c_9 main_v40 (broadcastInDim S4096 ![] bcast_S_S4096 : (⟨S_, .i32⟩ : BufTy).Contents (Elt F) → (⟨S4096, .i32⟩ : BufTy).Contents (Elt F)),
    binary main_v37 main_v40 main_v41 (addi : (⟨S4096, .i32⟩ : BufTy).Contents (Elt F) → (⟨S4096, .i32⟩ : BufTy).Contents (Elt F) → (⟨S4096, .i32⟩ : BufTy).Contents (Elt F)),
    ternary main_v39 main_v41 main_v37 main_v42 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_10 (constantI S_ 32 0#32),
    unary main_c_10 main_v43 (broadcastInDim S4096 ![] bcast_S_S4096 : (⟨S_, .i32⟩ : BufTy).Contents (Elt F) → (⟨S4096, .i32⟩ : BufTy).Contents (Elt F)),
    binary main_v19 main_v43 main_v44 (cmpi .slt : (⟨S4096, .i32⟩ : BufTy).Contents (Elt F) → (⟨S4096, .i32⟩ : BufTy).Contents (Elt F) → (⟨S4096, .i1⟩ : BufTy).Contents (Elt F)),
    nullary main_c_11 (constantI S_ 32 8192#32),
    unary main_c_11 main_v45 (broadcastInDim S4096 ![] bcast_S_S4096 : (⟨S_, .i32⟩ : BufTy).Contents (Elt F) → (⟨S4096, .i32⟩ : BufTy).Contents (Elt F)),
    binary main_v19 main_v45 main_v46 (addi : (⟨S4096, .i32⟩ : BufTy).Contents (Elt F) → (⟨S4096, .i32⟩ : BufTy).Contents (Elt F) → (⟨S4096, .i32⟩ : BufTy).Contents (Elt F)),
    ternary main_v44 main_v46 main_v19 main_v47 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v42 main_v48 (broadcastInDim S4096x1 ![0] bcast_S4096_S4096x1_0 : (⟨S4096, .i32⟩ : BufTy).Contents (Elt F) → (⟨S4096x1, .i32⟩ : BufTy).Contents (Elt F)),
    unary main_v47 main_v49 (broadcastInDim S4096x1 ![0] bcast_S4096_S4096x1_0 : (⟨S4096, .i32⟩ : BufTy).Contents (Elt F) → (⟨S4096x1, .i32⟩ : BufTy).Contents (Elt F)) ]

abbrev c4b : List (HloOp τ sig (Elt F)) :=
  [ binary main_v48 main_v49 main_v50 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v18 main_v50 main_v51 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)) ]

abbrev c5 : List (HloOp τ sig (Elt F)) :=
  [ binary main_v35 main_v51 main_v52 ((fun a b => concatenate S8192 0 [⟨S4096, a⟩, ⟨S4096, b⟩] concatenates_S4096_S4096_S8192_d0) : (⟨S4096, .f32⟩ : BufTy).Contents (Elt F) → (⟨S4096, .f32⟩ : BufTy).Contents (Elt F) → (⟨S8192, .f32⟩ : BufTy).Contents (Elt F)),
    nullary main_cst_12 (constant S_ .f32 0x3F000000#32),
    unary main_cst_12 main_v53 (broadcastInDim S8192 ![] bcast_S_S8192 : (⟨S_, .f32⟩ : BufTy).Contents (Elt F) → (⟨S8192, .f32⟩ : BufTy).Contents (Elt F)),
    binary main_v52 main_v53 main_v54 (Host.divf : (⟨S8192, .f32⟩ : BufTy).Contents (Elt F) → (⟨S8192, .f32⟩ : BufTy).Contents (Elt F) → (⟨S8192, .f32⟩ : BufTy).Contents (Elt F)),
    unary main_v54 main_v55 (Host.exp : (⟨S8192, .f32⟩ : BufTy).Contents (Elt F) → (⟨S8192, .f32⟩ : BufTy).Contents (Elt F)) ]

abbrev c6 : List (HloOp τ sig (Elt F)) :=
  [ nullary main_v56 (iotaInDim S8192x8192 32 0),
    nullary main_v57 (iotaInDim S8192x8192 32 1),
    nullary main_c_13 (constantI S_ 32 0#32),
    unary main_c_13 main_v58 (broadcastInDim S8192x8192 ![] bcast_S_S8192x8192 : (⟨S_, .i32⟩ : BufTy).Contents (Elt F) → (⟨S8192x8192, .i32⟩ : BufTy).Contents (Elt F)),
    binary main_v56 main_v58 main_v59 (addi : (⟨S8192x8192, .i32⟩ : BufTy).Contents (Elt F) → (⟨S8192x8192, .i32⟩ : BufTy).Contents (Elt F) → (⟨S8192x8192, .i32⟩ : BufTy).Contents (Elt F)),
    binary main_v59 main_v57 main_v60 (cmpi .eq : (⟨S8192x8192, .i32⟩ : BufTy).Contents (Elt F) → (⟨S8192x8192, .i32⟩ : BufTy).Contents (Elt F) → (⟨S8192x8192, .i1⟩ : BufTy).Contents (Elt F)),
    unary main_v60 main_v61 (uitofp .f32 : (⟨S8192x8192, .i1⟩ : BufTy).Contents (Elt F) → (⟨S8192x8192, .f32⟩ : BufTy).Contents (Elt F)),
    nullary main_cst_14 (constant S_ .f32 0x3F800000#32),
    unary main_cst_14 main_v62 (broadcastInDim S8192x8192 ![] bcast_S_S8192x8192 : (⟨S_, .f32⟩ : BufTy).Contents (Elt F) → (⟨S8192x8192, .f32⟩ : BufTy).Contents (Elt F)),
    binary main_v62 main_v61 main_v63 (subf : (⟨S8192x8192, .f32⟩ : BufTy).Contents (Elt F) → (⟨S8192x8192, .f32⟩ : BufTy).Contents (Elt F) → (⟨S8192x8192, .f32⟩ : BufTy).Contents (Elt F)),
    nullary main_cst_15 (constant S_ .f32 0x3F000000#32),
    unary main_cst_15 main_v64 (broadcastInDim S8192x8192 ![] bcast_S_S8192x8192 : (⟨S_, .f32⟩ : BufTy).Contents (Elt F) → (⟨S8192x8192, .f32⟩ : BufTy).Contents (Elt F)),
    binary main_v18 main_v64 main_v65 (Host.divf : (⟨S8192x8192, .f32⟩ : BufTy).Contents (Elt F) → (⟨S8192x8192, .f32⟩ : BufTy).Contents (Elt F) → (⟨S8192x8192, .f32⟩ : BufTy).Contents (Elt F)),
    unary main_v65 main_v66 (Host.exp : (⟨S8192x8192, .f32⟩ : BufTy).Contents (Elt F) → (⟨S8192x8192, .f32⟩ : BufTy).Contents (Elt F)),
    binary main_v63 main_v66 main_v67 (mulf : (⟨S8192x8192, .f32⟩ : BufTy).Contents (Elt F) → (⟨S8192x8192, .f32⟩ : BufTy).Contents (Elt F) → (⟨S8192x8192, .f32⟩ : BufTy).Contents (Elt F)),
    nullary main_cst_16 (constant S_ .f32 0x00000000#32),
    binary main_v67 main_cst_16 main_v68 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)) ]

abbrev c7 : List (HloOp τ sig (Elt F)) :=
  [ binary main_v55 main_v68 main_v69 (Host.divf : (⟨S8192, .f32⟩ : BufTy).Contents (Elt F) → (⟨S8192, .f32⟩ : BufTy).Contents (Elt F) → (⟨S8192, .f32⟩ : BufTy).Contents (Elt F)),
    unary main_v69 main_v70 (Host.log : (⟨S8192, .f32⟩ : BufTy).Contents (Elt F) → (⟨S8192, .f32⟩ : BufTy).Contents (Elt F)),
    unary main_v70 main_v71 (Host.negf : (⟨S8192, .f32⟩ : BufTy).Contents (Elt F) → (⟨S8192, .f32⟩ : BufTy).Contents (Elt F)),
    nullary main_cst_17 (constant S_ .f32 0x00000000#32),
    binary main_v71 main_cst_17 main_v72 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_18 (constant S_ .f32 0x46000000#32),
    binary main_v72 main_cst_18 main_v73 (Host.divf : (⟨S_, .f32⟩ : BufTy).Contents (Elt F) → (⟨S_, .f32⟩ : BufTy).Contents (Elt F) → (⟨S_, .f32⟩ : BufTy).Contents (Elt F)) ]

/-- The list of the 95 operations is the nine stretches in order. -/
theorem ops_cut : (ops : List (HloOp τ sig (Elt F))) = c1 ++ (c2 ++ (c3a ++ (c3b ++ (c4a ++ (c4b ++ (c5 ++ (c6 ++ (c7)))))))) := rfl

end Stretches

/-- Running two lists one after the other is running their concatenation. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-! ## Each stretch from arbitrary contents -/

theorem c1_v16 (V : Valuation τ sig (Elt Ideal)) :
    StableHlo.after (c1 (F := Ideal)) V (Proc.devRef .tc main_v16)
      = Cert.ReferenceIdeal.Read.val_main_v16 (F := Ideal) (V (Proc.devRef .tc main_arg0)) (V (Proc.devRef .tc main_arg1)) := by
  show StableHlo.after c1 V (Proc.devRef .tc main_v16) = _
  after_results_simp
  rfl

theorem c2_v18 (V : Valuation τ sig (Elt Ideal)) (x0 x1 : (⟨S4096x256, .f32⟩ : BufTy).Contents (Elt Ideal))
    (h16 : V (Proc.devRef .tc main_v16) = Cert.ReferenceIdeal.Read.val_main_v16 (F := Ideal) x0 x1) :
    StableHlo.after (c2 (F := Ideal)) V (Proc.devRef .tc main_v18) = Cert.ReferenceIdeal.Read.val_main_v18 (F := Ideal) x0 x1 := by
  show StableHlo.after c2 V (Proc.devRef .tc main_v18) = _
  after_results_simp
  rw [h16]
  rfl

theorem c3a_v19 (V : Valuation τ sig (Elt Ideal))  :
    StableHlo.after (c3a (F := Ideal)) V (Proc.devRef .tc main_v19) = Cert.ReferenceIdeal.Read.val_main_v19 (F := Ideal) := by
  show StableHlo.after c3a V (Proc.devRef .tc main_v19) = _
  after_results_simp
  rfl

theorem c3a_v32 (V : Valuation τ sig (Elt Ideal))  :
    StableHlo.after (c3a (F := Ideal)) V (Proc.devRef .tc main_v32) = Cert.ReferenceIdeal.Read.val_main_v32 (F := Ideal) := by
  show StableHlo.after c3a V (Proc.devRef .tc main_v32) = _
  after_results_simp
  rfl

theorem c3a_v33 (V : Valuation τ sig (Elt Ideal))  :
    StableHlo.after (c3a (F := Ideal)) V (Proc.devRef .tc main_v33) = Cert.ReferenceIdeal.Read.val_main_v33 (F := Ideal) := by
  show StableHlo.after c3a V (Proc.devRef .tc main_v33) = _
  after_results_simp
  rfl

theorem c3a_keep18 (V : Valuation τ sig (Elt Ideal)) :
    StableHlo.after (c3a (F := Ideal)) V (Proc.devRef .tc main_v18) = V (Proc.devRef .tc main_v18) := by
  show StableHlo.after c3a V (Proc.devRef .tc main_v18) = _
  after_results_simp

theorem c3b_v35 (V : Valuation τ sig (Elt Ideal)) (x0 x1 : (⟨S4096x256, .f32⟩ : BufTy).Contents (Elt Ideal))
    (h32 : V (Proc.devRef .tc main_v32) = Cert.ReferenceIdeal.Read.val_main_v32 (F := Ideal))
    (h33 : V (Proc.devRef .tc main_v33) = Cert.ReferenceIdeal.Read.val_main_v33 (F := Ideal))
    (h18 : V (Proc.devRef .tc main_v18) = Cert.ReferenceIdeal.Read.val_main_v18 (F := Ideal) x0 x1) :
    StableHlo.after (c3b (F := Ideal)) V (Proc.devRef .tc main_v35) = Cert.ReferenceIdeal.Read.val_main_v35 (F := Ideal) x0 x1 := by
  show StableHlo.after c3b V (Proc.devRef .tc main_v35) = _
  after_results
  rw [h32, h33, h18]
  rfl

theorem c3b_keep18 (V : Valuation τ sig (Elt Ideal)) :
    StableHlo.after (c3b (F := Ideal)) V (Proc.devRef .tc main_v18) = V (Proc.devRef .tc main_v18) := by
  show StableHlo.after c3b V (Proc.devRef .tc main_v18) = _
  after_results_simp

theorem c3b_keep19 (V : Valuation τ sig (Elt Ideal)) :
    StableHlo.after (c3b (F := Ideal)) V (Proc.devRef .tc main_v19) = V (Proc.devRef .tc main_v19) := by
  show StableHlo.after c3b V (Proc.devRef .tc main_v19) = _
  after_results_simp

theorem c4a_v48 (V : Valuation τ sig (Elt Ideal))
    (h19 : V (Proc.devRef .tc main_v19) = Cert.ReferenceIdeal.Read.val_main_v19 (F := Ideal)) :
    StableHlo.after (c4a (F := Ideal)) V (Proc.devRef .tc main_v48) = Cert.ReferenceIdeal.Read.val_main_v48 (F := Ideal) := by
  show StableHlo.after c4a V (Proc.devRef .tc main_v48) = _
  after_results_simp
  rw [h19]
  rfl

theorem c4a_v49 (V : Valuation τ sig (Elt Ideal))
    (h19 : V (Proc.devRef .tc main_v19) = Cert.ReferenceIdeal.Read.val_main_v19 (F := Ideal)) :
    StableHlo.after (c4a (F := Ideal)) V (Proc.devRef .tc main_v49) = Cert.ReferenceIdeal.Read.val_main_v49 (F := Ideal) := by
  show StableHlo.after c4a V (Proc.devRef .tc main_v49) = _
  after_results_simp
  rw [h19]
  rfl

theorem c4a_keep18 (V : Valuation τ sig (Elt Ideal)) :
    StableHlo.after (c4a (F := Ideal)) V (Proc.devRef .tc main_v18) = V (Proc.devRef .tc main_v18) := by
  show StableHlo.after c4a V (Proc.devRef .tc main_v18) = _
  after_results_simp

theorem c4a_keep35 (V : Valuation τ sig (Elt Ideal)) :
    StableHlo.after (c4a (F := Ideal)) V (Proc.devRef .tc main_v35) = V (Proc.devRef .tc main_v35) := by
  show StableHlo.after c4a V (Proc.devRef .tc main_v35) = _
  after_results_simp

theorem c4b_v51 (V : Valuation τ sig (Elt Ideal)) (x0 x1 : (⟨S4096x256, .f32⟩ : BufTy).Contents (Elt Ideal))
    (h48 : V (Proc.devRef .tc main_v48) = Cert.ReferenceIdeal.Read.val_main_v48 (F := Ideal))
    (h49 : V (Proc.devRef .tc main_v49) = Cert.ReferenceIdeal.Read.val_main_v49 (F := Ideal))
    (h18 : V (Proc.devRef .tc main_v18) = Cert.ReferenceIdeal.Read.val_main_v18 (F := Ideal) x0 x1) :
    StableHlo.after (c4b (F := Ideal)) V (Proc.devRef .tc main_v51) = Cert.ReferenceIdeal.Read.val_main_v51 (F := Ideal) x0 x1 := by
  show StableHlo.after c4b V (Proc.devRef .tc main_v51) = _
  after_results
  rw [h48, h49, h18]
  rfl

theorem c4b_keep18 (V : Valuation τ sig (Elt Ideal)) :
    StableHlo.after (c4b (F := Ideal)) V (Proc.devRef .tc main_v18) = V (Proc.devRef .tc main_v18) := by
  show StableHlo.after c4b V (Proc.devRef .tc main_v18) = _
  after_results_simp

theorem c4b_keep35 (V : Valuation τ sig (Elt Ideal)) :
    StableHlo.after (c4b (F := Ideal)) V (Proc.devRef .tc main_v35) = V (Proc.devRef .tc main_v35) := by
  show StableHlo.after c4b V (Proc.devRef .tc main_v35) = _
  after_results_simp

theorem c5_v55 (V : Valuation τ sig (Elt Ideal)) (x0 x1 : (⟨S4096x256, .f32⟩ : BufTy).Contents (Elt Ideal))
    (h35 : V (Proc.devRef .tc main_v35) = Cert.ReferenceIdeal.Read.val_main_v35 (F := Ideal) x0 x1)
    (h51 : V (Proc.devRef .tc main_v51) = Cert.ReferenceIdeal.Read.val_main_v51 (F := Ideal) x0 x1) :
    StableHlo.after (c5 (F := Ideal)) V (Proc.devRef .tc main_v55) = Cert.ReferenceIdeal.Read.val_main_v55 (F := Ideal) x0 x1 := by
  show StableHlo.after c5 V (Proc.devRef .tc main_v55) = _
  after_results_simp
  rw [h35, h51]
  rfl

theorem c5_keep18 (V : Valuation τ sig (Elt Ideal)) :
    StableHlo.after (c5 (F := Ideal)) V (Proc.devRef .tc main_v18) = V (Proc.devRef .tc main_v18) := by
  show StableHlo.after c5 V (Proc.devRef .tc main_v18) = _
  after_results_simp

theorem c6_v68 (V : Valuation τ sig (Elt Ideal)) (x0 x1 : (⟨S4096x256, .f32⟩ : BufTy).Contents (Elt Ideal))
    (h18 : V (Proc.devRef .tc main_v18) = Cert.ReferenceIdeal.Read.val_main_v18 (F := Ideal) x0 x1) :
    StableHlo.after (c6 (F := Ideal)) V (Proc.devRef .tc main_v68) = Cert.ReferenceIdeal.Read.val_main_v68 (F := Ideal) x0 x1 := by
  show StableHlo.after c6 V (Proc.devRef .tc main_v68) = _
  after_results_simp
  rw [h18]
  rfl

theorem c6_keep55 (V : Valuation τ sig (Elt Ideal)) :
    StableHlo.after (c6 (F := Ideal)) V (Proc.devRef .tc main_v55) = V (Proc.devRef .tc main_v55) := by
  show StableHlo.after c6 V (Proc.devRef .tc main_v55) = _
  after_results_simp

theorem c7_v73 (V : Valuation τ sig (Elt Ideal)) (x0 x1 : (⟨S4096x256, .f32⟩ : BufTy).Contents (Elt Ideal))
    (h55 : V (Proc.devRef .tc main_v55) = Cert.ReferenceIdeal.Read.val_main_v55 (F := Ideal) x0 x1)
    (h68 : V (Proc.devRef .tc main_v68) = Cert.ReferenceIdeal.Read.val_main_v68 (F := Ideal) x0 x1) :
    StableHlo.after (c7 (F := Ideal)) V (Proc.devRef .tc main_v73) = Cert.ReferenceIdeal.Read.val_main_v73 (F := Ideal) x0 x1 := by
  show StableHlo.after c7 V (Proc.devRef .tc main_v73) = _
  after_results_simp
  rw [h55, h68]
  rfl

/-! ## The whole run -/

/-- The reference's result after its 95 operations is the last stage at the two argument arrays. -/
theorem ref_after (W : Valuation τ sig (Elt Ideal)) :
    StableHlo.after (ops (F := Ideal)) W (Proc.devRef .tc main_v73)
      = Cert.ReferenceIdeal.Read.val_main_v73 (F := Ideal) (W (Proc.devRef .tc main_arg0)) (W (Proc.devRef .tc main_arg1)) := by
  rw [ops_cut, after_append, after_append, after_append, after_append, after_append, after_append, after_append, after_append]
  have f16 := c1_v16 W
  have f18_2 := c2_v18 _ _ _ f16
  have f18_3a := (c3a_keep18 _).trans f18_2
  have f19_3a := c3a_v19 (StableHlo.after c2 (StableHlo.after c1 W))
  have f32_3a := c3a_v32 (StableHlo.after c2 (StableHlo.after c1 W))
  have f33_3a := c3a_v33 (StableHlo.after c2 (StableHlo.after c1 W))
  have f35_3b := c3b_v35 _ _ _ f32_3a f33_3a f18_3a
  have f18_3b := (c3b_keep18 _).trans f18_3a
  have f19_3b := (c3b_keep19 _).trans f19_3a
  have f48_4a := c4a_v48 _ f19_3b
  have f49_4a := c4a_v49 _ f19_3b
  have f18_4a := (c4a_keep18 _).trans f18_3b
  have f35_4a := (c4a_keep35 _).trans f35_3b
  have f51_4b := c4b_v51 _ _ _ f48_4a f49_4a f18_4a
  have f18_4b := (c4b_keep18 _).trans f18_4a
  have f35_4b := (c4b_keep35 _).trans f35_4a
  have f55_5 := c5_v55 _ _ _ f35_4b f51_4b
  have f18_5 := (c5_keep18 _).trans f18_4b
  have f68_6 := c6_v68 _ _ _ f18_5
  have f55_6 := (c6_keep55 _).trans f55_5
  exact c7_v73 _ _ _ f55_6 f68_6
/-- No operation writes an argument array. -/
theorem arg0_kept {F : FTy → Type} [FloatOps F] (W : Valuation τ sig (Elt F)) :
    StableHlo.after (ops (F := F)) W (Proc.devRef .tc main_arg0) = W (Proc.devRef .tc main_arg0) := by
  show StableHlo.after ops W (Proc.devRef .tc main_arg0) = _
  after_results_simp
theorem arg1_kept {F : FTy → Type} [FloatOps F] (W : Valuation τ sig (Elt F)) :
    StableHlo.after (ops (F := F)) W (Proc.devRef .tc main_arg1) = W (Proc.devRef .tc main_arg1) := by
  show StableHlo.after ops W (Proc.devRef .tc main_arg1) = _
  after_results_simp

end Cert.RefRun

end
-- ==== Proof.KernelCond.lean ====
/-
  The three branch conditions of the kernel body as propositions about the grid point (i₀, i₁), i₀ < 8 the row
  tile and i₁ < 4 the column stretch, and where on the grid of 32 points (point t is (t / 4, t % 4)) each holds:
  the accumulator restarts on stretch 0; the diagonal of the similarity matrix crosses the tile exactly when
  i₁ = i₀ / 2 (row tile i₀ holds rows 1024·i₀ … 1024·i₀ + 1023, stretch i₁ holds columns 2048·i₁ … 2048·i₁ + 2047);
  the accumulator is written out on stretch 3. Also: the step the body applies to the accumulator at a point.
-/
import proofs.«138062_j35948876267977_2_alg».proof.Proof.Gen.Kernel.Launch
import proofs.«138062_j35948876267977_2_alg».proof.Proof.Gen.Kernel.Skeleton
import proofs.«138062_j35948876267977_2_alg».proof.Proof.Gen.Kernel.Points
import Idealize.ShloMosaic.Lib.Pipeline.FrameBody
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator restarts: the stretch is the first. -/
abbrev cond1 (i : grid0.Coords) : Prop :=
  (Scalar.cmpi .ne (Scalar.extui (Scalar.cmpi .eq (BitVec.ofNat 32 (i 1).val) 0#32)) 0#32) = 1#1
/-- The tile meets the diagonal: 1024·i₀ < 2048·i₁ + 2048 and 2048·i₁ < 1024·i₀ + 1024. -/
abbrev cond2 (i : grid0.Coords) : Prop :=
  (Scalar.cmpi .ne (Scalar.extui (Scalar.andi
    (Scalar.cmpi .slt (Scalar.muli (BitVec.ofNat 32 (i 0).val) 1024#32) (Scalar.addi (Scalar.muli (BitVec.ofNat 32 (i 1).val) 2048#32) 2048#32))
    (Scalar.cmpi .slt (Scalar.muli (BitVec.ofNat 32 (i 1).val) 2048#32) (Scalar.addi (Scalar.muli (BitVec.ofNat 32 (i 0).val) 1024#32) 1024#32)))) 0#32) = 1#1
/-- The accumulator is written out: the stretch is the last. -/
abbrev cond3 (i : grid0.Coords) : Prop := k0_cond3 i = 1#1

/-- On the grid: the first stretch is the points divisible by 4; -/
theorem hcond1 : ∀ t : Fin cfg0.N, cond1 (grid0.coords t) ↔ t.val % 4 = 0 :=
  (by decide +kernel : ∀ t : Fin grid0.N, cond1 (grid0.coords t) ↔ t.val % 4 = 0)
/-- the diagonal crosses the tile of point t = 4·i₀ + i₁ when i₁ = i₀ / 2, that is t % 4 = t / 8; -/
theorem hcond2 : ∀ t : Fin cfg0.N, cond2 (grid0.coords t) ↔ t.val % 4 = t.val / 8 :=
  (by decide +kernel : ∀ t : Fin grid0.N, cond2 (grid0.coords t) ↔ t.val % 4 = t.val / 8)
/-- the last stretch is the points that are 3 modulo 4. -/
theorem hcond3 : ∀ t : Fin cfg0.N, cond3 (grid0.coords t) ↔ t.val % 4 = 3 :=
  (by decide +kernel : ∀ t : Fin grid0.N, cond3 (grid0.coords t) ↔ t.val % 4 = 3)

/-- No stretch is both the first and the last. -/
theorem not_cond1_cond3 (i : grid0.Coords) : cond1 i → cond3 i → False := by
  have h : ∀ j : Fin 4, ¬((Scalar.cmpi .ne (Scalar.extui (Scalar.cmpi .eq (BitVec.ofNat 32 j.val) 0#32)) 0#32) = 1#1
      ∧ (Scalar.cmpi .ne (Scalar.extui (Scalar.cmpi .eq (BitVec.ofNat 32 j.val) 3#32)) 0#32) = 1#1) := by decide
  intro h1 h3
  exact h (i 1) ⟨h1, h3⟩

/-- The output window is idle exactly off the last stretch, where the pipeline does not write it back either; -/
theorem idle2 : ∀ t : Fin cfg0.N, ¬cond3 (grid0.coords t) → cfg0.idle 2 (grid0.coords t) = true := by decide +kernel
theorem noFlush2 : ∀ t : Fin cfg0.N, ¬cond3 (grid0.coords t) → (cfg0.win 2).flush t = false := by decide +kernel
theorem live2 : ∀ t : Fin cfg0.N, cond3 (grid0.coords t) → cfg0.idle 2 (grid0.coords t) = false := by decide +kernel
/-- the input windows are never idle. -/
theorem live0 : ∀ i : grid0.Coords, cfg0.idle 0 i = false := fun _ => rfl
theorem live1 : ∀ i : grid0.Coords, cfg0.idle 1 i = false := fun _ => rfl

/-- What the body makes of the accumulator xs at grid point i, from the row tile x0 and the column tile x1 it
    loaded: zero in place of xs on the first stretch, plus the tile's row sums of exponentials, minus the
    diagonal's exponentials where the tile meets the diagonal. -/
def accStep (i : grid0.Coords) (x0 : Vec F S1024x256 .bf16) (x1 : Vec F S2048x256 .bf16) (xs : Vec F S1024x1 .f32) :
    Vec F S1024x1 .f32 :=
  if cond2 i then k0_pay4 i x0 x1 (k0_pay3 x0 x1 (if cond1 i then k0_pay1 else xs))
  else k0_pay3 x0 x1 (if cond1 i then k0_pay1 else xs)

/-- On the first stretch the step forgets what the accumulator held. -/
theorem accStep_of_cond1 (i : grid0.Coords) (h : cond1 i) (x0 : Vec F S1024x256 .bf16) (x1 : Vec F S2048x256 .bf16)
    (xs xs' : Vec F S1024x1 .f32) : accStep i x0 x1 xs = accStep i x0 x1 xs' := by
  unfold accStep; rw [if_pos h, if_pos h]

end Cert.Kernel.Body

end
-- ==== Proof.KernelBody.lean ====
/-
  The kernel body run at a symbolic grid point, once per reachable assignment of its three branch conditions.
  The body holds four buffers whole: the row tile x0 and the column tile x1 of the stacked matrix (read only), the
  output block xo, and the accumulator xs it carries from point to point. Every store it makes is of a whole
  [1024, 1] column, so whatever a buffer held before, it ends holding the last payload stored: the accumulator
  ends at accStep i x0 x1 xs, and the output block at the same value where it is written out, untouched elsewhere.
-/
import proofs.«138062_j35948876267977_2_alg».proof.Proof.KernelCond

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, however spelt. -/
theorem hz00 : (![0, 0] : Fin 2 → ℕ) = fun _ => 0 := by funext a; fin_cases a <;> rfl

/-- A load of the whole buffer after stores the LAST of which was of the whole buffer reads that store's payload. -/
theorem readCov_cons_unit_zero {Val : EltTy → Type} [∀ e, Nonempty (Val e)] {sig : RefSig} {κ : Kind} {sp : Space} {S : Shape} {e : EltTy}
    (v : View sig κ sp S e) {off : Fin S.rank → ℕ} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

set_option maxHeartbeats 1000000 in
/-- The body at a point where the accumulator restarts, the tile meets the diagonal and the accumulator is kept. -/
theorem run_TTF (c : Dev nD) (i : grid0.Coords) (arg2 : Memref sig .tc .vmem S1024x256 .bf16) (harg2 : arg2.IsWhole)
    (arg3 : Memref sig .tc .vmem S2048x256 .bf16) (harg3 : arg3.IsWhole) (arg4 : Memref sig .tc .vmem S1024x1 .f32) (harg4 : arg4.IsWhole)
    (arg5 : Memref sig .tc .vmem S1024x1 .f32) (harg5 : arg5.IsWhole)
    (hc1 : cond1 i) (hc2 : cond2 i) (hc3 : ¬cond3 i)
    (x0 : Vec F S1024x256 .bf16) (x1 : Vec F S2048x256 .bf16) (xo xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k0_pay4 i x0 x1 (k0_pay3 x0 x1 (k0_pay1 (F := F))))) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f2, %hf2, H2⟩, ⟨%fs, %hfs, HS0⟩, Hk⟩
  obtain rfl := harg2.eq_unread hf0; obtain rfl := harg3.eq_unread hf1; obtain rfl := harg4.eq_unread hf2; obtain rfl := harg5.eq_unread hfs
  have hz : (![0, 0] : Fin 2 → ℕ) = fun _ => 0 := hz00
  have e0 : View.readAt (Elt F) arg2.view (Rect.unit ![0, 0] S1024x256.size inb_S1024x256_S1024x256_0_0).toLoadRect (harg2.unread x0) = x0 := by
    rw [View.readAt_eq_ld, hf0]; exact View.ld_unit_zero hz _ x0
  have e1 : View.readAt (Elt F) arg3.view (Rect.unit ![0, 0] S2048x256.size inb_S2048x256_S2048x256_0_0).toLoadRect (harg3.unread x1) = x1 := by
    rw [View.readAt_eq_ld, hf1]; exact View.ld_unit_zero hz _ x1
  have es : View.readAt (Elt F) arg5.view (Rect.unit ![0, 0] S1024x1.size inb_S1024x1_S1024x1_0_0).toLoadRect (harg5.unread xs) = xs := by
    rw [View.readAt_eq_ld, hfs]; exact View.ld_unit_zero hz _ xs
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr; swap; · iexact HS0
  ipureintro
  refine (View.read_writes_eq_canon _ _ _ (fun y => ⟨_, List.mem_cons_self, View.mem_set_unit_zero hz inb_S1024x1_S1024x1_0_0 y⟩)).trans ?_
  refine (View.canon_cons_unit_zero hz inb_S1024x1_S1024x1_0_0 _ _).trans ?_
  sl_unfold_run_names
  simp only [e0, e1, es, readCov_cons_unit_zero (S := S1024x1) _ hz]

set_option maxHeartbeats 1000000 in
/-- The body at a point where the accumulator restarts, the tile misses the diagonal and the accumulator is kept. -/
theorem run_TFF (c : Dev nD) (i : grid0.Coords) (arg2 : Memref sig .tc .vmem S1024x256 .bf16) (harg2 : arg2.IsWhole)
    (arg3 : Memref sig .tc .vmem S2048x256 .bf16) (harg3 : arg3.IsWhole) (arg4 : Memref sig .tc .vmem S1024x1 .f32) (harg4 : arg4.IsWhole)
    (arg5 : Memref sig .tc .vmem S1024x1 .f32) (harg5 : arg5.IsWhole)
    (hc1 : cond1 i) (hc2 : ¬cond2 i) (hc3 : ¬cond3 i)
    (x0 : Vec F S1024x256 .bf16) (x1 : Vec F S2048x256 .bf16) (xo xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k0_pay3 x0 x1 (k0_pay1 (F := F)))) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f2, %hf2, H2⟩, ⟨%fs, %hfs, HS0⟩, Hk⟩
  obtain rfl := harg2.eq_unread hf0; obtain rfl := harg3.eq_unread hf1; obtain rfl := harg4.eq_unread hf2; obtain rfl := harg5.eq_unread hfs
  have hz : (![0, 0] : Fin 2 → ℕ) = fun _ => 0 := hz00
  have e0 : View.readAt (Elt F) arg2.view (Rect.unit ![0, 0] S1024x256.size inb_S1024x256_S1024x256_0_0).toLoadRect (harg2.unread x0) = x0 := by
    rw [View.readAt_eq_ld, hf0]; exact View.ld_unit_zero hz _ x0
  have e1 : View.readAt (Elt F) arg3.view (Rect.unit ![0, 0] S2048x256.size inb_S2048x256_S2048x256_0_0).toLoadRect (harg3.unread x1) = x1 := by
    rw [View.readAt_eq_ld, hf1]; exact View.ld_unit_zero hz _ x1
  have es : View.readAt (Elt F) arg5.view (Rect.unit ![0, 0] S1024x1.size inb_S1024x1_S1024x1_0_0).toLoadRect (harg5.unread xs) = xs := by
    rw [View.readAt_eq_ld, hfs]; exact View.ld_unit_zero hz _ xs
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr; swap; · iexact HS0
  ipureintro
  refine (View.read_writes_eq_canon _ _ _ (fun y => ⟨_, List.mem_cons_self, View.mem_set_unit_zero hz inb_S1024x1_S1024x1_0_0 y⟩)).trans ?_
  refine (View.canon_cons_unit_zero hz inb_S1024x1_S1024x1_0_0 _ _).trans ?_
  sl_unfold_run_names
  simp only [e0, e1, es, readCov_cons_unit_zero (S := S1024x1) _ hz]

set_option maxHeartbeats 1000000 in
/-- The body at a point where the accumulator carries on, the tile meets the diagonal and the accumulator is kept. -/
theorem run_FTF (c : Dev nD) (i : grid0.Coords) (arg2 : Memref sig .tc .vmem S1024x256 .bf16) (harg2 : arg2.IsWhole)
    (arg3 : Memref sig .tc .vmem S2048x256 .bf16) (harg3 : arg3.IsWhole) (arg4 : Memref sig .tc .vmem S1024x1 .f32) (harg4 : arg4.IsWhole)
    (arg5 : Memref sig .tc .vmem S1024x1 .f32) (harg5 : arg5.IsWhole)
    (hc1 : ¬cond1 i) (hc2 : cond2 i) (hc3 : ¬cond3 i)
    (x0 : Vec F S1024x256 .bf16) (x1 : Vec F S2048x256 .bf16) (xo xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k0_pay4 i x0 x1 (k0_pay3 x0 x1 xs))) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f2, %hf2, H2⟩, ⟨%fs, %hfs, HS0⟩, Hk⟩
  obtain rfl := harg2.eq_unread hf0; obtain rfl := harg3.eq_unread hf1; obtain rfl := harg4.eq_unread hf2; obtain rfl := harg5.eq_unread hfs
  have hz : (![0, 0] : Fin 2 → ℕ) = fun _ => 0 := hz00
  have e0 : View.readAt (Elt F) arg2.view (Rect.unit ![0, 0] S1024x256.size inb_S1024x256_S1024x256_0_0).toLoadRect (harg2.unread x0) = x0 := by
    rw [View.readAt_eq_ld, hf0]; exact View.ld_unit_zero hz _ x0
  have e1 : View.readAt (Elt F) arg3.view (Rect.unit ![0, 0] S2048x256.size inb_S2048x256_S2048x256_0_0).toLoadRect (harg3.unread x1) = x1 := by
    rw [View.readAt_eq_ld, hf1]; exact View.ld_unit_zero hz _ x1
  have es : View.readAt (Elt F) arg5.view (Rect.unit ![0, 0] S1024x1.size inb_S1024x1_S1024x1_0_0).toLoadRect (harg5.unread xs) = xs := by
    rw [View.readAt_eq_ld, hfs]; exact View.ld_unit_zero hz _ xs
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr; swap; · iexact HS0
  ipureintro
  refine (View.read_writes_eq_canon _ _ _ (fun y => ⟨_, List.mem_cons_self, View.mem_set_unit_zero hz inb_S1024x1_S1024x1_0_0 y⟩)).trans ?_
  refine (View.canon_cons_unit_zero hz inb_S1024x1_S1024x1_0_0 _ _).trans ?_
  sl_unfold_run_names
  simp only [e0, e1, es, readCov_cons_unit_zero (S := S1024x1) _ hz]

end Cert.Kernel.Body

end
-- ==== Proof.KernelBody2.lean ====
/-
  The remaining control cases of the kernel body, and the body's run at ANY grid point: whichever way the three
  conditions fall, the accumulator ends at accStep i x0 x1 xs and the output block at that value on the last
  stretch, untouched elsewhere (a first stretch is never a last one).
-/
import proofs.«138062_j35948876267977_2_alg».proof.Proof.KernelBody

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the accumulator carries on, the tile misses the diagonal and the accumulator is kept. -/
theorem run_FFF (c : Dev nD) (i : grid0.Coords) (arg2 : Memref sig .tc .vmem S1024x256 .bf16) (harg2 : arg2.IsWhole)
    (arg3 : Memref sig .tc .vmem S2048x256 .bf16) (harg3 : arg3.IsWhole) (arg4 : Memref sig .tc .vmem S1024x1 .f32) (harg4 : arg4.IsWhole)
    (arg5 : Memref sig .tc .vmem S1024x1 .f32) (harg5 : arg5.IsWhole)
    (hc1 : ¬cond1 i) (hc2 : ¬cond2 i) (hc3 : ¬cond3 i)
    (x0 : Vec F S1024x256 .bf16) (x1 : Vec F S2048x256 .bf16) (xo xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k0_pay3 x0 x1 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f2, %hf2, H2⟩, ⟨%fs, %hfs, HS0⟩, Hk⟩
  obtain rfl := harg2.eq_unread hf0; obtain rfl := harg3.eq_unread hf1; obtain rfl := harg4.eq_unread hf2; obtain rfl := harg5.eq_unread hfs
  have hz : (![0, 0] : Fin 2 → ℕ) = fun _ => 0 := hz00
  have e0 : View.readAt (Elt F) arg2.view (Rect.unit ![0, 0] S1024x256.size inb_S1024x256_S1024x256_0_0).toLoadRect (harg2.unread x0) = x0 := by
    rw [View.readAt_eq_ld, hf0]; exact View.ld_unit_zero hz _ x0
  have e1 : View.readAt (Elt F) arg3.view (Rect.unit ![0, 0] S2048x256.size inb_S2048x256_S2048x256_0_0).toLoadRect (harg3.unread x1) = x1 := by
    rw [View.readAt_eq_ld, hf1]; exact View.ld_unit_zero hz _ x1
  have es : View.readAt (Elt F) arg5.view (Rect.unit ![0, 0] S1024x1.size inb_S1024x1_S1024x1_0_0).toLoadRect (harg5.unread xs) = xs := by
    rw [View.readAt_eq_ld, hfs]; exact View.ld_unit_zero hz _ xs
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr; swap; · iexact HS0
  ipureintro
  refine (View.read_writes_eq_canon _ _ _ (fun y => ⟨_, List.mem_cons_self, View.mem_set_unit_zero hz inb_S1024x1_S1024x1_0_0 y⟩)).trans ?_
  refine (View.canon_cons_unit_zero hz inb_S1024x1_S1024x1_0_0 _ _).trans ?_
  sl_unfold_run_names
  simp only [e0, e1, es, readCov_cons_unit_zero (S := S1024x1) _ hz]

set_option maxHeartbeats 1000000 in
/-- The body at a point where the accumulator carries on, the tile meets the diagonal and the accumulator is written out. -/
theorem run_FTT (c : Dev nD) (i : grid0.Coords) (arg2 : Memref sig .tc .vmem S1024x256 .bf16) (harg2 : arg2.IsWhole)
    (arg3 : Memref sig .tc .vmem S2048x256 .bf16) (harg3 : arg3.IsWhole) (arg4 : Memref sig .tc .vmem S1024x1 .f32) (harg4 : arg4.IsWhole)
    (arg5 : Memref sig .tc .vmem S1024x1 .f32) (harg5 : arg5.IsWhole)
    (hc1 : ¬cond1 i) (hc2 : cond2 i) (hc3 : cond3 i)
    (x0 : Vec F S1024x256 .bf16) (x1 : Vec F S2048x256 .bf16) (xo xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare (k0_pay4 i x0 x1 (k0_pay3 x0 x1 xs))
            ∗ owns (c : Thread nD τ) arg5 fullShare (k0_pay4 i x0 x1 (k0_pay3 x0 x1 xs))) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f2, %hf2, H2⟩, ⟨%fs, %hfs, HS0⟩, Hk⟩
  obtain rfl := harg2.eq_unread hf0; obtain rfl := harg3.eq_unread hf1; obtain rfl := harg4.eq_unread hf2; obtain rfl := harg5.eq_unread hfs
  have hz : (![0, 0] : Fin 2 → ℕ) = fun _ => 0 := hz00
  have e0 : View.readAt (Elt F) arg2.view (Rect.unit ![0, 0] S1024x256.size inb_S1024x256_S1024x256_0_0).toLoadRect (harg2.unread x0) = x0 := by
    rw [View.readAt_eq_ld, hf0]; exact View.ld_unit_zero hz _ x0
  have e1 : View.readAt (Elt F) arg3.view (Rect.unit ![0, 0] S2048x256.size inb_S2048x256_S2048x256_0_0).toLoadRect (harg3.unread x1) = x1 := by
    rw [View.readAt_eq_ld, hf1]; exact View.ld_unit_zero hz _ x1
  have es : View.readAt (Elt F) arg5.view (Rect.unit ![0, 0] S1024x1.size inb_S1024x1_S1024x1_0_0).toLoadRect (harg5.unread xs) = xs := by
    rw [View.readAt_eq_ld, hfs]; exact View.ld_unit_zero hz _ xs
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro
    refine (View.read_writes_eq_canon _ _ _ (fun y => ⟨_, List.mem_cons_self, View.mem_set_unit_zero hz inb_S1024x1_S1024x1_0_0 y⟩)).trans ?_
    refine (View.canon_cons_unit_zero hz inb_S1024x1_S1024x1_0_0 _ _).trans ?_
    sl_unfold_run_names
    simp only [e0, e1, es, readCov_cons_unit_zero (S := S1024x1) _ hz]
  iexists _; isplitr; swap; · iexact HS0
  ipureintro
  refine (View.read_writes_eq_canon _ _ _ (fun y => ⟨_, List.mem_cons_self, View.mem_set_unit_zero hz inb_S1024x1_S1024x1_0_0 y⟩)).trans ?_
  refine (View.canon_cons_unit_zero hz inb_S1024x1_S1024x1_0_0 _ _).trans ?_
  sl_unfold_run_names
  simp only [e0, e1, es, readCov_cons_unit_zero (S := S1024x1) _ hz]

set_option maxHeartbeats 1000000 in
/-- The body at a point where the accumulator carries on, the tile misses the diagonal and the accumulator is written out. -/
theorem run_FFT (c : Dev nD) (i : grid0.Coords) (arg2 : Memref sig .tc .vmem S1024x256 .bf16) (harg2 : arg2.IsWhole)
    (arg3 : Memref sig .tc .vmem S2048x256 .bf16) (harg3 : arg3.IsWhole) (arg4 : Memref sig .tc .vmem S1024x1 .f32) (harg4 : arg4.IsWhole)
    (arg5 : Memref sig .tc .vmem S1024x1 .f32) (harg5 : arg5.IsWhole)
    (hc1 : ¬cond1 i) (hc2 : ¬cond2 i) (hc3 : cond3 i)
    (x0 : Vec F S1024x256 .bf16) (x1 : Vec F S2048x256 .bf16) (xo xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare (k0_pay3 x0 x1 xs)
            ∗ owns (c : Thread nD τ) arg5 fullShare (k0_pay3 x0 x1 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f2, %hf2, H2⟩, ⟨%fs, %hfs, HS0⟩, Hk⟩
  obtain rfl := harg2.eq_unread hf0; obtain rfl := harg3.eq_unread hf1; obtain rfl := harg4.eq_unread hf2; obtain rfl := harg5.eq_unread hfs
  have hz : (![0, 0] : Fin 2 → ℕ) = fun _ => 0 := hz00
  have e0 : View.readAt (Elt F) arg2.view (Rect.unit ![0, 0] S1024x256.size inb_S1024x256_S1024x256_0_0).toLoadRect (harg2.unread x0) = x0 := by
    rw [View.readAt_eq_ld, hf0]; exact View.ld_unit_zero hz _ x0
  have e1 : View.readAt (Elt F) arg3.view (Rect.unit ![0, 0] S2048x256.size inb_S2048x256_S2048x256_0_0).toLoadRect (harg3.unread x1) = x1 := by
    rw [View.readAt_eq_ld, hf1]; exact View.ld_unit_zero hz _ x1
  have es : View.readAt (Elt F) arg5.view (Rect.unit ![0, 0] S1024x1.size inb_S1024x1_S1024x1_0_0).toLoadRect (harg5.unread xs) = xs := by
    rw [View.readAt_eq_ld, hfs]; exact View.ld_unit_zero hz _ xs
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro
    refine (View.read_writes_eq_canon _ _ _ (fun y => ⟨_, List.mem_cons_self, View.mem_set_unit_zero hz inb_S1024x1_S1024x1_0_0 y⟩)).trans ?_
    refine (View.canon_cons_unit_zero hz inb_S1024x1_S1024x1_0_0 _ _).trans ?_
    sl_unfold_run_names
    simp only [e0, e1, es, readCov_cons_unit_zero (S := S1024x1) _ hz]
  iexists _; isplitr; swap; · iexact HS0
  ipureintro
  refine (View.read_writes_eq_canon _ _ _ (fun y => ⟨_, List.mem_cons_self, View.mem_set_unit_zero hz inb_S1024x1_S1024x1_0_0 y⟩)).trans ?_
  refine (View.canon_cons_unit_zero hz inb_S1024x1_S1024x1_0_0 _ _).trans ?_
  sl_unfold_run_names
  simp only [e0, e1, es, readCov_cons_unit_zero (S := S1024x1) _ hz]

/-- The body at any grid point. -/
theorem kernelRun (c : Dev nD) (i : grid0.Coords) (arg2 : Memref sig .tc .vmem S1024x256 .bf16) (harg2 : arg2.IsWhole)
    (arg3 : Memref sig .tc .vmem S2048x256 .bf16) (harg3 : arg3.IsWhole) (arg4 : Memref sig .tc .vmem S1024x1 .f32) (harg4 : arg4.IsWhole)
    (arg5 : Memref sig .tc .vmem S1024x1 .f32) (harg5 : arg5.IsWhole)
    (x0 : Vec F S1024x256 .bf16) (x1 : Vec F S2048x256 .bf16) (xo xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare (if cond3 i then accStep i x0 x1 xs else xo)
            ∗ owns (c : Thread nD τ) arg5 fullShare (accStep i x0 x1 xs)) -∗ K ⟨⟩))
      ⊢ wp frame (wpE (defs₀ (F := F)) Variants.none c none) E (cc0__denom_kernel i arg2 harg2 arg3 harg3 arg4 harg4 arg5 harg5) K := by
  by_cases h1 : cond1 i <;> by_cases h2 : cond2 i <;> by_cases h3 : cond3 i
  · exact absurd h3 (fun h => not_cond1_cond3 i h1 h)
  · unfold accStep; rw [if_neg h3, if_pos h2, if_pos h1]
    exact run_TTF c i arg2 harg2 arg3 harg3 arg4 harg4 arg5 harg5 h1 h2 h3 x0 x1 xo xs E K
  · exact absurd h3 (fun h => not_cond1_cond3 i h1 h)
  · unfold accStep; rw [if_neg h3, if_neg h2, if_pos h1]
    exact run_TFF c i arg2 harg2 arg3 harg3 arg4 harg4 arg5 harg5 h1 h2 h3 x0 x1 xo xs E K
  · unfold accStep; rw [if_pos h3, if_pos h2, if_neg h1]
    exact run_FTT c i arg2 harg2 arg3 harg3 arg4 harg4 arg5 harg5 h1 h2 h3 x0 x1 xo xs E K
  · unfold accStep; rw [if_neg h3, if_pos h2, if_neg h1]
    exact run_FTF c i arg2 harg2 arg3 harg3 arg4 harg4 arg5 harg5 h1 h2 h3 x0 x1 xo xs E K
  · unfold accStep; rw [if_pos h3, if_neg h2, if_neg h1]
    exact run_FFT c i arg2 harg2 arg3 harg3 arg4 harg4 arg5 harg5 h1 h2 h3 x0 x1 xo xs E K
  · unfold accStep; rw [if_neg h3, if_neg h2, if_neg h1]
    exact run_FFF c i arg2 harg2 arg3 harg3 arg4 harg4 arg5 harg5 h1 h2 h3 x0 x1 xo xs E K

/-- On a last stretch the output block ends at the accumulator's value; -/
theorem kernelRun_out (c : Dev nD) (i : grid0.Coords) (arg2 : Memref sig .tc .vmem S1024x256 .bf16) (harg2 : arg2.IsWhole)
    (arg3 : Memref sig .tc .vmem S2048x256 .bf16) (harg3 : arg3.IsWhole) (arg4 : Memref sig .tc .vmem S1024x1 .f32) (harg4 : arg4.IsWhole)
    (arg5 : Memref sig .tc .vmem S1024x1 .f32) (harg5 : arg5.IsWhole) (h3 : cond3 i)
    (x0 : Vec F S1024x256 .bf16) (x1 : Vec F S2048x256 .bf16) (xo xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare (accStep i x0 x1 xs)
            ∗ owns (c : Thread nD τ) arg5 fullShare (accStep i x0 x1 xs)) -∗ K ⟨⟩))
      ⊢ wp frame (wpE (defs₀ (F := F)) Variants.none c none) E (cc0__denom_kernel i arg2 harg2 arg3 harg3 arg4 harg4 arg5 harg5) K := by
  have h := kernelRun c i arg2 harg2 arg3 harg3 arg4 harg4 arg5 harg5 x0 x1 xo xs E K
  rwa [if_pos h3] at h

/-- elsewhere it is left as it was found. -/
theorem kernelRun_idle (c : Dev nD) (i : grid0.Coords) (arg2 : Memref sig .tc .vmem S1024x256 .bf16) (harg2 : arg2.IsWhole)
    (arg3 : Memref sig .tc .vmem S2048x256 .bf16) (harg3 : arg3.IsWhole) (arg4 : Memref sig .tc .vmem S1024x1 .f32) (harg4 : arg4.IsWhole)
    (arg5 : Memref sig .tc .vmem S1024x1 .f32) (harg5 : arg5.IsWhole) (h3 : ¬cond3 i)
    (x0 : Vec F S1024x256 .bf16) (x1 : Vec F S2048x256 .bf16) (xo xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (accStep i x0 x1 xs)) -∗ K ⟨⟩))
      ⊢ wp frame (wpE (defs₀ (F := F)) Variants.none c none) E (cc0__denom_kernel i arg2 harg2 arg3 harg3 arg4 harg4 arg5 harg5) K := by
  have h := kernelRun c i arg2 harg2 arg3 harg3 arg4 harg4 arg5 harg5 x0 x1 xo xs E K
  rwa [if_neg h3] at h

end Cert.Kernel.Body

end
-- ==== Proof.KernelData.lean ====
/-
  The pipeline's proof data on one core. The region finds the stacked matrix (the array both input windows
  read) as the host operations before it left it. At grid point t = 4·i₀ + i₁ the first window holds rows
  1024·i₀ … of that array and the second rows 2048·i₁ …; the accumulator after point t is accAt t, the step of
  the point applied to what the point before left (the first point of a row tile restarts it, so what preceded
  does not matter); the output block is written on the last stretch only, with the accumulator's value.
-/
import proofs.«138062_j35948876267977_2_alg».proof.Proof.KernelBody2

set_option maxRecDepth 16384

noncomputable section

namespace Cert.Kernel.Data

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Body

variable (m : (ℓ : Loc nD τ sig) → Buf (Elt F) ℓ)

/-- Core c's buffers when the region is entered: the host operations before it have run. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The accumulator after point n. -/
def accAt (c : Dev nD) : (n : ℕ) → n < cfg0.N → Vec F S1024x1 .f32
  | 0, hn => accStep (grid0.coords ⟨0, hn⟩) (iblk m c 0 ⟨0, hn⟩) (iblk m c 1 ⟨0, hn⟩) (k0_pay1 (F := F))
  | n + 1, hn => accStep (grid0.coords ⟨n + 1, hn⟩) (iblk m c 0 ⟨n + 1, hn⟩) (iblk m c 1 ⟨n + 1, hn⟩) (accAt c n (Nat.lt_of_succ_lt hn))

/-- After a point that is not the first: the step over what the point before left. -/
theorem accAt_pos (c : Dev nD) (t : Fin cfg0.N) (ht : t.val ≠ 0) :
    accAt m c t.val t.isLt = accStep (grid0.coords t) (iblk m c 0 t) (iblk m c 1 t) (accAt m c (t.val - 1) (Nat.lt_of_le_of_lt (Nat.sub_le _ _) t.isLt)) := by
  obtain ⟨n, hn⟩ := t
  cases n with
  | zero => exact absurd rfl ht
  | succ n => rfl

/-- After a point on a first stretch: the step over anything. -/
theorem accAt_restart (c : Dev nD) (t : Fin cfg0.N) (h : cond1 (grid0.coords t)) (xs : Vec F S1024x1 .f32) :
    accAt m c t.val t.isLt = accStep (grid0.coords t) (iblk m c 0 t) (iblk m c 1 t) xs := by
  obtain ⟨n, hn⟩ := t
  cases n with
  | zero => exact accStep_of_cond1 _ h _ _ _ _
  | succ n => exact accStep_of_cond1 _ h _ _ _ _

/-- The scratch operand: a whole scoped buffer of the kernel's own. -/
abbrev scM : Memref sig .tc .vmem S1024x1 .f32 := Memref.whole cc0_scratch0

/-- The scoped buffers no window stages are the scratch, owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; rfl

/-- The region invariant before position n: the scratch at anything before the first point, at the accumulator's
    value afterwards. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-- The proof data: the arrays as the region finds them; after the body each input window at its block and the
    output at the accumulator's value; the invariant PhiS; the stacked matrix's buffer shared between its two
    windows, the left half of the full share and the right; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]

theorem Phi_castSucc (c : Dev nD) (t : Fin cfg0.N) :
    (dats m 0 c).Φ t.castSucc = PhiS m c t.val (Nat.le_of_lt t.isLt) := by
  dsimp only [dats]; simp only [Fin.coe_castSucc]

/-- Each input window's current staging buffer holds its block at every point, fetched there or not: where it is
    not fetched its block index has not moved. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

end Cert.Kernel.Data

end
-- ==== Proof.KernelOblig.lean ====
/-
  The body obligation: at every grid point, from the region invariant (the scratch at what the point before left),
  the input windows' staging buffers at their blocks and the output window's at whatever it holds, the kernel body
  runs to the invariant of the next point (the scratch at this point's accumulator value), the inputs as they were,
  and the output block at the accumulator's value on a last stretch, as it was found elsewhere.
-/
import proofs.«138062_j35948876267977_2_alg».proof.Proof.KernelData

set_option maxRecDepth 16384

noncomputable section

namespace Cert.Kernel.Data

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Body

variable (m : (ℓ : Loc nD τ sig) → Buf (Elt F) ℓ)

/-- Each window's current staging memref at point t, as the pipeline passes it to the body, and its wholeness. -/
abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = owns (c : Thread nD τ) scM fullShare (accAt m c t.val t.isLt) from rfl]
  rw [show (dats m 0 c).leavesExact 0 t = owns (c : Thread nD τ) (ms0 t) fullShare ((dats m 0 c).after 0 t) from by
    unfold Dat.leavesExact; rw [live0], after0]
  rw [show (dats m 0 c).leavesExact 1 t = owns (c : Thread nD τ) (ms1 t) fullShare ((dats m 0 c).after 1 t) from by
    unfold Dat.leavesExact; rw [live1], after1]
  have hN : t.val < 32 := lt_of_lt_of_eq t.isLt (show cfg0.N = 32 from N_0)
  by_cases h3 : cond3 (grid0.coords t)
  · have h3' : t.val % 4 = 3 := (hcond3 t).mp h3
    have hz : t.val ≠ 0 := by omega
    rw [show (dats m 0 c).leavesExact 2 t = owns (c : Thread nD τ) (ms2 t) fullShare ((dats m 0 c).after 2 t) from by
      unfold Dat.leavesExact; rw [live2 t h3], after2]
    rw [Phi_castSucc m c t, PhiS_pos m c _ _ hz, accAt_pos m c t hz]
    iintro ⟨HS, Ho, ⟨%d0, H0⟩, ⟨%d1, H1⟩, ⟨%d2, H2⟩⟩
    iapply (kernelRun_out c (grid0.coords t) _ _ _ _ _ _ _ _ h3 (iblk m c 0 t) (iblk m c 1 t) _ _ Set.univ _)
    isplitl [H0]; · iexact H0
    isplitl [H1]; · iexact H1
    isplitl [H2]; · iexact H2
    isplitl [HS]; · iexact HS
    iintro ⟨H0, H1, H2, HS⟩
    isplitl [HS]; · iexact HS
    isplitl [Ho]; · iexact Ho
    isplitl [H0]; · iexact H0
    isplitl [H1]; · iexact H1
    iexact H2
  · rw [Dat.leavesExact_idle (dats m 0 c) 2 t (idle2 t h3) (noFlush2 t h3)]
    by_cases hz : t.val = 0
    · have h1 : cond1 (grid0.coords t) := (hcond1 t).mpr (by omega)
      rw [Phi_castSucc m c t, show PhiS m c t.val (Nat.le_of_lt t.isLt) = iprop(∃ d, owns (c : Thread nD τ) scM fullShare d) from by
        obtain ⟨n, hn⟩ := t; cases n with
        | zero => rfl
        | succ n => exact absurd hz (Nat.succ_ne_zero n)]
      iintro ⟨⟨%ds, HS⟩, Ho, ⟨%d0, H0⟩, ⟨%d1, H1⟩, ⟨%d2, H2⟩⟩
      rw [accAt_restart m c t h1 ds]
      iapply (kernelRun_idle c (grid0.coords t) _ _ _ _ _ _ _ _ h3 (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexists _; iexact H2
    · rw [Phi_castSucc m c t, PhiS_pos m c _ _ hz, accAt_pos m c t hz]
      iintro ⟨HS, Ho, ⟨%d0, H0⟩, ⟨%d1, H1⟩, ⟨%d2, H2⟩⟩
      iapply (kernelRun_idle c (grid0.coords t) _ _ _ _ _ _ _ _ h3 (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Data

end
-- ==== Proof.KernelLaunch.lean ====
/-
  The run of the whole program. The host operations before the pallas_call, the pallas_call, the host operations
  after it, composed: every weakly fair execution terminates without a fault, the two argument arrays end as they
  were, and the result ends at the value the last host operations compute from the array the pallas_call wrote.

  The pallas_call reads ONE array, the stacked matrix, through two windows. Going in, that array's buffer, held
  whole, is split in two halves of its share, one per window, and the output array's buffer goes in whole; coming
  out, the two halves, still at the contents they went in with (an input array is never written), are joined again,
  and the output array is at what the write-backs left. Every other buffer of the device bypasses the region.
-/
import proofs.«138062_j35948876267977_2_alg».proof.Proof.KernelOblig
import Idealize.ShloMosaic.Lib.Pipeline.Frame

set_option maxRecDepth 16384

noncomputable section

namespace Cert.Kernel.Launch

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Body Cert.Kernel.Data

/-- The pipeline library's algebra is the whole of the proof's. -/
abbrev EP : Emb (UR sig nD τ) (MT nD τ sig Unit (Elt F) ℕ (UR sig nD τ) ℕ) := emb₁

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- Core c's buffers at launch. -/
abbrev Vl (c : Dev nD) : Valuation τ sig (Elt F) := fun b => m (c, b)

/-- What rides beside the buffers: the core owes nothing. -/
abbrev R (c : Dev nD) : sProp 𝕄 := iprop(∃ W, owes (c : Thread nD τ) (0 : CellTallies nD τ sig Unit) W)

/-- The buffers when the region is left: as it found them, but the output array at what the write-backs left. -/
def V1 (c : Dev nD) : Valuation τ sig (Elt F) :=
  Function.update (V0 m c) (Proc.devRef .tc main_v24) ((dats m 0 c).arrAt 2 cfg0.N)

/-- And at the end. -/
abbrev V2 (c : Dev nD) : Valuation τ sig (Elt F) := StableHlo.after hostOps1 (V1 m c)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The host operations before the region, over the device's unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (Vl m) R

/-- The host operations after it. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V1 m) R

/-- The buffers behind the windows' arrays are two: the stacked matrix's and the output's. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v17) ↦{fullShare} W main_v17) ∗ (((c : Thread nD τ).loc main_v24) ↦{fullShare} W main_v24)) := by
  unfold Pipeline.arrBufs
  exact bigSep_eq_bigSepL_of_eq [main_v17, main_v24] (by decide) (by decide) _

/-- The pipeline's arrays, window by window: the stacked matrix's buffer at the left half of the full share, again
    at the right half, the output's whole. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_v17) ↦{fullShare.left} G 0) ∗ (((c : Thread nD τ).loc main_v17) ↦{fullShare.right} G 1)
          ∗ (((c : Thread nD τ).loc main_v24) ↦{fullShare} G 2)) := by
  unfold Dat.arrays
  rw [bigSep_W0]
  rw [(arr_whole0 0).set_eq_univ, (arr_whole0 2).set_eq_univ]
  rfl

/-- Going in: the two buffers, whole, make the pipeline's arrays at the region-entry contents. -/
theorem arrays_in (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨H17, H24⟩
  ihave H17 := (pointsTo_share (PosShare.mem_left_op_right fullShare)).1 $$ H17
  icases H17 with ⟨Hl, Hr⟩
  isplitl [Hl]; · iexact Hl
  isplitl [Hr]; · iexact Hr
  iexact H24

/-- Coming out: the pipeline's arrays at their final contents make the two buffers, whole, the stacked matrix's as
    it went in and the output's at what the write-backs left. -/
theorem arrays_out (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => V1 m c (Proc.devRef .tc b)) := by
  rw [arrBufs_eq, arrays_eq]
  rw [(dats m 0 c).arrAt_in 0 rfl, (dats m 0 c).arrAt_in 1 rfl]
  rw [show V1 m c (Proc.devRef .tc main_v17) = V m c main_v17 from Function.update_of_ne (by decide) _ _,
    show V1 m c (Proc.devRef .tc main_v24) = (dats m 0 c).arrAt 2 cfg0.N from Function.update_self _ _ _]
  show iprop((((c : Thread nD τ).loc main_v17) ↦{fullShare.left} V m c main_v17) ∗ (((c : Thread nD τ).loc main_v17) ↦{fullShare.right} V m c main_v17)
      ∗ (((c : Thread nD τ).loc main_v24) ↦{fullShare} (dats m 0 c).arrAt 2 cfg0.N)) ⊢ _
  iintro ⟨Hl, Hr, H24⟩
  ihave H17 := (pointsTo_share (PosShare.mem_left_op_right fullShare)).2 $$ [Hl Hr]
  · isplitl [Hl] <;> iassumption
  isplitl [H17]; · iexact H17
  iexact H24

/-- The buffers that bypass the region are the same before and after: the output array's is not among them. -/
theorem rest_eq (c : Dev nD) :
    (Pipeline.unscopedRest (Ix := Unit) (Name := ℕ) (U := UR sig nD τ) (Lvl := ℕ) spec0 c (fun b => V1 m c (Proc.devRef .tc b)) : sProp 𝕄)
      = Pipeline.unscopedRest spec0 c (V m c) := by
  unfold Pipeline.unscopedRest
  refine bigSep_congr fun b hb => ?_
  have hne : b ≠ main_v24 := fun h => (Finset.mem_sdiff.mp hb).2 (h ▸ Finset.mem_image.mpr ⟨2, Finset.mem_univ _, rfl⟩)
  show (((c : Thread nD τ).loc b) ↦{fullShare} V1 m c (Proc.devRef .tc b) : sProp 𝕄) = _
  rw [show V1 m c (Proc.devRef .tc b) = V m c b from Function.update_of_ne (fun h => hne (Proc.devRef_injective _ h)) _ _]

set_option backward.isDefEq.respectTransparency.types false in
/-- The region. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (Vl m c)) ∗ R c)
  post c := iprop(StableHlo.held (c : Thread nD τ) (Pipeline.ucRefs τ sig) (V1 m c) ∗ R c)
  X c := iprop(emp)
  Y c := iprop(emp)
  Z c := Pipeline.unscopedRest spec0 c (V m c)
  hentry c := by
    rw [show StableHlo.held (c : Thread nD τ) (Pipeline.ucRefs τ sig) (StableHlo.after hostOps0 (Vl m c)) = unscopedBufs c (V m c) from
        (Pipeline.unscopedBufs_held c _).symm,
      Pipeline.unscopedBufs_split₀ cfgs 0 winFacts₀0.arr_unscoped c (V m c)]
    iintro ⟨⟨⟨Hab, Hrest⟩, HO⟩, -, -⟩
    imodintro
    isplitl [Hab]
    · iapply (arrays_in m c); iexact Hab
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = iprop(∃ d, owns (c : Thread nD τ) scM fullShare d) from rfl, scopedRest_scratch]
    iintro ⟨-, -, Hr⟩
    iexact Hr
  hout c := by
    rw [show (dats m 0 c).Φ (Fin.last cfg0.N) = owns (c : Thread nD τ) scM fullShare (accAt m c 31 (by decide)) from rfl,
      Pipeline.ownSems0_none, scopedRest_scratch]
    iintro Hs
    isplitr; · iempintro
    isplitr; · iempintro
    iexists _; iexact Hs
  hexit c := by
    iintro ⟨Ha, HO, -, HZ⟩
    imodintro
    isplitr [HO]
    · rw [show StableHlo.held (c : Thread nD τ) (Pipeline.ucRefs τ sig) (V1 m c) = unscopedBufs c (fun b => V1 m c (Proc.devRef .tc b)) from
          (Pipeline.unscopedBufs_held c _).symm,
        Pipeline.unscopedBufs_split₀ cfgs 0 winFacts₀0.arr_unscoped c (fun b => V1 m c (Proc.devRef .tc b)), rest_eq]
      isplitl [Ha]
      · iapply (arrays_out m c); iexact Ha
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- No host operation writes an argument array. -/
theorem args_kept0 (b : Ref sig .tc) (hb : b = main_arg0 ∨ b = main_arg1) :
    ∀ op ∈ (hostOps0 (F := F)), Proc.devRef .tc b ∉ op.writes := by
  intro op hop
  have hW : (hostOps0 (F := F)).Forall fun op => ∀ r : Ref sig .tc, Proc.devRef .tc r ∈ op.writes → r ≠ main_arg0 ∧ r ≠ main_arg1 := by
    simp only [List.Forall]
    repeat' constructor
    all_goals intro r hr; simp only [StableHlo.unary_writes, StableHlo.binary_writes, StableHlo.nullary_writes, Finset.mem_singleton] at hr; have := Proc.devRef_injective _ hr; subst this; decide
  intro h
  rcases hb with rfl | rfl
  · exact ((List.forall_iff_forall_mem.mp hW) op hop _ h).1 rfl
  · exact ((List.forall_iff_forall_mem.mp hW) op hop _ h).2 rfl
theorem args_kept1 (b : Ref sig .tc) (hb : b = main_arg0 ∨ b = main_arg1) :
    ∀ op ∈ (hostOps1 (F := F)), Proc.devRef .tc b ∉ op.writes := by
  intro op hop
  have hW : (hostOps1 (F := F)).Forall fun op => ∀ r : Ref sig .tc, Proc.devRef .tc r ∈ op.writes → r ≠ main_arg0 ∧ r ≠ main_arg1 := by
    simp only [List.Forall]
    repeat' constructor
    all_goals intro r hr; simp only [StableHlo.unary_writes, StableHlo.binary_writes, StableHlo.nullary_writes, StableHlo.reshape_writes, Finset.mem_singleton] at hr; have := Proc.devRef_injective _ hr; subst this; decide
  intro h
  rcases hb with rfl | rfl
  · exact ((List.forall_iff_forall_mem.mp hW) op hop _ h).1 rfl
  · exact ((List.forall_iff_forall_mem.mp hW) op hop _ h).2 rfl

/-- So an argument array ends as it was launched. -/
theorem V2_arg (c : Dev nD) (b : Ref sig .tc) (hb : b = main_arg0 ∨ b = main_arg1) :
    V2 m c (Proc.devRef .tc b) = m ((c : Thread nD τ).loc b) := by
  have hne : (Proc.devRef .tc b : DevRef τ sig) ≠ Proc.devRef .tc main_v24 := fun h => by
    have := Proc.devRef_injective _ h; rcases hb with rfl | rfl <;> exact absurd this (by decide)
  exact (StableHlo.after_of_forall_not_mem hostOps1 (V1 m c) (args_kept1 b hb)).trans
    ((Function.update_of_ne hne _ _).trans (StableHlo.after_of_forall_not_mem hostOps0 (Vl m c) (args_kept0 b hb)))

/-- What the run ends with: the result at what the host operations after the region compute, the arguments kept. -/
def QC : PUnit × MemSt nD τ sig (Elt F) → Prop := fun r =>
  ∀ c : Dev nD, r.2.mem ((c : Thread nD τ).loc main_v30) = V2 m c (Proc.devRef .tc main_v30)
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
/-- THE RUN: at the compiled mesh, from any memory whose semaphore counters are zero, every weakly fair execution of
    the program terminates, nothing faulting, and ends as QC says. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c))
    (Tₙ := fun c => StableHlo.held (c : Thread nD τ) (Pipeline.ucRefs τ sig) (V2 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Vl m c) from
        Pipeline.unscopedBufs_held c (Vl m c)]
      iintro ⟨⟨Hh, -, HO, -, -, -⟩, -⟩
      imodintro
      isplitl [Hh]; · iexact Hh
      iexists ∅; iexact HO)
    (QY := fun c s => s.mem ((c : Thread nD τ).loc main_v30) = V2 m c (Proc.devRef .tc main_v30)
      ∧ s.mem ((c : Thread nD τ).loc main_arg0) = m ((c : Thread nD τ).loc main_arg0)
      ∧ s.mem ((c : Thread nD τ).loc main_arg1) = m ((c : Thread nD τ).loc main_arg1))
    (hfin := fun c s' => by
      refine (pointsTo_read_all (Pipeline.ucRefs τ sig) (fun b => ((c : Thread nD τ).1, b)) (V2 m c) s').trans ?_
      iintro ⟨%hr, HSI⟩
      imodintro
      isplitr
      · ipureintro
        exact ⟨hr (Proc.devRef .tc main_v30) (by decide),
          (hr (Proc.devRef .tc main_arg0) (by decide)).trans (V2_arg m c main_arg0 (.inl rfl)),
          (hr (Proc.devRef .tc main_arg1) (by decide)).trans (V2_arg m c main_arg1 (.inr rfl))⟩
      iexact HSI)
    (hQ := fun _ h => h)

end Cert.Kernel.Launch

end
-- ==== Proof.KernelIdealCond.lean ====
/-
  The three branch conditions of the kernel body as propositions about the grid point (i₀, i₁), i₀ < 8 the row
  tile and i₁ < 4 the column stretch, and where on the grid of 32 points (point t is (t / 4, t % 4)) each holds:
  the accumulator restarts on stretch 0; the diagonal of the similarity matrix crosses the tile exactly when
  i₁ = i₀ / 2 (row tile i₀ holds rows 1024·i₀ … 1024·i₀ + 1023, stretch i₁ holds columns 2048·i₁ … 2048·i₁ + 2047);
  the accumulator is written out on stretch 3. Also: the step the body applies to the accumulator at a point.
-/
import proofs.«138062_j35948876267977_2_alg».proof.Proof.Gen.KernelIdeal.Launch
import proofs.«138062_j35948876267977_2_alg».proof.Proof.Gen.KernelIdeal.Skeleton
import proofs.«138062_j35948876267977_2_alg».proof.Proof.Gen.KernelIdeal.Points
import Idealize.ShloMosaic.Lib.Pipeline.FrameBody
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator restarts: the stretch is the first. -/
abbrev cond1 (i : grid0.Coords) : Prop :=
  (Scalar.cmpi .ne (Scalar.extui (Scalar.cmpi .eq (BitVec.ofNat 32 (i 1).val) 0#32)) 0#32) = 1#1
/-- The tile meets the diagonal: 1024·i₀ < 2048·i₁ + 2048 and 2048·i₁ < 1024·i₀ + 1024. -/
abbrev cond2 (i : grid0.Coords) : Prop :=
  (Scalar.cmpi .ne (Scalar.extui (Scalar.andi
    (Scalar.cmpi .slt (Scalar.muli (BitVec.ofNat 32 (i 0).val) 1024#32) (Scalar.addi (Scalar.muli (BitVec.ofNat 32 (i 1).val) 2048#32) 2048#32))
    (Scalar.cmpi .slt (Scalar.muli (BitVec.ofNat 32 (i 1).val) 2048#32) (Scalar.addi (Scalar.muli (BitVec.ofNat 32 (i 0).val) 1024#32) 1024#32)))) 0#32) = 1#1
/-- The accumulator is written out: the stretch is the last. -/
abbrev cond3 (i : grid0.Coords) : Prop := k0_cond3 i = 1#1

/-- On the grid: the first stretch is the points divisible by 4; -/
theorem hcond1 : ∀ t : Fin cfg0.N, cond1 (grid0.coords t) ↔ t.val % 4 = 0 :=
  (by decide +kernel : ∀ t : Fin grid0.N, cond1 (grid0.coords t) ↔ t.val % 4 = 0)
/-- the diagonal crosses the tile of point t = 4·i₀ + i₁ when i₁ = i₀ / 2, that is t % 4 = t / 8; -/
theorem hcond2 : ∀ t : Fin cfg0.N, cond2 (grid0.coords t) ↔ t.val % 4 = t.val / 8 :=
  (by decide +kernel : ∀ t : Fin grid0.N, cond2 (grid0.coords t) ↔ t.val % 4 = t.val / 8)
/-- the last stretch is the points that are 3 modulo 4. -/
theorem hcond3 : ∀ t : Fin cfg0.N, cond3 (grid0.coords t) ↔ t.val % 4 = 3 :=
  (by decide +kernel : ∀ t : Fin grid0.N, cond3 (grid0.coords t) ↔ t.val % 4 = 3)

/-- No stretch is both the first and the last. -/
theorem not_cond1_cond3 (i : grid0.Coords) : cond1 i → cond3 i → False := by
  have h : ∀ j : Fin 4, ¬((Scalar.cmpi .ne (Scalar.extui (Scalar.cmpi .eq (BitVec.ofNat 32 j.val) 0#32)) 0#32) = 1#1
      ∧ (Scalar.cmpi .ne (Scalar.extui (Scalar.cmpi .eq (BitVec.ofNat 32 j.val) 3#32)) 0#32) = 1#1) := by decide
  intro h1 h3
  exact h (i 1) ⟨h1, h3⟩

/-- The output window is idle exactly off the last stretch, where the pipeline does not write it back either; -/
theorem idle2 : ∀ t : Fin cfg0.N, ¬cond3 (grid0.coords t) → cfg0.idle 2 (grid0.coords t) = true := by decide +kernel
theorem noFlush2 : ∀ t : Fin cfg0.N, ¬cond3 (grid0.coords t) → (cfg0.win 2).flush t = false := by decide +kernel
theorem live2 : ∀ t : Fin cfg0.N, cond3 (grid0.coords t) → cfg0.idle 2 (grid0.coords t) = false := by decide +kernel
/-- the input windows are never idle. -/
theorem live0 : ∀ i : grid0.Coords, cfg0.idle 0 i = false := fun _ => rfl
theorem live1 : ∀ i : grid0.Coords, cfg0.idle 1 i = false := fun _ => rfl

/-- What the body makes of the accumulator xs at grid point i, from the row tile x0 and the column tile x1 it
    loaded: zero in place of xs on the first stretch, plus the tile's row sums of exponentials, minus the
    diagonal's exponentials where the tile meets the diagonal. -/
def accStep (i : grid0.Coords) (x0 : Vec F S1024x256 .bf16) (x1 : Vec F S2048x256 .bf16) (xs : Vec F S1024x1 .f32) :
    Vec F S1024x1 .f32 :=
  if cond2 i then k0_pay4 i x0 x1 (k0_pay3 x0 x1 (if cond1 i then k0_pay1 else xs))
  else k0_pay3 x0 x1 (if cond1 i then k0_pay1 else xs)

/-- On the first stretch the step forgets what the accumulator held. -/
theorem accStep_of_cond1 (i : grid0.Coords) (h : cond1 i) (x0 : Vec F S1024x256 .bf16) (x1 : Vec F S2048x256 .bf16)
    (xs xs' : Vec F S1024x1 .f32) : accStep i x0 x1 xs = accStep i x0 x1 xs' := by
  unfold accStep; rw [if_pos h, if_pos h]

end Cert.KernelIdeal.Body

end
-- ==== Proof.KernelIdealBody.lean ====
/-
  The kernel body run at a symbolic grid point, once per reachable assignment of its three branch conditions.
  The body holds four buffers whole: the row tile x0 and the column tile x1 of the stacked matrix (read only), the
  output block xo, and the accumulator xs it carries from point to point. Every store it makes is of a whole
  [1024, 1] column, so whatever a buffer held before, it ends holding the last payload stored: the accumulator
  ends at accStep i x0 x1 xs, and the output block at the same value where it is written out, untouched elsewhere.
-/
import proofs.«138062_j35948876267977_2_alg».proof.Proof.KernelIdealCond

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, however spelt. -/
theorem hz00 : (![0, 0] : Fin 2 → ℕ) = fun _ => 0 := by funext a; fin_cases a <;> rfl

/-- A load of the whole buffer after stores the LAST of which was of the whole buffer reads that store's payload. -/
theorem readCov_cons_unit_zero {Val : EltTy → Type} [∀ e, Nonempty (Val e)] {sig : RefSig} {κ : Kind} {sp : Space} {S : Shape} {e : EltTy}
    (v : View sig κ sp S e) {off : Fin S.rank → ℕ} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

set_option maxHeartbeats 1000000 in
/-- The body at a point where the accumulator restarts, the tile meets the diagonal and the accumulator is kept. -/
theorem run_TTF (c : Dev nD) (i : grid0.Coords) (arg2 : Memref sig .tc .vmem S1024x256 .bf16) (harg2 : arg2.IsWhole)
    (arg3 : Memref sig .tc .vmem S2048x256 .bf16) (harg3 : arg3.IsWhole) (arg4 : Memref sig .tc .vmem S1024x1 .f32) (harg4 : arg4.IsWhole)
    (arg5 : Memref sig .tc .vmem S1024x1 .f32) (harg5 : arg5.IsWhole)
    (hc1 : cond1 i) (hc2 : cond2 i) (hc3 : ¬cond3 i)
    (x0 : Vec F S1024x256 .bf16) (x1 : Vec F S2048x256 .bf16) (xo xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k0_pay4 i x0 x1 (k0_pay3 x0 x1 (k0_pay1 (F := F))))) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f2, %hf2, H2⟩, ⟨%fs, %hfs, HS0⟩, Hk⟩
  obtain rfl := harg2.eq_unread hf0; obtain rfl := harg3.eq_unread hf1; obtain rfl := harg4.eq_unread hf2; obtain rfl := harg5.eq_unread hfs
  have hz : (![0, 0] : Fin 2 → ℕ) = fun _ => 0 := hz00
  have e0 : View.readAt (Elt F) arg2.view (Rect.unit ![0, 0] S1024x256.size inb_S1024x256_S1024x256_0_0).toLoadRect (harg2.unread x0) = x0 := by
    rw [View.readAt_eq_ld, hf0]; exact View.ld_unit_zero hz _ x0
  have e1 : View.readAt (Elt F) arg3.view (Rect.unit ![0, 0] S2048x256.size inb_S2048x256_S2048x256_0_0).toLoadRect (harg3.unread x1) = x1 := by
    rw [View.readAt_eq_ld, hf1]; exact View.ld_unit_zero hz _ x1
  have es : View.readAt (Elt F) arg5.view (Rect.unit ![0, 0] S1024x1.size inb_S1024x1_S1024x1_0_0).toLoadRect (harg5.unread xs) = xs := by
    rw [View.readAt_eq_ld, hfs]; exact View.ld_unit_zero hz _ xs
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr; swap; · iexact HS0
  ipureintro
  refine (View.read_writes_eq_canon _ _ _ (fun y => ⟨_, List.mem_cons_self, View.mem_set_unit_zero hz inb_S1024x1_S1024x1_0_0 y⟩)).trans ?_
  refine (View.canon_cons_unit_zero hz inb_S1024x1_S1024x1_0_0 _ _).trans ?_
  sl_unfold_run_names
  simp only [e0, e1, es, readCov_cons_unit_zero (S := S1024x1) _ hz]

set_option maxHeartbeats 1000000 in
/-- The body at a point where the accumulator restarts, the tile misses the diagonal and the accumulator is kept. -/
theorem run_TFF (c : Dev nD) (i : grid0.Coords) (arg2 : Memref sig .tc .vmem S1024x256 .bf16) (harg2 : arg2.IsWhole)
    (arg3 : Memref sig .tc .vmem S2048x256 .bf16) (harg3 : arg3.IsWhole) (arg4 : Memref sig .tc .vmem S1024x1 .f32) (harg4 : arg4.IsWhole)
    (arg5 : Memref sig .tc .vmem S1024x1 .f32) (harg5 : arg5.IsWhole)
    (hc1 : cond1 i) (hc2 : ¬cond2 i) (hc3 : ¬cond3 i)
    (x0 : Vec F S1024x256 .bf16) (x1 : Vec F S2048x256 .bf16) (xo xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k0_pay3 x0 x1 (k0_pay1 (F := F)))) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f2, %hf2, H2⟩, ⟨%fs, %hfs, HS0⟩, Hk⟩
  obtain rfl := harg2.eq_unread hf0; obtain rfl := harg3.eq_unread hf1; obtain rfl := harg4.eq_unread hf2; obtain rfl := harg5.eq_unread hfs
  have hz : (![0, 0] : Fin 2 → ℕ) = fun _ => 0 := hz00
  have e0 : View.readAt (Elt F) arg2.view (Rect.unit ![0, 0] S1024x256.size inb_S1024x256_S1024x256_0_0).toLoadRect (harg2.unread x0) = x0 := by
    rw [View.readAt_eq_ld, hf0]; exact View.ld_unit_zero hz _ x0
  have e1 : View.readAt (Elt F) arg3.view (Rect.unit ![0, 0] S2048x256.size inb_S2048x256_S2048x256_0_0).toLoadRect (harg3.unread x1) = x1 := by
    rw [View.readAt_eq_ld, hf1]; exact View.ld_unit_zero hz _ x1
  have es : View.readAt (Elt F) arg5.view (Rect.unit ![0, 0] S1024x1.size inb_S1024x1_S1024x1_0_0).toLoadRect (harg5.unread xs) = xs := by
    rw [View.readAt_eq_ld, hfs]; exact View.ld_unit_zero hz _ xs
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr; swap; · iexact HS0
  ipureintro
  refine (View.read_writes_eq_canon _ _ _ (fun y => ⟨_, List.mem_cons_self, View.mem_set_unit_zero hz inb_S1024x1_S1024x1_0_0 y⟩)).trans ?_
  refine (View.canon_cons_unit_zero hz inb_S1024x1_S1024x1_0_0 _ _).trans ?_
  sl_unfold_run_names
  simp only [e0, e1, es, readCov_cons_unit_zero (S := S1024x1) _ hz]

set_option maxHeartbeats 1000000 in
/-- The body at a point where the accumulator carries on, the tile meets the diagonal and the accumulator is kept. -/
theorem run_FTF (c : Dev nD) (i : grid0.Coords) (arg2 : Memref sig .tc .vmem S1024x256 .bf16) (harg2 : arg2.IsWhole)
    (arg3 : Memref sig .tc .vmem S2048x256 .bf16) (harg3 : arg3.IsWhole) (arg4 : Memref sig .tc .vmem S1024x1 .f32) (harg4 : arg4.IsWhole)
    (arg5 : Memref sig .tc .vmem S1024x1 .f32) (harg5 : arg5.IsWhole)
    (hc1 : ¬cond1 i) (hc2 : cond2 i) (hc3 : ¬cond3 i)
    (x0 : Vec F S1024x256 .bf16) (x1 : Vec F S2048x256 .bf16) (xo xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k0_pay4 i x0 x1 (k0_pay3 x0 x1 xs))) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f2, %hf2, H2⟩, ⟨%fs, %hfs, HS0⟩, Hk⟩
  obtain rfl := harg2.eq_unread hf0; obtain rfl := harg3.eq_unread hf1; obtain rfl := harg4.eq_unread hf2; obtain rfl := harg5.eq_unread hfs
  have hz : (![0, 0] : Fin 2 → ℕ) = fun _ => 0 := hz00
  have e0 : View.readAt (Elt F) arg2.view (Rect.unit ![0, 0] S1024x256.size inb_S1024x256_S1024x256_0_0).toLoadRect (harg2.unread x0) = x0 := by
    rw [View.readAt_eq_ld, hf0]; exact View.ld_unit_zero hz _ x0
  have e1 : View.readAt (Elt F) arg3.view (Rect.unit ![0, 0] S2048x256.size inb_S2048x256_S2048x256_0_0).toLoadRect (harg3.unread x1) = x1 := by
    rw [View.readAt_eq_ld, hf1]; exact View.ld_unit_zero hz _ x1
  have es : View.readAt (Elt F) arg5.view (Rect.unit ![0, 0] S1024x1.size inb_S1024x1_S1024x1_0_0).toLoadRect (harg5.unread xs) = xs := by
    rw [View.readAt_eq_ld, hfs]; exact View.ld_unit_zero hz _ xs
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr; swap; · iexact HS0
  ipureintro
  refine (View.read_writes_eq_canon _ _ _ (fun y => ⟨_, List.mem_cons_self, View.mem_set_unit_zero hz inb_S1024x1_S1024x1_0_0 y⟩)).trans ?_
  refine (View.canon_cons_unit_zero hz inb_S1024x1_S1024x1_0_0 _ _).trans ?_
  sl_unfold_run_names
  simp only [e0, e1, es, readCov_cons_unit_zero (S := S1024x1) _ hz]

end Cert.KernelIdeal.Body

end
-- ==== Proof.KernelIdealBody2.lean ====
/-
  The remaining control cases of the kernel body, and the body's run at ANY grid point: whichever way the three
  conditions fall, the accumulator ends at accStep i x0 x1 xs and the output block at that value on the last
  stretch, untouched elsewhere (a first stretch is never a last one).
-/
import proofs.«138062_j35948876267977_2_alg».proof.Proof.KernelIdealBody

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the accumulator carries on, the tile misses the diagonal and the accumulator is kept. -/
theorem run_FFF (c : Dev nD) (i : grid0.Coords) (arg2 : Memref sig .tc .vmem S1024x256 .bf16) (harg2 : arg2.IsWhole)
    (arg3 : Memref sig .tc .vmem S2048x256 .bf16) (harg3 : arg3.IsWhole) (arg4 : Memref sig .tc .vmem S1024x1 .f32) (harg4 : arg4.IsWhole)
    (arg5 : Memref sig .tc .vmem S1024x1 .f32) (harg5 : arg5.IsWhole)
    (hc1 : ¬cond1 i) (hc2 : ¬cond2 i) (hc3 : ¬cond3 i)
    (x0 : Vec F S1024x256 .bf16) (x1 : Vec F S2048x256 .bf16) (xo xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k0_pay3 x0 x1 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f2, %hf2, H2⟩, ⟨%fs, %hfs, HS0⟩, Hk⟩
  obtain rfl := harg2.eq_unread hf0; obtain rfl := harg3.eq_unread hf1; obtain rfl := harg4.eq_unread hf2; obtain rfl := harg5.eq_unread hfs
  have hz : (![0, 0] : Fin 2 → ℕ) = fun _ => 0 := hz00
  have e0 : View.readAt (Elt F) arg2.view (Rect.unit ![0, 0] S1024x256.size inb_S1024x256_S1024x256_0_0).toLoadRect (harg2.unread x0) = x0 := by
    rw [View.readAt_eq_ld, hf0]; exact View.ld_unit_zero hz _ x0
  have e1 : View.readAt (Elt F) arg3.view (Rect.unit ![0, 0] S2048x256.size inb_S2048x256_S2048x256_0_0).toLoadRect (harg3.unread x1) = x1 := by
    rw [View.readAt_eq_ld, hf1]; exact View.ld_unit_zero hz _ x1
  have es : View.readAt (Elt F) arg5.view (Rect.unit ![0, 0] S1024x1.size inb_S1024x1_S1024x1_0_0).toLoadRect (harg5.unread xs) = xs := by
    rw [View.readAt_eq_ld, hfs]; exact View.ld_unit_zero hz _ xs
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr; swap; · iexact HS0
  ipureintro
  refine (View.read_writes_eq_canon _ _ _ (fun y => ⟨_, List.mem_cons_self, View.mem_set_unit_zero hz inb_S1024x1_S1024x1_0_0 y⟩)).trans ?_
  refine (View.canon_cons_unit_zero hz inb_S1024x1_S1024x1_0_0 _ _).trans ?_
  sl_unfold_run_names
  simp only [e0, e1, es, readCov_cons_unit_zero (S := S1024x1) _ hz]

set_option maxHeartbeats 1000000 in
/-- The body at a point where the accumulator carries on, the tile meets the diagonal and the accumulator is written out. -/
theorem run_FTT (c : Dev nD) (i : grid0.Coords) (arg2 : Memref sig .tc .vmem S1024x256 .bf16) (harg2 : arg2.IsWhole)
    (arg3 : Memref sig .tc .vmem S2048x256 .bf16) (harg3 : arg3.IsWhole) (arg4 : Memref sig .tc .vmem S1024x1 .f32) (harg4 : arg4.IsWhole)
    (arg5 : Memref sig .tc .vmem S1024x1 .f32) (harg5 : arg5.IsWhole)
    (hc1 : ¬cond1 i) (hc2 : cond2 i) (hc3 : cond3 i)
    (x0 : Vec F S1024x256 .bf16) (x1 : Vec F S2048x256 .bf16) (xo xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare (k0_pay4 i x0 x1 (k0_pay3 x0 x1 xs))
            ∗ owns (c : Thread nD τ) arg5 fullShare (k0_pay4 i x0 x1 (k0_pay3 x0 x1 xs))) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f2, %hf2, H2⟩, ⟨%fs, %hfs, HS0⟩, Hk⟩
  obtain rfl := harg2.eq_unread hf0; obtain rfl := harg3.eq_unread hf1; obtain rfl := harg4.eq_unread hf2; obtain rfl := harg5.eq_unread hfs
  have hz : (![0, 0] : Fin 2 → ℕ) = fun _ => 0 := hz00
  have e0 : View.readAt (Elt F) arg2.view (Rect.unit ![0, 0] S1024x256.size inb_S1024x256_S1024x256_0_0).toLoadRect (harg2.unread x0) = x0 := by
    rw [View.readAt_eq_ld, hf0]; exact View.ld_unit_zero hz _ x0
  have e1 : View.readAt (Elt F) arg3.view (Rect.unit ![0, 0] S2048x256.size inb_S2048x256_S2048x256_0_0).toLoadRect (harg3.unread x1) = x1 := by
    rw [View.readAt_eq_ld, hf1]; exact View.ld_unit_zero hz _ x1
  have es : View.readAt (Elt F) arg5.view (Rect.unit ![0, 0] S1024x1.size inb_S1024x1_S1024x1_0_0).toLoadRect (harg5.unread xs) = xs := by
    rw [View.readAt_eq_ld, hfs]; exact View.ld_unit_zero hz _ xs
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro
    refine (View.read_writes_eq_canon _ _ _ (fun y => ⟨_, List.mem_cons_self, View.mem_set_unit_zero hz inb_S1024x1_S1024x1_0_0 y⟩)).trans ?_
    refine (View.canon_cons_unit_zero hz inb_S1024x1_S1024x1_0_0 _ _).trans ?_
    sl_unfold_run_names
    simp only [e0, e1, es, readCov_cons_unit_zero (S := S1024x1) _ hz]
  iexists _; isplitr; swap; · iexact HS0
  ipureintro
  refine (View.read_writes_eq_canon _ _ _ (fun y => ⟨_, List.mem_cons_self, View.mem_set_unit_zero hz inb_S1024x1_S1024x1_0_0 y⟩)).trans ?_
  refine (View.canon_cons_unit_zero hz inb_S1024x1_S1024x1_0_0 _ _).trans ?_
  sl_unfold_run_names
  simp only [e0, e1, es, readCov_cons_unit_zero (S := S1024x1) _ hz]

set_option maxHeartbeats 1000000 in
/-- The body at a point where the accumulator carries on, the tile misses the diagonal and the accumulator is written out. -/
theorem run_FFT (c : Dev nD) (i : grid0.Coords) (arg2 : Memref sig .tc .vmem S1024x256 .bf16) (harg2 : arg2.IsWhole)
    (arg3 : Memref sig .tc .vmem S2048x256 .bf16) (harg3 : arg3.IsWhole) (arg4 : Memref sig .tc .vmem S1024x1 .f32) (harg4 : arg4.IsWhole)
    (arg5 : Memref sig .tc .vmem S1024x1 .f32) (harg5 : arg5.IsWhole)
    (hc1 : ¬cond1 i) (hc2 : ¬cond2 i) (hc3 : cond3 i)
    (x0 : Vec F S1024x256 .bf16) (x1 : Vec F S2048x256 .bf16) (xo xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare (k0_pay3 x0 x1 xs)
            ∗ owns (c : Thread nD τ) arg5 fullShare (k0_pay3 x0 x1 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f2, %hf2, H2⟩, ⟨%fs, %hfs, HS0⟩, Hk⟩
  obtain rfl := harg2.eq_unread hf0; obtain rfl := harg3.eq_unread hf1; obtain rfl := harg4.eq_unread hf2; obtain rfl := harg5.eq_unread hfs
  have hz : (![0, 0] : Fin 2 → ℕ) = fun _ => 0 := hz00
  have e0 : View.readAt (Elt F) arg2.view (Rect.unit ![0, 0] S1024x256.size inb_S1024x256_S1024x256_0_0).toLoadRect (harg2.unread x0) = x0 := by
    rw [View.readAt_eq_ld, hf0]; exact View.ld_unit_zero hz _ x0
  have e1 : View.readAt (Elt F) arg3.view (Rect.unit ![0, 0] S2048x256.size inb_S2048x256_S2048x256_0_0).toLoadRect (harg3.unread x1) = x1 := by
    rw [View.readAt_eq_ld, hf1]; exact View.ld_unit_zero hz _ x1
  have es : View.readAt (Elt F) arg5.view (Rect.unit ![0, 0] S1024x1.size inb_S1024x1_S1024x1_0_0).toLoadRect (harg5.unread xs) = xs := by
    rw [View.readAt_eq_ld, hfs]; exact View.ld_unit_zero hz _ xs
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro
    refine (View.read_writes_eq_canon _ _ _ (fun y => ⟨_, List.mem_cons_self, View.mem_set_unit_zero hz inb_S1024x1_S1024x1_0_0 y⟩)).trans ?_
    refine (View.canon_cons_unit_zero hz inb_S1024x1_S1024x1_0_0 _ _).trans ?_
    sl_unfold_run_names
    simp only [e0, e1, es, readCov_cons_unit_zero (S := S1024x1) _ hz]
  iexists _; isplitr; swap; · iexact HS0
  ipureintro
  refine (View.read_writes_eq_canon _ _ _ (fun y => ⟨_, List.mem_cons_self, View.mem_set_unit_zero hz inb_S1024x1_S1024x1_0_0 y⟩)).trans ?_
  refine (View.canon_cons_unit_zero hz inb_S1024x1_S1024x1_0_0 _ _).trans ?_
  sl_unfold_run_names
  simp only [e0, e1, es, readCov_cons_unit_zero (S := S1024x1) _ hz]

/-- The body at any grid point. -/
theorem kernelRun (c : Dev nD) (i : grid0.Coords) (arg2 : Memref sig .tc .vmem S1024x256 .bf16) (harg2 : arg2.IsWhole)
    (arg3 : Memref sig .tc .vmem S2048x256 .bf16) (harg3 : arg3.IsWhole) (arg4 : Memref sig .tc .vmem S1024x1 .f32) (harg4 : arg4.IsWhole)
    (arg5 : Memref sig .tc .vmem S1024x1 .f32) (harg5 : arg5.IsWhole)
    (x0 : Vec F S1024x256 .bf16) (x1 : Vec F S2048x256 .bf16) (xo xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare (if cond3 i then accStep i x0 x1 xs else xo)
            ∗ owns (c : Thread nD τ) arg5 fullShare (accStep i x0 x1 xs)) -∗ K ⟨⟩))
      ⊢ wp frame (wpE (defs₀ (F := F)) Variants.none c none) E (cc0__denom_kernel i arg2 harg2 arg3 harg3 arg4 harg4 arg5 harg5) K := by
  by_cases h1 : cond1 i <;> by_cases h2 : cond2 i <;> by_cases h3 : cond3 i
  · exact absurd h3 (fun h => not_cond1_cond3 i h1 h)
  · unfold accStep; rw [if_neg h3, if_pos h2, if_pos h1]
    exact run_TTF c i arg2 harg2 arg3 harg3 arg4 harg4 arg5 harg5 h1 h2 h3 x0 x1 xo xs E K
  · exact absurd h3 (fun h => not_cond1_cond3 i h1 h)
  · unfold accStep; rw [if_neg h3, if_neg h2, if_pos h1]
    exact run_TFF c i arg2 harg2 arg3 harg3 arg4 harg4 arg5 harg5 h1 h2 h3 x0 x1 xo xs E K
  · unfold accStep; rw [if_pos h3, if_pos h2, if_neg h1]
    exact run_FTT c i arg2 harg2 arg3 harg3 arg4 harg4 arg5 harg5 h1 h2 h3 x0 x1 xo xs E K
  · unfold accStep; rw [if_neg h3, if_pos h2, if_neg h1]
    exact run_FTF c i arg2 harg2 arg3 harg3 arg4 harg4 arg5 harg5 h1 h2 h3 x0 x1 xo xs E K
  · unfold accStep; rw [if_pos h3, if_neg h2, if_neg h1]
    exact run_FFT c i arg2 harg2 arg3 harg3 arg4 harg4 arg5 harg5 h1 h2 h3 x0 x1 xo xs E K
  · unfold accStep; rw [if_neg h3, if_neg h2, if_neg h1]
    exact run_FFF c i arg2 harg2 arg3 harg3 arg4 harg4 arg5 harg5 h1 h2 h3 x0 x1 xo xs E K

/-- On a last stretch the output block ends at the accumulator's value; -/
theorem kernelRun_out (c : Dev nD) (i : grid0.Coords) (arg2 : Memref sig .tc .vmem S1024x256 .bf16) (harg2 : arg2.IsWhole)
    (arg3 : Memref sig .tc .vmem S2048x256 .bf16) (harg3 : arg3.IsWhole) (arg4 : Memref sig .tc .vmem S1024x1 .f32) (harg4 : arg4.IsWhole)
    (arg5 : Memref sig .tc .vmem S1024x1 .f32) (harg5 : arg5.IsWhole) (h3 : cond3 i)
    (x0 : Vec F S1024x256 .bf16) (x1 : Vec F S2048x256 .bf16) (xo xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare (accStep i x0 x1 xs)
            ∗ owns (c : Thread nD τ) arg5 fullShare (accStep i x0 x1 xs)) -∗ K ⟨⟩))
      ⊢ wp frame (wpE (defs₀ (F := F)) Variants.none c none) E (cc0__denom_kernel i arg2 harg2 arg3 harg3 arg4 harg4 arg5 harg5) K := by
  have h := kernelRun c i arg2 harg2 arg3 harg3 arg4 harg4 arg5 harg5 x0 x1 xo xs E K
  rwa [if_pos h3] at h

/-- elsewhere it is left as it was found. -/
theorem kernelRun_idle (c : Dev nD) (i : grid0.Coords) (arg2 : Memref sig .tc .vmem S1024x256 .bf16) (harg2 : arg2.IsWhole)
    (arg3 : Memref sig .tc .vmem S2048x256 .bf16) (harg3 : arg3.IsWhole) (arg4 : Memref sig .tc .vmem S1024x1 .f32) (harg4 : arg4.IsWhole)
    (arg5 : Memref sig .tc .vmem S1024x1 .f32) (harg5 : arg5.IsWhole) (h3 : ¬cond3 i)
    (x0 : Vec F S1024x256 .bf16) (x1 : Vec F S2048x256 .bf16) (xo xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (accStep i x0 x1 xs)) -∗ K ⟨⟩))
      ⊢ wp frame (wpE (defs₀ (F := F)) Variants.none c none) E (cc0__denom_kernel i arg2 harg2 arg3 harg3 arg4 harg4 arg5 harg5) K := by
  have h := kernelRun c i arg2 harg2 arg3 harg3 arg4 harg4 arg5 harg5 x0 x1 xo xs E K
  rwa [if_neg h3] at h

end Cert.KernelIdeal.Body

end
-- ==== Proof.KernelIdealData.lean ====
/-
  The pipeline's proof data on one core. The region finds the stacked matrix (the array both input windows
  read) as the host operations before it left it. At grid point t = 4·i₀ + i₁ the first window holds rows
  1024·i₀ … of that array and the second rows 2048·i₁ …; the accumulator after point t is accAt t, the step of
  the point applied to what the point before left (the first point of a row tile restarts it, so what preceded
  does not matter); the output block is written on the last stretch only, with the accumulator's value.
-/
import proofs.«138062_j35948876267977_2_alg».proof.Proof.KernelIdealBody2

set_option maxRecDepth 16384

noncomputable section

namespace Cert.KernelIdeal.Data

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Body

variable (m : (ℓ : Loc nD τ sig) → Buf (Elt F) ℓ)

/-- Core c's buffers when the region is entered: the host operations before it have run. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The accumulator after point n. -/
def accAt (c : Dev nD) : (n : ℕ) → n < cfg0.N → Vec F S1024x1 .f32
  | 0, hn => accStep (grid0.coords ⟨0, hn⟩) (iblk m c 0 ⟨0, hn⟩) (iblk m c 1 ⟨0, hn⟩) (k0_pay1 (F := F))
  | n + 1, hn => accStep (grid0.coords ⟨n + 1, hn⟩) (iblk m c 0 ⟨n + 1, hn⟩) (iblk m c 1 ⟨n + 1, hn⟩) (accAt c n (Nat.lt_of_succ_lt hn))

/-- After a point that is not the first: the step over what the point before left. -/
theorem accAt_pos (c : Dev nD) (t : Fin cfg0.N) (ht : t.val ≠ 0) :
    accAt m c t.val t.isLt = accStep (grid0.coords t) (iblk m c 0 t) (iblk m c 1 t) (accAt m c (t.val - 1) (Nat.lt_of_le_of_lt (Nat.sub_le _ _) t.isLt)) := by
  obtain ⟨n, hn⟩ := t
  cases n with
  | zero => exact absurd rfl ht
  | succ n => rfl

/-- After a point on a first stretch: the step over anything. -/
theorem accAt_restart (c : Dev nD) (t : Fin cfg0.N) (h : cond1 (grid0.coords t)) (xs : Vec F S1024x1 .f32) :
    accAt m c t.val t.isLt = accStep (grid0.coords t) (iblk m c 0 t) (iblk m c 1 t) xs := by
  obtain ⟨n, hn⟩ := t
  cases n with
  | zero => exact accStep_of_cond1 _ h _ _ _ _
  | succ n => exact accStep_of_cond1 _ h _ _ _ _

/-- The scratch operand: a whole scoped buffer of the kernel's own. -/
abbrev scM : Memref sig .tc .vmem S1024x1 .f32 := Memref.whole cc0_scratch0

/-- The scoped buffers no window stages are the scratch, owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; rfl

/-- The region invariant before position n: the scratch at anything before the first point, at the accumulator's
    value afterwards. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-- The proof data: the arrays as the region finds them; after the body each input window at its block and the
    output at the accumulator's value; the invariant PhiS; the stacked matrix's buffer shared between its two
    windows, the left half of the full share and the right; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]

theorem Phi_castSucc (c : Dev nD) (t : Fin cfg0.N) :
    (dats m 0 c).Φ t.castSucc = PhiS m c t.val (Nat.le_of_lt t.isLt) := by
  dsimp only [dats]; simp only [Fin.coe_castSucc]

/-- Each input window's current staging buffer holds its block at every point, fetched there or not: where it is
    not fetched its block index has not moved. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

end Cert.KernelIdeal.Data

end
-- ==== Proof.KernelIdealOblig.lean ====
/-
  The body obligation: at every grid point, from the region invariant (the scratch at what the point before left),
  the input windows' staging buffers at their blocks and the output window's at whatever it holds, the kernel body
  runs to the invariant of the next point (the scratch at this point's accumulator value), the inputs as they were,
  and the output block at the accumulator's value on a last stretch, as it was found elsewhere.
-/
import proofs.«138062_j35948876267977_2_alg».proof.Proof.KernelIdealData

set_option maxRecDepth 16384

noncomputable section

namespace Cert.KernelIdeal.Data

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Body

variable (m : (ℓ : Loc nD τ sig) → Buf (Elt F) ℓ)

/-- Each window's current staging memref at point t, as the pipeline passes it to the body, and its wholeness. -/
abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = owns (c : Thread nD τ) scM fullShare (accAt m c t.val t.isLt) from rfl]
  rw [show (dats m 0 c).leavesExact 0 t = owns (c : Thread nD τ) (ms0 t) fullShare ((dats m 0 c).after 0 t) from by
    unfold Dat.leavesExact; rw [live0], after0]
  rw [show (dats m 0 c).leavesExact 1 t = owns (c : Thread nD τ) (ms1 t) fullShare ((dats m 0 c).after 1 t) from by
    unfold Dat.leavesExact; rw [live1], after1]
  have hN : t.val < 32 := lt_of_lt_of_eq t.isLt (show cfg0.N = 32 from N_0)
  by_cases h3 : cond3 (grid0.coords t)
  · have h3' : t.val % 4 = 3 := (hcond3 t).mp h3
    have hz : t.val ≠ 0 := by omega
    rw [show (dats m 0 c).leavesExact 2 t = owns (c : Thread nD τ) (ms2 t) fullShare ((dats m 0 c).after 2 t) from by
      unfold Dat.leavesExact; rw [live2 t h3], after2]
    rw [Phi_castSucc m c t, PhiS_pos m c _ _ hz, accAt_pos m c t hz]
    iintro ⟨HS, Ho, ⟨%d0, H0⟩, ⟨%d1, H1⟩, ⟨%d2, H2⟩⟩
    iapply (kernelRun_out c (grid0.coords t) _ _ _ _ _ _ _ _ h3 (iblk m c 0 t) (iblk m c 1 t) _ _ Set.univ _)
    isplitl [H0]; · iexact H0
    isplitl [H1]; · iexact H1
    isplitl [H2]; · iexact H2
    isplitl [HS]; · iexact HS
    iintro ⟨H0, H1, H2, HS⟩
    isplitl [HS]; · iexact HS
    isplitl [Ho]; · iexact Ho
    isplitl [H0]; · iexact H0
    isplitl [H1]; · iexact H1
    iexact H2
  · rw [Dat.leavesExact_idle (dats m 0 c) 2 t (idle2 t h3) (noFlush2 t h3)]
    by_cases hz : t.val = 0
    · have h1 : cond1 (grid0.coords t) := (hcond1 t).mpr (by omega)
      rw [Phi_castSucc m c t, show PhiS m c t.val (Nat.le_of_lt t.isLt) = iprop(∃ d, owns (c : Thread nD τ) scM fullShare d) from by
        obtain ⟨n, hn⟩ := t; cases n with
        | zero => rfl
        | succ n => exact absurd hz (Nat.succ_ne_zero n)]
      iintro ⟨⟨%ds, HS⟩, Ho, ⟨%d0, H0⟩, ⟨%d1, H1⟩, ⟨%d2, H2⟩⟩
      rw [accAt_restart m c t h1 ds]
      iapply (kernelRun_idle c (grid0.coords t) _ _ _ _ _ _ _ _ h3 (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexists _; iexact H2
    · rw [Phi_castSucc m c t, PhiS_pos m c _ _ hz, accAt_pos m c t hz]
      iintro ⟨HS, Ho, ⟨%d0, H0⟩, ⟨%d1, H1⟩, ⟨%d2, H2⟩⟩
      iapply (kernelRun_idle c (grid0.coords t) _ _ _ _ _ _ _ _ h3 (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Data

end
-- ==== Proof.KernelIdealLaunch.lean ====
/-
  The run of the whole program. The host operations before the pallas_call, the pallas_call, the host operations
  after it, composed: every weakly fair execution terminates without a fault, the two argument arrays end as they
  were, and the result ends at the value the last host operations compute from the array the pallas_call wrote.

  The pallas_call reads ONE array, the stacked matrix, through two windows. Going in, that array's buffer, held
  whole, is split in two halves of its share, one per window, and the output array's buffer goes in whole; coming
  out, the two halves, still at the contents they went in with (an input array is never written), are joined again,
  and the output array is at what the write-backs left. Every other buffer of the device bypasses the region.
-/
import proofs.«138062_j35948876267977_2_alg».proof.Proof.KernelIdealOblig
import Idealize.ShloMosaic.Lib.Pipeline.Frame

set_option maxRecDepth 16384

noncomputable section

namespace Cert.KernelIdeal.Launch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Body Cert.KernelIdeal.Data

/-- The pipeline library's algebra is the whole of the proof's. -/
abbrev EP : Emb (UR sig nD τ) (MT nD τ sig Unit (Elt F) ℕ (UR sig nD τ) ℕ) := emb₁

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- Core c's buffers at launch. -/
abbrev Vl (c : Dev nD) : Valuation τ sig (Elt F) := fun b => m (c, b)

/-- What rides beside the buffers: the core owes nothing. -/
abbrev R (c : Dev nD) : sProp 𝕄 := iprop(∃ W, owes (c : Thread nD τ) (0 : CellTallies nD τ sig Unit) W)

/-- The buffers when the region is left: as it found them, but the output array at what the write-backs left. -/
def V1 (c : Dev nD) : Valuation τ sig (Elt F) :=
  Function.update (V0 m c) (Proc.devRef .tc main_v24) ((dats m 0 c).arrAt 2 cfg0.N)

/-- And at the end. -/
abbrev V2 (c : Dev nD) : Valuation τ sig (Elt F) := StableHlo.after hostOps1 (V1 m c)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The host operations before the region, over the device's unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (Vl m) R

/-- The host operations after it. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V1 m) R

/-- The buffers behind the windows' arrays are two: the stacked matrix's and the output's. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v17) ↦{fullShare} W main_v17) ∗ (((c : Thread nD τ).loc main_v24) ↦{fullShare} W main_v24)) := by
  unfold Pipeline.arrBufs
  exact bigSep_eq_bigSepL_of_eq [main_v17, main_v24] (by decide) (by decide) _

/-- The pipeline's arrays, window by window: the stacked matrix's buffer at the left half of the full share, again
    at the right half, the output's whole. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_v17) ↦{fullShare.left} G 0) ∗ (((c : Thread nD τ).loc main_v17) ↦{fullShare.right} G 1)
          ∗ (((c : Thread nD τ).loc main_v24) ↦{fullShare} G 2)) := by
  unfold Dat.arrays
  rw [bigSep_W0]
  rw [(arr_whole0 0).set_eq_univ, (arr_whole0 2).set_eq_univ]
  rfl

/-- Going in: the two buffers, whole, make the pipeline's arrays at the region-entry contents. -/
theorem arrays_in (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨H17, H24⟩
  ihave H17 := (pointsTo_share (PosShare.mem_left_op_right fullShare)).1 $$ H17
  icases H17 with ⟨Hl, Hr⟩
  isplitl [Hl]; · iexact Hl
  isplitl [Hr]; · iexact Hr
  iexact H24

/-- Coming out: the pipeline's arrays at their final contents make the two buffers, whole, the stacked matrix's as
    it went in and the output's at what the write-backs left. -/
theorem arrays_out (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => V1 m c (Proc.devRef .tc b)) := by
  rw [arrBufs_eq, arrays_eq]
  rw [(dats m 0 c).arrAt_in 0 rfl, (dats m 0 c).arrAt_in 1 rfl]
  rw [show V1 m c (Proc.devRef .tc main_v17) = V m c main_v17 from Function.update_of_ne (by decide) _ _,
    show V1 m c (Proc.devRef .tc main_v24) = (dats m 0 c).arrAt 2 cfg0.N from Function.update_self _ _ _]
  show iprop((((c : Thread nD τ).loc main_v17) ↦{fullShare.left} V m c main_v17) ∗ (((c : Thread nD τ).loc main_v17) ↦{fullShare.right} V m c main_v17)
      ∗ (((c : Thread nD τ).loc main_v24) ↦{fullShare} (dats m 0 c).arrAt 2 cfg0.N)) ⊢ _
  iintro ⟨Hl, Hr, H24⟩
  ihave H17 := (pointsTo_share (PosShare.mem_left_op_right fullShare)).2 $$ [Hl Hr]
  · isplitl [Hl] <;> iassumption
  isplitl [H17]; · iexact H17
  iexact H24

/-- The buffers that bypass the region are the same before and after: the output array's is not among them. -/
theorem rest_eq (c : Dev nD) :
    (Pipeline.unscopedRest (Ix := Unit) (Name := ℕ) (U := UR sig nD τ) (Lvl := ℕ) spec0 c (fun b => V1 m c (Proc.devRef .tc b)) : sProp 𝕄)
      = Pipeline.unscopedRest spec0 c (V m c) := by
  unfold Pipeline.unscopedRest
  refine bigSep_congr fun b hb => ?_
  have hne : b ≠ main_v24 := fun h => (Finset.mem_sdiff.mp hb).2 (h ▸ Finset.mem_image.mpr ⟨2, Finset.mem_univ _, rfl⟩)
  show (((c : Thread nD τ).loc b) ↦{fullShare} V1 m c (Proc.devRef .tc b) : sProp 𝕄) = _
  rw [show V1 m c (Proc.devRef .tc b) = V m c b from Function.update_of_ne (fun h => hne (Proc.devRef_injective _ h)) _ _]

set_option backward.isDefEq.respectTransparency.types false in
/-- The region. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (Vl m c)) ∗ R c)
  post c := iprop(StableHlo.held (c : Thread nD τ) (Pipeline.ucRefs τ sig) (V1 m c) ∗ R c)
  X c := iprop(emp)
  Y c := iprop(emp)
  Z c := Pipeline.unscopedRest spec0 c (V m c)
  hentry c := by
    rw [show StableHlo.held (c : Thread nD τ) (Pipeline.ucRefs τ sig) (StableHlo.after hostOps0 (Vl m c)) = unscopedBufs c (V m c) from
        (Pipeline.unscopedBufs_held c _).symm,
      Pipeline.unscopedBufs_split₀ cfgs 0 winFacts₀0.arr_unscoped c (V m c)]
    iintro ⟨⟨⟨Hab, Hrest⟩, HO⟩, -, -⟩
    imodintro
    isplitl [Hab]
    · iapply (arrays_in m c); iexact Hab
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = iprop(∃ d, owns (c : Thread nD τ) scM fullShare d) from rfl, scopedRest_scratch]
    iintro ⟨-, -, Hr⟩
    iexact Hr
  hout c := by
    rw [show (dats m 0 c).Φ (Fin.last cfg0.N) = owns (c : Thread nD τ) scM fullShare (accAt m c 31 (by decide)) from rfl,
      Pipeline.ownSems0_none, scopedRest_scratch]
    iintro Hs
    isplitr; · iempintro
    isplitr; · iempintro
    iexists _; iexact Hs
  hexit c := by
    iintro ⟨Ha, HO, -, HZ⟩
    imodintro
    isplitr [HO]
    · rw [show StableHlo.held (c : Thread nD τ) (Pipeline.ucRefs τ sig) (V1 m c) = unscopedBufs c (fun b => V1 m c (Proc.devRef .tc b)) from
          (Pipeline.unscopedBufs_held c _).symm,
        Pipeline.unscopedBufs_split₀ cfgs 0 winFacts₀0.arr_unscoped c (fun b => V1 m c (Proc.devRef .tc b)), rest_eq]
      isplitl [Ha]
      · iapply (arrays_out m c); iexact Ha
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- No host operation writes an argument array. -/
theorem args_kept0 (b : Ref sig .tc) (hb : b = main_arg0 ∨ b = main_arg1) :
    ∀ op ∈ (hostOps0 (F := F)), Proc.devRef .tc b ∉ op.writes := by
  intro op hop
  have hW : (hostOps0 (F := F)).Forall fun op => ∀ r : Ref sig .tc, Proc.devRef .tc r ∈ op.writes → r ≠ main_arg0 ∧ r ≠ main_arg1 := by
    simp only [List.Forall]
    repeat' constructor
    all_goals intro r hr; simp only [StableHlo.unary_writes, StableHlo.binary_writes, StableHlo.nullary_writes, Finset.mem_singleton] at hr; have := Proc.devRef_injective _ hr; subst this; decide
  intro h
  rcases hb with rfl | rfl
  · exact ((List.forall_iff_forall_mem.mp hW) op hop _ h).1 rfl
  · exact ((List.forall_iff_forall_mem.mp hW) op hop _ h).2 rfl
theorem args_kept1 (b : Ref sig .tc) (hb : b = main_arg0 ∨ b = main_arg1) :
    ∀ op ∈ (hostOps1 (F := F)), Proc.devRef .tc b ∉ op.writes := by
  intro op hop
  have hW : (hostOps1 (F := F)).Forall fun op => ∀ r : Ref sig .tc, Proc.devRef .tc r ∈ op.writes → r ≠ main_arg0 ∧ r ≠ main_arg1 := by
    simp only [List.Forall]
    repeat' constructor
    all_goals intro r hr; simp only [StableHlo.unary_writes, StableHlo.binary_writes, StableHlo.nullary_writes, StableHlo.reshape_writes, Finset.mem_singleton] at hr; have := Proc.devRef_injective _ hr; subst this; decide
  intro h
  rcases hb with rfl | rfl
  · exact ((List.forall_iff_forall_mem.mp hW) op hop _ h).1 rfl
  · exact ((List.forall_iff_forall_mem.mp hW) op hop _ h).2 rfl

/-- So an argument array ends as it was launched. -/
theorem V2_arg (c : Dev nD) (b : Ref sig .tc) (hb : b = main_arg0 ∨ b = main_arg1) :
    V2 m c (Proc.devRef .tc b) = m ((c : Thread nD τ).loc b) := by
  have hne : (Proc.devRef .tc b : DevRef τ sig) ≠ Proc.devRef .tc main_v24 := fun h => by
    have := Proc.devRef_injective _ h; rcases hb with rfl | rfl <;> exact absurd this (by decide)
  exact (StableHlo.after_of_forall_not_mem hostOps1 (V1 m c) (args_kept1 b hb)).trans
    ((Function.update_of_ne hne _ _).trans (StableHlo.after_of_forall_not_mem hostOps0 (Vl m c) (args_kept0 b hb)))

/-- What the run ends with: the result at what the host operations after the region compute, the arguments kept. -/
def QC : PUnit × MemSt nD τ sig (Elt F) → Prop := fun r =>
  ∀ c : Dev nD, r.2.mem ((c : Thread nD τ).loc main_v30) = V2 m c (Proc.devRef .tc main_v30)
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
/-- THE RUN: at the compiled mesh, from any memory whose semaphore counters are zero, every weakly fair execution of
    the program terminates, nothing faulting, and ends as QC says. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c))
    (Tₙ := fun c => StableHlo.held (c : Thread nD τ) (Pipeline.ucRefs τ sig) (V2 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Vl m c) from
        Pipeline.unscopedBufs_held c (Vl m c)]
      iintro ⟨⟨Hh, -, HO, -, -, -⟩, -⟩
      imodintro
      isplitl [Hh]; · iexact Hh
      iexists ∅; iexact HO)
    (QY := fun c s => s.mem ((c : Thread nD τ).loc main_v30) = V2 m c (Proc.devRef .tc main_v30)
      ∧ s.mem ((c : Thread nD τ).loc main_arg0) = m ((c : Thread nD τ).loc main_arg0)
      ∧ s.mem ((c : Thread nD τ).loc main_arg1) = m ((c : Thread nD τ).loc main_arg1))
    (hfin := fun c s' => by
      refine (pointsTo_read_all (Pipeline.ucRefs τ sig) (fun b => ((c : Thread nD τ).1, b)) (V2 m c) s').trans ?_
      iintro ⟨%hr, HSI⟩
      imodintro
      isplitr
      · ipureintro
        exact ⟨hr (Proc.devRef .tc main_v30) (by decide),
          (hr (Proc.devRef .tc main_arg0) (by decide)).trans (V2_arg m c main_arg0 (.inl rfl)),
          (hr (Proc.devRef .tc main_arg1) (by decide)).trans (V2_arg m c main_arg1 (.inr rfl))⟩
      iexact HSI)
    (hQ := fun _ h => h)

end Cert.KernelIdeal.Launch

end
-- ==== Proof.Spec.lean ====
/-
  The two sides of the claim as functions of the normalised, stacked embedding matrix z (8192 rows of 256
  entries, each row a unit vector or zero), on the extended reals.

  sim z r c = ∑ₖ z r k · z c k is the cosine similarity of rows r and c. With temperature 1/2 the
  contrastive denominator of row r is the sum over the OTHER rows c ≠ r of exp (sim z r c / (1/2)).
  One program (denR) masks the diagonal by the factor 1 - [r = c]; the other (denK) walks the row in four
  stretches of 2048 columns, doubling the similarity instead of halving the temperature, adds each stretch's
  sum of exponentials to an accumulator that starts at zero, and on the one stretch that holds column r
  subtracts that column's exponential again. Over the real numbers the two agree.
-/
import Idealize.ShloMosaic.PureOps.Ideal
import Idealize.ShloMosaic.Lib.ValueIdx

noncomputable section

namespace Cert.Spec

open Idealize.ShloMosaic

/-- The float words the two programs spell, as extended reals: 0, 1, 2, 1/2. -/
abbrev w0 : EReal := Ideal.ofBits .f32 0x00000000#32
abbrev w1 : EReal := Ideal.ofBits .f32 0x3F800000#32
abbrev w2 : EReal := Ideal.ofBits .f32 0x40000000#32
abbrev wHalf : EReal := Ideal.ofBits .f32 0x3F000000#32

/-- The stacked matrix: row r, entry k. -/
abbrev Mat := Fin 8192 → Fin 256 → EReal

/-- The similarity of rows r and c: their inner product. -/
def sim (z : Mat) (r c : Fin 8192) : EReal := ∑ k : Fin 256, z r k * z c k

/-- exp (2 · sim), the similarity doubled; -/
def eK (z : Mat) (r c : Fin 8192) : EReal := Ideal.exp (sim z r c * w2)
/-- exp (sim / (1/2)), the similarity over the temperature. -/
def eR (z : Mat) (r c : Fin 8192) : EReal := Ideal.exp (Ideal.div (sim z r c) wHalf)

/-- Column q of the j-th stretch of 2048 columns. -/
def col (j : Fin 4) (q : Fin 2048) : Fin 8192 := ⟨2048 * j.val + q.val, by omega⟩

/-- The sum of row r's exponentials over stretch j; -/
def tileSum (z : Mat) (r : Fin 8192) (j : Fin 4) : EReal := ∑ q : Fin 2048, eK z r (col j q)
/-- and the same sum with every column but the diagonal one replaced by zero. -/
def tileDiag (z : Mat) (r : Fin 8192) (j : Fin 4) : EReal :=
  ∑ q : Fin 2048, if r.val = 2048 * j.val + q.val then eK z r (col j q) else w0

/-- One stretch's update of row r's accumulator a: restart from zero on the first stretch, add the stretch's
    sum, and on the stretch that holds column r take the diagonal term away again. -/
def step (z : Mat) (r : Fin 8192) (j : Fin 4) (a : EReal) : EReal :=
  (if r.val / 2048 = j.val then fun s => s - tileDiag z r j else fun s => s)
    ((if j.val = 0 then w0 else a) + tileSum z r j)

/-- Row r's denominator as the accumulator holds it after the four stretches (whatever it held before). -/
def denK (z : Mat) (r : Fin 8192) (a₀ : EReal) : EReal := step z r 3 (step z r 2 (step z r 1 (step z r 0 a₀)))

/-- Row r's denominator as the masked sum over all columns. -/
def denR (z : Mat) (r : Fin 8192) : EReal :=
  w0 + ∑ c : Fin 8192, (w1 - (if r = c then (1 : EReal) else 0)) * eR z r c

/-- The positive pair of row i < 4096 is row i + 4096, and conversely: the partner of r. -/
def partner (r : Fin 8192) : Fin 8192 := if h : r.val < 4096 then ⟨r.val + 4096, by omega⟩ else ⟨r.val - 4096, by omega⟩

end Cert.Spec

end
-- ==== Proof.KernelHost.lean ====
/-
  The host operations of the kernel program around its one region, as pure terms.

  Before the region the program normalises the two embedding matrices row by row, stacks them into the 8192 x 256
  matrix z, rounds z to the narrow format (the identity on the extended reals) for the region to read, and computes
  the numerator of every row: exp of the inner product of the row with its partner over the temperature 1/2. After
  the region it divides the numerator by the denominator column the region wrote, takes minus the logarithm, sums
  the 8192 terms and divides by 8192. The first stretch is, operation for operation, the first stretch of the
  reference program, so its stages are the reference's stages; the last stretch is the reference's last stretch
  applied to another numerator and denominator, and is named here once (lossTail) for both.
-/
import proofs.«138062_j35948876267977_2_alg».proof.Proof.Gen.KernelIdeal.Launch
import proofs.«138062_j35948876267977_2_alg».proof.Proof.ReadP
import proofs.«138062_j35948876267977_2_alg».proof.Proof.Spec
import Idealize.ShloMosaic.Lib.StableHlo.Run
import Idealize.ShloMosaic.Lib.ValueIdx
import Idealize.ShloMosaic.Lib.Pipeline.Value
import Idealize.ShloMosaic.PureOps.Ideal.Laws

noncomputable section

open scoped BigOperators

namespace Cert.KernelHost

open Idealize.ShloMosaic Idealize.ShloMosaic.ValueIdx Idealize.ShloMosaic.TcCoe Idealize.ShloMosaic.StableHlo
open Cert.KernelIdeal Cert.KernelIdeal.Gen

/-- The host's sum along the rows of an entrywise product of two 4096 x 256 matrices, from the zero word, read at row i. -/
theorem rowDot_apply (A B : S4096x256.Idx → EReal) (i : Fin 4096) :
    Host.reduceAdd (F := Ideal) (φ := .f32) (mulf (F := Ideal) (φ := .f32) A B)
        (constant (F := Ideal) S_ .f32 0x00000000#32) reducesTo_S4096x256_S4096_d1 h_S_ (ix1 i)
      = Cert.Spec.w0 + ∑ k : Fin 256, A (ix2 i k) * B (ix2 i k) := by
  simp only [Host.reduceAdd, Ideal.hostReduceAdd_def]
  rw [Ideal.hostReduceAdd_single reducesTo_S4096x256_S4096_d1 (by decide)]
  refine congrArg (Cert.Spec.w0 + ·) (Finset.sum_congr rfl fun k _ => ?_)
  show mulf (F := Ideal) (φ := .f32) A B _ = mulf (F := Ideal) (φ := .f32) A B (ix2 i ⟨k.val, k.isLt⟩)
  exact congrArg _ (funext fun a => Fin.ext (by match a with | ⟨0, _⟩ => rfl | ⟨1, _⟩ => rfl))

/-- An array of 4096 entries laid out twice: entry i of the first half is entry i … -/
theorem twice_lo (s : S4096.Idx → EReal) (i : Fin 4096) :
    concatenate S8192 0 [⟨S4096, s⟩, ⟨S4096, s⟩] concatenates_S4096_S4096_S8192_d0
        (ix1 (⟨i.val, Nat.lt_trans i.isLt (by decide)⟩ : Fin 8192)) = s (ix1 i) :=
  concatenate_pair_apply_left (t := S8192) (s₁ := S4096) (s₂ := S4096) 0 _ _ concatenates_S4096_S4096_S8192_d0 _ rfl
    (ix1 i) (fun b => match b with | ⟨0, _⟩ => rfl)

/-- … and so is entry i + 4096 of the second half. -/
theorem twice_hi (s : S4096.Idx → EReal) (i : Fin 4096) :
    concatenate S8192 0 [⟨S4096, s⟩, ⟨S4096, s⟩] concatenates_S4096_S4096_S8192_d0
        (ix1 (⟨i.val + 4096, Nat.add_lt_add_right i.isLt 4096⟩ : Fin 8192)) = s (ix1 i) :=
  concatenate_pair_apply_right (t := S8192) (s₁ := S4096) (s₂ := S4096) 0 _ _ concatenates_S4096_S4096_S8192_d0 _ rfl rfl
    (ix1 i) (fun b hb => (hb (Fin.ext (by have hb1 : b.val < 1 := b.isLt; show b.val = 0; omega))).elim) rfl

/-- The broadcast temperature reads 1/2 everywhere. -/
theorem half_apply (idx : S8192.Idx) :
    broadcastInDim S8192 ![] bcast_S_S8192 (constant (F := Ideal) S_ .f32 0x3F000000#32) idx = Cert.Spec.wHalf :=
  broadcastInDim_apply _ bcast_S_S8192 _ idx (fun a => a.elim0) (fun a => a.elim0)

/-- exp of (an array laid out twice over the broadcast temperature), read in the first half … -/
theorem expHalf_lo (s : S4096.Idx → EReal) (i : Fin 4096) :
    Host.exp (F := Ideal) (φ := .f32) (Host.divf (F := Ideal) (φ := .f32)
        (concatenate S8192 0 [⟨S4096, s⟩, ⟨S4096, s⟩] concatenates_S4096_S4096_S8192_d0)
        (broadcastInDim S8192 ![] bcast_S_S8192 (constant (F := Ideal) S_ .f32 0x3F000000#32)))
        (ix1 (⟨i.val, Nat.lt_trans i.isLt (by decide)⟩ : Fin 8192))
      = Ideal.exp (Ideal.div (s (ix1 i)) Cert.Spec.wHalf) :=
  congrArg Ideal.exp (congrArg₂ Ideal.div (twice_lo s i) (half_apply _))

/-- … and in the second. -/
theorem expHalf_hi (s : S4096.Idx → EReal) (i : Fin 4096) :
    Host.exp (F := Ideal) (φ := .f32) (Host.divf (F := Ideal) (φ := .f32)
        (concatenate S8192 0 [⟨S4096, s⟩, ⟨S4096, s⟩] concatenates_S4096_S4096_S8192_d0)
        (broadcastInDim S8192 ![] bcast_S_S8192 (constant (F := Ideal) S_ .f32 0x3F000000#32)))
        (ix1 (⟨i.val + 4096, Nat.add_lt_add_right i.isLt 4096⟩ : Fin 8192))
      = Ideal.exp (Ideal.div (s (ix1 i)) Cert.Spec.wHalf) :=
  congrArg Ideal.exp (congrArg₂ Ideal.div (twice_hi s i) (half_apply _))

/-- The array the region reads, the stacked normalised rows rounded to the narrow format, is the reference's stacked
    normalised rows: rounding is the identity on the extended reals. -/
theorem z_eq (W : Valuation τ sig (Elt Ideal)) :
    (StableHlo.after (hostOps0 (F := Ideal)) W (Proc.devRef .tc main_v17) : S8192x256.Idx → EReal)
      = fun idx => Cert.ReferenceIdeal.Read.val_main_v16 (F := Ideal) (W (Proc.devRef .tc main_arg0)) (W (Proc.devRef .tc main_arg1)) idx := by
  show StableHlo.after hostOps0 W (Proc.devRef .tc main_v17) = _
  after_results
  rfl

/-- The inner product of every row of the first normalised matrix with the same row of the second, from the zero
    word. -/
def posSum (x0 x1 : (⟨Cert.ReferenceIdeal.S4096x256, .f32⟩ : BufTy).Contents (Elt Ideal)) : S4096.Idx → EReal :=
  Host.reduceAdd (F := Ideal) (φ := .f32)
    (mulf (F := Ideal) (φ := .f32) (Cert.ReferenceIdeal.Read.val_main_v7 (F := Ideal) x0) (Cert.ReferenceIdeal.Read.val_main_v15 (F := Ideal) x1))
    (constant (F := Ideal) S_ .f32 0x00000000#32) reducesTo_S4096x256_S4096_d1 h_S_

/-- Read at row i: the zero word plus the sum over the 256 entries of the products. -/
theorem posSum_apply (x0 x1 : (⟨Cert.ReferenceIdeal.S4096x256, .f32⟩ : BufTy).Contents (Elt Ideal)) (i : Fin 4096) :
    posSum x0 x1 (ix1 i)
      = Cert.Spec.w0 + ∑ k : Fin 256, (Cert.ReferenceIdeal.Read.val_main_v7 (F := Ideal) x0 (ix2 i k) : EReal) * (Cert.ReferenceIdeal.Read.val_main_v15 (F := Ideal) x1 (ix2 i k) : EReal) :=
  rowDot_apply (Cert.ReferenceIdeal.Read.val_main_v7 (F := Ideal) x0) (Cert.ReferenceIdeal.Read.val_main_v15 (F := Ideal) x1) i

/-- The numerator array of the kernel program: exp of the pairs' inner products, laid out twice, over the temperature. -/
theorem nomK_eq (W : Valuation τ sig (Elt Ideal)) :
    (StableHlo.after (hostOps0 (F := Ideal)) W (Proc.devRef .tc main_v23) : S8192.Idx → EReal)
      = Host.exp (F := Ideal) (φ := .f32) (Host.divf (F := Ideal) (φ := .f32)
          (concatenate S8192 0 [⟨S4096, posSum (W (Proc.devRef .tc main_arg0)) (W (Proc.devRef .tc main_arg1))⟩, ⟨S4096, posSum (W (Proc.devRef .tc main_arg0)) (W (Proc.devRef .tc main_arg1))⟩] concatenates_S4096_S4096_S8192_d0)
          (broadcastInDim S8192 ![] bcast_S_S8192 (constant (F := Ideal) S_ .f32 0x3F000000#32))) := by
  show StableHlo.after hostOps0 W (Proc.devRef .tc main_v23) = _
  after_results
  rfl

/-- The numerator of row i of the first half: exp of the pair's inner product over the temperature. -/
theorem nomK_apply_lo (W : Valuation τ sig (Elt Ideal)) (i : Fin 4096) :
    (StableHlo.after (hostOps0 (F := Ideal)) W (Proc.devRef .tc main_v23) : S8192.Idx → EReal) (ix1 (⟨i.val, Nat.lt_trans i.isLt (by decide)⟩ : Fin 8192))
      = Ideal.exp (Ideal.div (Cert.Spec.w0 + ∑ k : Fin 256,
          (Cert.ReferenceIdeal.Read.val_main_v7 (F := Ideal) (W (Proc.devRef .tc main_arg0)) (ix2 i k) : EReal) * (Cert.ReferenceIdeal.Read.val_main_v15 (F := Ideal) (W (Proc.devRef .tc main_arg1)) (ix2 i k) : EReal)) Cert.Spec.wHalf) := by
  rw [nomK_eq W]
  exact (expHalf_lo _ i).trans (congrArg (fun x : EReal => Ideal.exp (Ideal.div x Cert.Spec.wHalf)) (posSum_apply _ _ i))

/-- The numerator of row i + 4096 of the second half: the same value. -/
theorem nomK_apply_hi (W : Valuation τ sig (Elt Ideal)) (i : Fin 4096) :
    (StableHlo.after (hostOps0 (F := Ideal)) W (Proc.devRef .tc main_v23) : S8192.Idx → EReal) (ix1 (⟨i.val + 4096, Nat.add_lt_add_right i.isLt 4096⟩ : Fin 8192))
      = Ideal.exp (Ideal.div (Cert.Spec.w0 + ∑ k : Fin 256,
          (Cert.ReferenceIdeal.Read.val_main_v7 (F := Ideal) (W (Proc.devRef .tc main_arg0)) (ix2 i k) : EReal) * (Cert.ReferenceIdeal.Read.val_main_v15 (F := Ideal) (W (Proc.devRef .tc main_arg1)) (ix2 i k) : EReal)) Cert.Spec.wHalf) := by
  rw [nomK_eq W]
  exact (expHalf_hi _ i).trans (congrArg (fun x : EReal => Ideal.exp (Ideal.div x Cert.Spec.wHalf)) (posSum_apply _ _ i))

/-- The numerator of any row r: the pair is row r mod 4096 of the two normalised matrices. -/
theorem nomK_apply (W : Valuation τ sig (Elt Ideal)) (r : Fin 8192) :
    (StableHlo.after (hostOps0 (F := Ideal)) W (Proc.devRef .tc main_v23) : S8192.Idx → EReal) (ix1 r)
      = Ideal.exp (Ideal.div (Cert.Spec.w0 + ∑ k : Fin 256,
          (Cert.ReferenceIdeal.Read.val_main_v7 (F := Ideal) (W (Proc.devRef .tc main_arg0)) (ix2 (⟨r.val % 4096, Nat.mod_lt _ (by decide)⟩ : Fin 4096) k) : EReal)
            * (Cert.ReferenceIdeal.Read.val_main_v15 (F := Ideal) (W (Proc.devRef .tc main_arg1)) (ix2 (⟨r.val % 4096, Nat.mod_lt _ (by decide)⟩ : Fin 4096) k) : EReal))
          Cert.Spec.wHalf) := by
  have hr : r.val < 8192 := r.isLt
  by_cases h : r.val < 4096
  · have e : (⟨r.val % 4096, Nat.mod_lt _ (by decide)⟩ : Fin 4096) = ⟨r.val, h⟩ := Fin.ext (Nat.mod_eq_of_lt h)
    rw [e]
    exact nomK_apply_lo W ⟨r.val, h⟩
  · have h' : r.val - 4096 < 4096 := by omega
    have e : (⟨r.val % 4096, Nat.mod_lt _ (by decide)⟩ : Fin 4096) = ⟨r.val - 4096, h'⟩ :=
      Fin.ext (by show r.val % 4096 = r.val - 4096; omega)
    rw [e]
    have e2 : r = (⟨(⟨r.val - 4096, h'⟩ : Fin 4096).val + 4096, Nat.add_lt_add_right h' 4096⟩ : Fin 8192) :=
      Fin.ext (by show r.val = r.val - 4096 + 4096; omega)
    exact (congrArg (fun q : Fin 8192 => (StableHlo.after (hostOps0 (F := Ideal)) W (Proc.devRef .tc main_v23) : S8192.Idx → EReal) (ix1 q)) e2).trans (nomK_apply_hi W ⟨r.val - 4096, h'⟩)

/-- The last stretch of both programs, as a function of the numerator and the denominator of every row: the mean over
    the 8192 rows of minus the logarithm of their quotient. -/
def lossTail (nom den : (⟨1, ![8192]⟩ : Shape).Idx → EReal) : (⟨0, ![]⟩ : Shape).Idx → EReal :=
  Host.divf (F := Ideal) (φ := .f32)
    (Host.reduceAdd (F := Ideal) (φ := .f32)
      (Host.negf (F := Ideal) (φ := .f32) (Host.log (F := Ideal) (φ := .f32) (Host.divf (F := Ideal) (φ := .f32) nom den)))
      (constant (F := Ideal) S_ .f32 0x00000000#32) reducesTo_S8192_S_d0 h_S_)
    (constant (F := Ideal) S_ .f32 0x46000000#32)

/-- A column [a, 1] viewed as the array [a] reads, at i, the column at (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The kernel program's last stretch is the common tail at its own numerator and at the region's denominator column
    read as an array. -/
theorem ker_tail (W' : Valuation τ sig (Elt Ideal)) :
    StableHlo.after (hostOps1 (F := Ideal)) W' (Proc.devRef .tc main_v30)
      = lossTail (W' (Proc.devRef .tc main_v23))
          (fun idx => W' (Proc.devRef .tc main_v24) (ix2 (n0 := 8192) (n1 := 1) (idx 0) 0)) := by
  have e : (fun idx : (⟨1, ![8192]⟩ : Shape).Idx => W' (Proc.devRef .tc main_v24) (ix2 (n0 := 8192) (n1 := 1) (idx 0) 0))
      = shapeCast S8192 (W' (Proc.devRef .tc main_v24)) shapeCasts_S8192x1_S8192 := by
    funext idx
    obtain ⟨r, rfl⟩ : ∃ r : Fin 8192, idx = ix1 r := ⟨idx 0, eq_ix1 idx⟩
    exact (shapeCast_a1_a_apply (W' (Proc.devRef .tc main_v24)) shapeCasts_S8192x1_S8192 r).symm
  rw [e]
  show StableHlo.after hostOps1 W' (Proc.devRef .tc main_v30) = _
  after_results
  rfl

/-- The reference program's last stretch is the common tail at its own numerator and denominator. -/
theorem ref_tail (x0 x1 : (⟨Cert.ReferenceIdeal.S4096x256, .f32⟩ : BufTy).Contents (Elt Ideal)) :
    Cert.ReferenceIdeal.Read.val_main_v73 (F := Ideal) x0 x1
      = lossTail (Cert.ReferenceIdeal.Read.val_main_v55 (F := Ideal) x0 x1) (Cert.ReferenceIdeal.Read.val_main_v68 (F := Ideal) x0 x1) := by
  unfold Cert.ReferenceIdeal.Read.val_main_v73 Cert.ReferenceIdeal.Read.val_main_v72 Cert.ReferenceIdeal.Read.val_main_v71
    Cert.ReferenceIdeal.Read.val_main_v70 Cert.ReferenceIdeal.Read.val_main_v69 lossTail
  rfl

end Cert.KernelHost

end
-- ==== Proof.LibReal.lean ====
/-
  Real numbers among the extended reals.

  Over the extended reals the sum and the product are total, but the laws that move a factor across a sum hold only
  away from the infinities. `IsReal z` says `z` is a real number; real numbers are closed under the sum, the product,
  finite sums and the logistic function, a real factor moves inside a finite sum of real numbers
  (`mul_sum_of_real`), and a scatter that adds real updates into a real array gives a real array.

  How an input is known to be real: a precondition that compares the absolute value of every element of a 32-bit float
  array with plus infinity (the pattern 0x7F800000) says, element by element, that the element is a real number
  (`elem_real`: one element of that comparison being 1; the all-reduce by "and" of the comparison gives every element's).
-/
import Idealize.ShloMosaic.PureOps.Ideal
import Idealize.ShloMosaic.PureOps.Ideal.Laws

noncomputable section

open scoped BigOperators

namespace Cert.LibReal

open Idealize.ShloMosaic

/-- An extended real that is a real number. -/
def IsReal (z : EReal) : Prop := ∃ r : ℝ, z = (r : EReal)

theorem IsReal.coe (r : ℝ) : IsReal (r : EReal) := ⟨r, rfl⟩

theorem IsReal.zero : IsReal 0 := ⟨0, EReal.coe_zero.symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

/-- A finite sum of real numbers is a real number. -/
theorem IsReal.sum {ι : Type*} (s : Finset ι) (f : ι → EReal) (h : ∀ i ∈ s, IsReal (f i)) : IsReal (∑ i ∈ s, f i) :=
  Finset.sum_induction f IsReal (fun _ _ => IsReal.add) IsReal.zero h

/-- The logistic function of a real number is a real number. -/
theorem IsReal.logistic {a : EReal} (ha : IsReal a) : IsReal (Ideal.logistic a) := by
  obtain ⟨r, rfl⟩ := ha; exact ⟨_, Ideal.logistic_coe r⟩

/-- A real factor times a finite sum of real numbers is the sum of the products. -/
theorem mul_sum_of_real {ι : Type*} (s : Finset ι) (g : EReal) (a : ι → EReal) (hg : IsReal g)
    (ha : ∀ i ∈ s, IsReal (a i)) : g * ∑ i ∈ s, a i = ∑ i ∈ s, g * a i := by
  classical
  obtain ⟨r, rfl⟩ := hg
  revert ha
  refine Finset.induction_on s ?_ ?_
  · intro _; simp
  · intro i s hi ih ha
    rw [Finset.sum_insert hi, Finset.sum_insert hi, ← ih (fun j hj => ha j (Finset.mem_insert_of_mem hj))]
    obtain ⟨x, hx⟩ := ha i (Finset.mem_insert_self i s)
    obtain ⟨y, hy⟩ := IsReal.sum s a (fun j hj => ha j (Finset.mem_insert_of_mem hj))
    rw [hx, hy, ← EReal.coe_add, ← EReal.coe_mul, ← EReal.coe_mul, ← EReal.coe_mul, ← EReal.coe_add, mul_add]

/-- Adding real updates into a real array leaves every element real: the element plus a finite sum of updates. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) :
    ∀ i, IsReal (Host.scatterAdd d x idx upd i) := by
  intro i
  show IsReal (Ideal.hostScatterAdd d x idx upd i)
  unfold Ideal.hostScatterAdd
  exact IsReal.add (hx i) (IsReal.sum _ _ fun j _ => hu j)

/-- The rank-zero shape has one index. -/
instance scalarIdx_subsingleton : Subsingleton (⟨0, ![]⟩ : Shape).Idx := ⟨fun a b => funext fun d => d.elim0⟩

/-- An extended real whose absolute value, the larger of it and its negation, is below plus infinity is a real number. -/
theorem isReal_of_abs_lt_top (x : EReal) (h : max x (-x) < ⊤) : IsReal x := by
  induction x using EReal.rec with
  | bot => simp at h
  | coe r => exact ⟨r, rfl⟩
  | top => simp at h

/-- The pattern 0x7F800000 of the 32-bit format is plus infinity. -/
theorem ofBits_inf : Ideal.ofBits .f32 0x7F800000#32 = ⊤ := by simp [Ideal.ofBits, Ideal.ieee]

/-- One element of the comparison of the absolute values against a splat of plus infinity being 1 says the
    element is a real number. -/
theorem elem_real {s : Shape} (hb : (⟨0, ![]⟩ : Shape).BroadcastsInDim s (![] : Fin 0 → Fin s.rank))
    (a : FVec Ideal s .f32) (i : s.Idx)
    (h : cmpf .olt (Host.absf a) (broadcastInDim s ![] hb (constant (⟨0, ![]⟩ : Shape) .f32 0x7F800000#32)) i = 1#1) :
    IsReal (a i) := by
  have h' : Ideal.cmp .olt (max (a i) (-(a i))) (Ideal.ofBits .f32 0x7F800000#32) = 1#1 := h
  rw [ofBits_inf] at h'
  unfold Ideal.cmp at h'
  refine isReal_of_abs_lt_top (a i) ?_
  by_contra hn
  simp [hn] at h'

end Cert.LibReal

end
-- ==== Proof.Algebra.lean ====
/-
  The real-number algebra behind the two denominators.

  Every entry of the stacked matrix z is a real number, so every similarity is a real number and so is every
  exponential. Doubling a real number is dividing it by one half, so the two programs' exponentials agree entry by
  entry. With e c the (real) exponential of row r at column c, the masked sum is (∑ c, e c) - e r. The other
  program splits the 8192 columns into four stretches of 2048, T j being the sum of e over stretch j, adds the
  T j in turn to an accumulator that starts at zero, and on the one stretch j = r / 2048 that holds column r
  subtracts the sum over that stretch of (e c if c = r, else 0), which is e r. Since T 0 + T 1 + T 2 + T 3 = ∑ c, e c,
  the accumulator ends at (∑ c, e c) - e r as well.
-/
import proofs.«138062_j35948876267977_2_alg».proof.Proof.Spec
import proofs.«138062_j35948876267977_2_alg».proof.Proof.LibReal
import Mathlib.Algebra.BigOperators.Fin
import Mathlib.Tactic.Ring
import Mathlib.Tactic.NormNum

noncomputable section

open scoped BigOperators

namespace Cert.Algebra

open Idealize.ShloMosaic Cert.Spec Cert.LibReal

/-! ## The four float words -/

theorem w0_eq : w0 = 0 := by simp [Ideal.ofBits, Ideal.ieee]
theorem w1_eq : w1 = ((1 : ℝ) : EReal) := by
  simp [Ideal.ofBits, Ideal.ieee, -EReal.coe_mul]; norm_num
theorem w2_eq : w2 = ((2 : ℝ) : EReal) := by
  simp [Ideal.ofBits, Ideal.ieee, -EReal.coe_mul]; norm_num
theorem wHalf_eq : wHalf = ((1 / 2 : ℝ) : EReal) := by
  simp [Ideal.ofBits, Ideal.ieee, -EReal.coe_mul]; norm_num

/-! ## Real numbers and finite sums -/

/-- The inclusion of the real numbers commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro i s hi ih
    rw [Finset.sum_insert hi, Finset.sum_insert hi, EReal.coe_add, ih]

/-! ## The similarity and its exponentials -/

/-- The similarity is symmetric. -/
theorem sim_comm (z : Mat) (r c : Fin 8192) : sim z r c = sim z c r := by
  unfold sim
  exact Finset.sum_congr rfl fun k _ => mul_comm _ _

/-- The similarity of two rows of real numbers is a real number. -/
theorem sim_real (z : Mat) (hz : ∀ r k, IsReal (z r k)) (r c : Fin 8192) : IsReal (sim z r c) :=
  IsReal.sum _ _ fun k _ => (hz r k).mul (hz c k)

/-- Twice a real similarity is the similarity over one half: the two exponentials agree. -/
theorem eK_eq_eR (z : Mat) (hz : ∀ r k, IsReal (z r k)) (r c : Fin 8192) : eK z r c = eR z r c := by
  obtain ⟨s, hs⟩ := sim_real z hz r c
  unfold eK eR
  rw [hs, w2_eq, wHalf_eq, Ideal.div_coe (by norm_num : (1 / 2 : ℝ) ≠ 0)]
  norm_num

/-- The exponential of a real number is a real number. -/
theorem eK_real (z : Mat) (hz : ∀ r k, IsReal (z r k)) (r c : Fin 8192) : IsReal (eK z r c) := by
  obtain ⟨s, hs⟩ := sim_real z hz r c
  unfold eK
  rw [hs, w2_eq, ← EReal.coe_mul]
  exact ⟨Real.exp (s * 2), rfl⟩

theorem eR_real (z : Mat) (hz : ∀ r k, IsReal (z r k)) (r c : Fin 8192) : IsReal (eR z r c) := by
  rw [← eK_eq_eR z hz]; exact eK_real z hz r c

/-! ## The four stretches -/

/-- A sum over the 8192 columns is the sum of the sums over the four stretches of 2048 columns. -/
theorem sum_stretches (e : Fin 8192 → ℝ) :
    ∑ c : Fin 8192, e c = (∑ q : Fin 2048, e (col 0 q)) + (∑ q : Fin 2048, e (col 1 q))
      + (∑ q : Fin 2048, e (col 2 q)) + (∑ q : Fin 2048, e (col 3 q)) := by
  have h : ∑ c : Fin 8192, e c = ∑ j : Fin 4, ∑ q : Fin 2048, e (col j q) := by
    rw [← Fintype.sum_prod_type' (fun (j : Fin 4) (q : Fin 2048) => e (col j q))]
    refine (Fintype.sum_equiv (finProdFinEquiv : Fin 4 × Fin 2048 ≃ Fin 8192) _ _ ?_).symm
    rintro ⟨j, q⟩
    congr 1
    apply Fin.ext
    simp [finProdFinEquiv, col, Nat.add_comm]
  rw [h, Fin.sum_univ_four]

/-- On the stretch that holds column r, the sum that keeps only the diagonal column is that column's term. -/
theorem diag_sum (e : Fin 8192 → ℝ) (r : Fin 8192) (j : Fin 4) (hj : r.val / 2048 = j.val) :
    (∑ q : Fin 2048, if r.val = 2048 * j.val + q.val then e (col j q) else 0) = e r := by
  have hq : r.val % 2048 < 2048 := Nat.mod_lt _ (by norm_num)
  rw [Finset.sum_eq_single (⟨r.val % 2048, hq⟩ : Fin 2048)]
  · have h1 : r.val = 2048 * j.val + r.val % 2048 := by omega
    have h2 : col j ⟨r.val % 2048, hq⟩ = r := by apply Fin.ext; simp only [col]; omega
    simp only [← h1, if_true, h2]
  · intro q _ hne
    have : r.val ≠ 2048 * j.val + q.val := by
      intro h; apply hne; apply Fin.ext; simp only; omega
    rw [if_neg this]
  · intro h; exact absurd (Finset.mem_univ _) h

/-! ## The two denominators -/

section Den

variable (z : Mat) (r : Fin 8192) (e : Fin 8192 → ℝ) (he : ∀ c, eK z r c = ((e c : ℝ) : EReal))
include he

/-- A stretch's sum of exponentials, as a real number. -/
theorem tileSum_coe (j : Fin 4) : tileSum z r j = ((∑ q : Fin 2048, e (col j q) : ℝ) : EReal) := by
  unfold tileSum
  rw [coe_sum]
  exact Finset.sum_congr rfl fun q _ => he _

/-- A stretch's diagonal-only sum, as a real number. -/
theorem tileDiag_coe (j : Fin 4) :
    tileDiag z r j = ((∑ q : Fin 2048, if r.val = 2048 * j.val + q.val then e (col j q) else 0 : ℝ) : EReal) := by
  unfold tileDiag
  rw [coe_sum]
  refine Finset.sum_congr rfl fun q _ => ?_
  split_ifs
  · exact he _
  · rw [w0_eq, EReal.coe_zero]

/-- One update of a real accumulator is the same update done among the real numbers. -/
theorem step_coe (j : Fin 4) (a : ℝ) :
    step z r j (a : EReal) = (((if r.val / 2048 = j.val then fun s : ℝ => s -
        ∑ q : Fin 2048, if r.val = 2048 * j.val + q.val then e (col j q) else 0 else fun s => s)
      ((if j.val = 0 then 0 else a) + ∑ q : Fin 2048, e (col j q)) : ℝ) : EReal) := by
  unfold step
  rw [tileSum_coe z r e he, tileDiag_coe z r e he, w0_eq]
  have hacc : (if j.val = 0 then (0 : EReal) else (a : EReal)) = (((if j.val = 0 then 0 else a : ℝ)) : EReal) := by
    split_ifs
    · exact EReal.coe_zero.symm
    · rfl
  rw [hacc, ← EReal.coe_add]
  by_cases h1 : r.val / 2048 = j.val
  · rw [if_pos h1, if_pos h1]
    exact (EReal.coe_sub _ _).symm
  · rw [if_neg h1, if_neg h1]

omit he in
/-- The first update forgets what the accumulator held. -/
theorem step_zero (a₀ : EReal) : step z r 0 a₀ = step z r 0 ((0 : ℝ) : EReal) := by
  unfold step
  simp only [Fin.val_zero, if_true]

/-- The masked sum over all columns, as a real number: the full sum less the diagonal term. -/
theorem denR_coe (hz : ∀ r k, IsReal (z r k)) : denR z r = (((∑ c : Fin 8192, e c) - e r : ℝ) : EReal) := by
  unfold denR
  have hterm : ∀ c : Fin 8192, (w1 - (if r = c then (1 : EReal) else 0)) * eR z r c
      = (((1 - (if r = c then (1 : ℝ) else 0)) * e c : ℝ) : EReal) := by
    intro c
    rw [← eK_eq_eR z hz, he c, w1_eq]
    by_cases h : r = c
    · simp only [h, if_true, ← EReal.coe_one, ← EReal.coe_sub, ← EReal.coe_mul]
    · simp only [h, if_false, ← EReal.coe_zero, ← EReal.coe_sub, ← EReal.coe_mul]
  rw [w0_eq, zero_add, Finset.sum_congr rfl fun c _ => hterm c, ← coe_sum]
  congr 1
  simp only [sub_mul, one_mul, Finset.sum_sub_distrib, ite_mul, zero_mul, Finset.sum_ite_eq, Finset.mem_univ, if_true]

end Den

/-- The accumulator after the four stretches holds the masked sum, whatever it held before. -/
theorem den_eq (z : Mat) (hz : ∀ r k, IsReal (z r k)) (r : Fin 8192) (a₀ : EReal) : denK z r a₀ = denR z r := by
  choose e he using fun c => eK_real z hz r c
  rw [denR_coe z r e he hz]
  unfold denK
  rw [step_zero, step_coe z r e he, step_coe z r e he, step_coe z r e he, step_coe z r e he]
  congr 1
  rw [sum_stretches e]
  have hr : r.val / 2048 = 0 ∨ r.val / 2048 = 1 ∨ r.val / 2048 = 2 ∨ r.val / 2048 = 3 := by omega
  have v0 : (0 : Fin 4).val = 0 := rfl
  have v1 : (1 : Fin 4).val = 1 := rfl
  have v2 : (2 : Fin 4).val = 2 := rfl
  have v3 : (3 : Fin 4).val = 3 := rfl
  rcases hr with h | h | h | h
  · have hd := diag_sum e r 0 (by rw [h, v0])
    simp only [v0, v1, v2, v3] at hd ⊢
    simp only [h, hd]
    norm_num
    ring
  · have hd := diag_sum e r 1 (by rw [h, v1])
    simp only [v0, v1, v2, v3] at hd ⊢
    simp only [h, hd]
    norm_num
    ring
  · have hd := diag_sum e r 2 (by rw [h, v2])
    simp only [v0, v1, v2, v3] at hd ⊢
    simp only [h, hd]
    norm_num
    ring
  · have hd := diag_sum e r 3 (by rw [h, v3])
    simp only [v0, v1, v2, v3] at hd ⊢
    simp only [h, hd]
    norm_num

end Cert.Algebra

end
-- ==== Proof.Finite.lean ====
/-
  Every entry of the two normalised matrices is a real number.

  The precondition compares the absolute value of every input entry with plus infinity, so every input entry is a
  real number. A row's sum of squares is then a nonnegative real number, its square root a real number, the larger
  of that and the positive constant a nonzero real number, and the quotient of the entry by it a real number.
-/
import proofs.«138062_j35948876267977_2_alg».proof.Proof.LibReal
import proofs.«138062_j35948876267977_2_alg».proof.Proof.Gen.Pre_finite_inputs
import proofs.«138062_j35948876267977_2_alg».proof.Proof.ReadP
import Idealize.ShloMosaic.Lib.ReduceAll
import Idealize.ShloMosaic.Lib.ValueIdx

noncomputable section

open scoped BigOperators

namespace Cert.Finite

open Idealize.ShloMosaic Cert.LibReal

/-- The clamp constant of the normalisation is a positive real number. -/
theorem eps_pos : ∃ ε : ℝ, 0 < ε ∧ Ideal.ofBits .f32 0x2B8CBCCC#32 = ((ε : ℝ) : EReal) := by
  refine ⟨(9223372 : ℝ) * (2 : ℝ) ^ (-63 : ℤ), by positivity, ?_⟩
  simp [Ideal.ofBits, Ideal.ieee, -EReal.coe_mul]

/-- A real number over the larger of the root of a sum of squares of real numbers and a positive real number
    is a real number. -/
theorem normalize_real (x : EReal) (f : Fin 256 → EReal) (hx : IsReal x) (hf : ∀ k, IsReal (f k))
    (ε : ℝ) (hε : 0 < ε) :
    IsReal (Ideal.div x (max (Ideal.sqrt (0 + ∑ k : Fin 256, f k * f k)) (ε : EReal))) := by
  obtain ⟨t, rfl⟩ := hx
  have hs : ∃ s : ℝ, 0 ≤ s ∧ (0 : EReal) + ∑ k : Fin 256, f k * f k = (s : EReal) := by
    rw [zero_add]
    refine Finset.sum_induction _ (fun y : EReal => ∃ s : ℝ, 0 ≤ s ∧ y = (s : EReal)) ?_
      ⟨0, le_rfl, EReal.coe_zero.symm⟩ ?_
    · rintro _ _ ⟨a, ha, rfl⟩ ⟨b, hb, rfl⟩
      exact ⟨a + b, add_nonneg ha hb, (EReal.coe_add a b).symm⟩
    · intro k _
      obtain ⟨g, hg⟩ := hf k
      exact ⟨g * g, mul_self_nonneg g, by rw [hg, EReal.coe_mul]⟩
  obtain ⟨s, hs0, hs⟩ := hs
  rw [hs, Ideal.sqrt_coe, if_neg (not_lt.2 hs0), ← EReal.coe_strictMono.monotone.map_max]
  have hm : max (Real.sqrt s) ε ≠ 0 := (lt_max_of_lt_right hε).ne'
  rw [Ideal.div_coe hm, ← EReal.coe_mul]
  exact IsReal.coe _

/-- The precondition says every entry of both inputs is a real number. -/
theorem inputs_real (x0 x1 : FVec Ideal Cert.Pre_finite_inputs.S4096x256 .f32)
    (hpre : Cert.Pre_finite_inputs.fn (F := Ideal) x0 x1 = (fun _ => 1#1)) :
    (∀ i, IsReal (x0 i)) ∧ (∀ i, IsReal (x1 i)) := by
  have h := congrFun hpre ValueIdx.ix0
  dsimp only [Cert.Pre_finite_inputs.fn] at h
  obtain ⟨h0, h1⟩ := IntOp.andi_eq_one.1 h
  exact ⟨fun i => elem_real _ x0 i (Host.reduce_andi_all _ _ _ _ _ h0 i),
    fun i => elem_real _ x1 i (Host.reduce_andi_all _ _ _ _ _ h1 i)⟩

open Cert.ReferenceIdeal Cert.ReferenceIdeal.Read

/-- Every entry of the first normalised matrix is a real number. -/
theorem v7_real (x0 : (⟨S4096x256, .f32⟩ : BufTy).Contents (Elt Ideal)) (h0 : ∀ i, IsReal (x0 i))
    (i : S4096x256.Idx) : IsReal (val_main_v7 (F := Ideal) x0 i) := by
  obtain ⟨ε, hε, he⟩ := eps_pos
  rw [val_main_v7_apply, val_main_v6_apply, val_main_v5_apply, val_main_v3_apply, val_main_v2_apply,
    val_main_v1_apply, val_main_v4_apply, val_main_cst_0_apply, val_main_cst_apply]
  simp only [val_main_v0_apply, Ideal.hostDivf_def, Ideal.maximumf_def, Ideal.hostUnary_sqrt_def, Ideal.mulf_def,
    Ideal.ofBits_def, Ideal.ofBits_zero_f32, he]
  exact normalize_real _ _ (h0 i) (fun k => h0 _) ε hε

/-- Every entry of the second normalised matrix is a real number. -/
theorem v15_real (x1 : (⟨S4096x256, .f32⟩ : BufTy).Contents (Elt Ideal)) (h1 : ∀ i, IsReal (x1 i))
    (i : S4096x256.Idx) : IsReal (val_main_v15 (F := Ideal) x1 i) := by
  obtain ⟨ε, hε, he⟩ := eps_pos
  rw [val_main_v15_apply, val_main_v14_apply, val_main_v13_apply, val_main_v11_apply, val_main_v10_apply,
    val_main_v9_apply, val_main_v12_apply, val_main_cst_2_apply, val_main_cst_1_apply]
  simp only [val_main_v8_apply, Ideal.hostDivf_def, Ideal.maximumf_def, Ideal.hostUnary_sqrt_def, Ideal.mulf_def,
    Ideal.ofBits_def, Ideal.ofBits_zero_f32, he]
  exact normalize_real _ _ (h1 i) (fun k => h1 _) ε hε

end Cert.Finite

end
-- ==== Proof.LibMatmulNT.lean ====
/-
  A matrix product with the right operand transposed, read at an index on the extended reals.

  For `A : [M, K]` and `B : [N, K]`, a product that contracts the LAST axis of both operands (dimension numbers
  `contracting [1] × [1]`, `non-contracting [0] × [0]`, no batch axes: `A · Bᵀ`, what `lax.dot_general` with
  `(((1,), (1,)), ((), ()))` lowers to) into a zero accumulator is, at `(i, j)`, the finite sum
  `Σ_k A[i, k] · B[j, k]` over `k : Fin K`. Stated for ANY record with those dimension numbers, whatever the extents
  and the operands' float formats, so that it applies to a printed record by its six list fields (each `rfl`).
-/
import Idealize.ShloMosaic.Lib.ValueIdx
import Idealize.ShloMosaic.PureOps.Ideal.Laws

noncomputable section

namespace Cert.LibMatmulNT

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![N, K]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's row is the result's column. -/
theorem rhsIdx_row (d : DotDims ⟨2, ![M, K]⟩ ⟨2, ![N, K]⟩ ⟨2, ![M, N]⟩)
    (hlb : d.lhsBatch = []) (hrb : d.rhsBatch = []) (hln : d.lhsNonContracting = [0]) (hrn : d.rhsNonContracting = [0])
    (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![N, K]⟩ ⟨2, ![M, N]⟩) (hlc : d.lhsContracting = [1]) :
    d.contr.rank = 1 := by
  rw [d.rank_contr, hlc]; rfl

theorem contr_size (d : DotDims ⟨2, ![M, K]⟩ ⟨2, ![N, K]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · Bᵀ` into a zero accumulator, at `(i, j)`, is `Σ_k A[i, k] · B[j, k]`. -/
theorem matmul_nt_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (A : FVec Ideal ⟨2, ![M, K]⟩ φ₁) (B : FVec Ideal ⟨2, ![N, K]⟩ φ₂)
    (i : Fin M) (j : Fin N) :
    matmul d prec A B (constant ⟨2, ![M, N]⟩ .f32 0x00000000#32) (ix2 i j) = ∑ k : Fin K, A (ix2 i k) * B (ix2 j k) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 j k := funext fun a => Fin.ext (by
    match a with
    | ⟨0, _⟩ => exact rhsIdx_row d hlb hrb hln hrn _ _
    | ⟨1, _⟩ => exact (d.rhsIdx_val_of_single hrc _ _).trans hk)
  rw [el, er]

end Cert.LibMatmulNT

end
-- ==== Proof.LibKeepdims.lean ====
/-
  Row sums kept as a column, read at an index given by coordinates.

  `jnp.sum(x, axis=1, keepdims=True)` of a matrix `[a, b]` is, in a kernel, a lane reduction `[a, b] → [a]`
  followed by a cast `[a] → [a, 1]`; adding such a column to an `[a, c]` matrix broadcasts it `[a, 1] → [a, c]`.
  Read at `(p, q)` the composite is the sum over the row `p`, whatever `q`: the three lemmas below are the three steps,
  each with its indices written by coordinates, and `rowSum_bcast_apply` / `rowSum_bcastRow_apply` are the two composites
  a pairwise-distance kernel uses (the row norms of the left operand down the columns, those of the right operand
  along the rows).
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane reduction by addition of an `[a, b]` matrix along its rows, at the ideal values and read at row `r`: the sum
    over the row. The accumulator's word is the neutral one, so it contributes nothing. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- Row sums kept as a column and broadcast along the rows: at `(p, c)`, the sum over row `p`. -/
theorem rowSum_bcast_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, n]⟩)
    (p : Fin a) (c : Fin n) :
    broadcastTo ⟨2, ![a, n]⟩ (shapeCast ⟨2, ![a, 1]⟩ (multiReduction .add [1] ⟨1, ![a]⟩ src acc h hφ hacc) hc) hb (ix2 p c)
      = ∑ k : Fin b, src (ix2 p k) :=
  (broadcastTo_a1_ab_apply _ hb p c).trans
    ((shapeCast_a_a1_apply _ hc p 0).trans (multiReduction_add_rows_apply src acc h hφ hacc p))

/-- Row sums laid out as one row `[1, a]` and broadcast down the columns: at `(p, c)`, the sum over row `c` of the
    source. -/
theorem rowSum_bcastRow_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![1, a]⟩) (hb : (⟨2, ![1, a]⟩ : Shape).Broadcasts ⟨2, ![n, a]⟩)
    (p : Fin n) (c : Fin a) :
    broadcastTo ⟨2, ![n, a]⟩ (shapeCast ⟨2, ![1, a]⟩ (multiReduction .add [1] ⟨1, ![a]⟩ src acc h hφ hacc) hc) hb (ix2 p c)
      = ∑ k : Fin b, src (ix2 c k) :=
  (broadcastTo_1b_ab_apply _ hb p c).trans
    ((shapeCast_a_1a_apply _ hc 0 c).trans (multiReduction_add_rows_apply src acc h hφ hacc c))

end Idealize.ShloMosaic.ValueIdx

end
-- ==== Proof.PayIdx.lean ====
/-
  The four values the kernel body stores into its row accumulator, read at one element.

  For a row tile of 1024 rows and a column tile of 2048 columns of the stacked unit vectors, the body forms the tile of
  inner products (every row of the first against every row of the second), doubles it and exponentiates it. It then
  stores, in turn: the zero column (the accumulator's restart); the accumulator plus the sum of each row of the
  exponentials; and the accumulator minus the sum of each row of the exponentials with every entry off the global
  diagonal replaced by zero. The global position of entry (p, q) of the tile at grid point (g0, g1) is row
  1024 g0 + p, column 2048 g1 + q; the kernel compares the two as 32-bit words, and since they stay below 2^32 the
  comparison of words is the comparison of numbers.
-/
import proofs.«138062_j35948876267977_2_alg».proof.Proof.Spec
import proofs.«138062_j35948876267977_2_alg».proof.Proof.Gen.KernelIdeal.Skeleton
import proofs.«138062_j35948876267977_2_alg».proof.Proof.LibMatmulNT
import proofs.«138062_j35948876267977_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.PayIdx

open Idealize.ShloMosaic Idealize.ShloMosaic.ValueIdx Cert.KernelIdeal Cert.KernelIdeal.Gen

/-- The restart value: the zero word in every row. -/
theorem pay1_apply (p : Fin 1024) : k0_pay1 (F := Ideal) (ix2 p (0 : Fin 1)) = Cert.Spec.w0 := by
  unfold k0_pay1
  rw [shapeCast_self]
  rfl

/-- Entry (p, q) of the tile of exponentials: exp of twice the inner product of row p of the row tile with row q of
    the column tile. -/
theorem pay2_apply (v3 : Vec Ideal S1024x256 .bf16) (v5 : Vec Ideal S2048x256 .bf16) (p : Fin 1024) (q : Fin 2048) :
    k0_pay2 v3 v5 (ix2 p q)
      = Ideal.exp ((∑ k : Fin 256, (v3 (ix2 p k) : EReal) * (v5 (ix2 q k) : EReal)) * Cert.Spec.w2) := by
  unfold k0_pay2
  rw [shapeCast_self, shapeCast_self]
  refine congrArg Ideal.exp (congrArg (· * Cert.Spec.w2) ?_)
  exact Cert.LibMatmulNT.matmul_nt_apply (φ₁ := .bf16) (φ₂ := .bf16) dot_S1024x256_S2048x256_S1024x2048_1_1_0_0_n_n
    rfl rfl rfl rfl rfl rfl none v3 v5 p q

/-- The accumulator after a column tile: what it held plus the sum of row p of the exponentials. -/
theorem pay3_apply (v3 : Vec Ideal S1024x256 .bf16) (v5 : Vec Ideal S2048x256 .bf16) (v11 : Vec Ideal S1024x1 .f32)
    (p : Fin 1024) :
    k0_pay3 v3 v5 v11 (ix2 p (0 : Fin 1))
      = (v11 (ix2 p (0 : Fin 1)) : EReal) + ∑ q : Fin 2048, k0_pay2 v3 v5 (ix2 p q) := by
  unfold k0_pay3
  rw [shapeCast_self]
  refine congrArg (fun x : EReal => (v11 (ix2 p (0 : Fin 1)) : EReal) + x) ?_
  exact (shapeCast_a_a1_apply _ shapeCasts_S1024_S1024x1 p 0).trans
    (multiReduction_add_rows_apply (k0_pay2 v3 v5) 0x00000000#32 reduces_S1024x2048_S1024 (.inl rfl) rfl p)

/-- Two positions built as (tile number) × (tile extent) + (offset) that stay below 2^32 are equal as 32-bit words
    exactly when they are equal as numbers. -/
theorem pos_word_eq_iff (a b c d : Nat) (ha : a < 8) (hb : b < 1024) (hc : c < 4) (hd : d < 2048) :
    IntOp.addi (Scalar.muli (BitVec.ofNat 32 a) 1024#32) (BitVec.ofNat 32 b)
        = IntOp.addi (Scalar.muli (BitVec.ofNat 32 c) 2048#32) (BitVec.ofNat 32 d)
      ↔ 1024 * a + b = 2048 * c + d := by
  unfold IntOp.addi Scalar.muli IntOp.muli
  rw [← BitVec.toNat_inj]
  simp only [BitVec.toNat_add, BitVec.toNat_mul, BitVec.toNat_ofNat]
  omega

/-- A select on an equality of words is the `if` on that equality. -/
theorem select_cmpi_eq {α : Type} (x y : BitVec 32) (A B : α) :
    Scalar.select (IntOp.cmpi .eq x y) A B = if x = y then A else B := by
  unfold Scalar.select
  by_cases h : x = y
  · exact (if_pos (IntOp.cmpi_eq.mpr h)).trans (if_pos h).symm
  · exact (if_neg fun hh => h (IntOp.cmpi_eq.mp hh)).trans (if_neg h).symm

/-- The accumulator after the diagonal correction: what it held minus the sum of row p of the exponentials with every
    entry whose global column is not its global row replaced by zero. -/
theorem pay4_apply (i : grid0.Coords) (v3 : Vec Ideal S1024x256 .bf16) (v5 : Vec Ideal S2048x256 .bf16)
    (v39 : Vec Ideal S1024x1 .f32) (p : Fin 1024) :
    k0_pay4 i v3 v5 v39 (ix2 p (0 : Fin 1))
      = (v39 (ix2 p (0 : Fin 1)) : EReal) - ∑ q : Fin 2048,
          (if 1024 * (i 0).val + p.val = 2048 * (i 1).val + q.val then k0_pay2 v3 v5 (ix2 p q) else Cert.Spec.w0) := by
  have h0 : (i 0).val < 8 := (i 0).isLt
  have h1 : (i 1).val < 4 := (i 1).isLt
  unfold k0_pay4
  rw [shapeCast_self]
  refine congrArg (fun x : EReal => (v39 (ix2 p (0 : Fin 1)) : EReal) - x) ?_
  refine ((shapeCast_a_a1_apply _ shapeCasts_S1024_S1024x1 p 0).trans
    (multiReduction_add_rows_apply _ 0x00000000#32 reduces_S1024x2048_S1024 (.inl rfl) rfl p)).trans ?_
  refine Finset.sum_congr rfl fun q _ => ?_
  refine (select_cmpi_eq _ _ _ _).trans ?_
  have hr : iota .tc S1024x2048 32 [0] iota_S1024x2048_d0_w32 (ix2 p q) = BitVec.ofNat 32 p.val :=
    iota_single_apply .tc S1024x2048 32 0 iota_S1024x2048_d0_w32 (ix2 p q)
  have hc : iota .tc S1024x2048 32 [1] iota_S1024x2048_d1_w32 (ix2 p q) = BitVec.ofNat 32 q.val :=
    iota_single_apply .tc S1024x2048 32 1 iota_S1024x2048_d1_w32 (ix2 p q)
  refine if_congr ?_ rfl rfl
  show IntOp.addi (Scalar.muli (BitVec.ofNat 32 (i 0).val) 1024#32) (iota .tc S1024x2048 32 [0] iota_S1024x2048_d0_w32 (ix2 p q))
      = IntOp.addi (Scalar.muli (BitVec.ofNat 32 (i 1).val) 2048#32) (iota .tc S1024x2048 32 [1] iota_S1024x2048_d1_w32 (ix2 p q)) ↔ _
  rw [hr, hc]
  exact pos_word_eq_iff _ _ _ _ h0 p.isLt h1 q.isLt

end Cert.PayIdx

end
-- ==== Proof.KernelValue.lean ====
/-
  The kernel's output as a function of the stacked matrix.

  Grid point t of the 32 is (row tile t / 4, column stretch t % 4). The first window's block at t is rows
  1024·(t / 4) + p of the stacked matrix, the second's rows 2048·(t % 4) + q. At row p of the tile the body's step
  on the accumulator is the step of the specification for row r = 1024·(t / 4) + p and stretch t % 4; after the
  last stretch of a row tile the accumulator holds the specification's denominator of every row of the tile, and
  that is what the output array ends holding.
-/
import proofs.«138062_j35948876267977_2_alg».proof.Proof.KernelIdealData
import proofs.«138062_j35948876267977_2_alg».proof.Proof.PayIdx
import proofs.«138062_j35948876267977_2_alg».proof.Proof.Spec

set_option maxRecDepth 16384

noncomputable section

open scoped BigOperators

namespace Cert.KernelValue

open Cert.KernelIdeal Cert.KernelIdeal.Gen Cert.KernelIdeal.Body Cert.KernelIdeal.Data
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The stacked matrix as the region finds it: row r, entry k. -/
def zK (c : Dev nD) : Cert.Spec.Mat := fun r k => V (F := Ideal) m c main_v17 (ix2 r k)

/-- There are 32 grid points. -/
theorem t_lt (t : Fin cfg0.N) : t.val < 32 := by
  exact lt_of_lt_of_eq t.isLt N_0

/-- The row of the stacked matrix that row p of the row tile of point t is; -/
def rowOf (t : Fin cfg0.N) (p : Fin 1024) : Fin 8192 := ⟨1024 * (t.val / 4) + p.val, by have := t_lt t; omega⟩
/-- the row that row q of its column tile is; -/
def colOf (t : Fin cfg0.N) (q : Fin 2048) : Fin 8192 := ⟨2048 * (t.val % 4) + q.val, by omega⟩
/-- its column stretch. -/
def stretchOf (t : Fin cfg0.N) : Fin 4 := ⟨t.val % 4, by omega⟩

/-- The printed index maps and the grid's coordinates, decided once over the grid. -/
theorem idx_facts : ∀ t : Fin cfg0.N, win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ (grid0.coords t 0).val = t.val / 4 ∧ (grid0.coords t 1).val = t.val % 4 :=
  (by decide +kernel : ∀ t : Fin grid0.N, _)

/-- The first window's block at point t is the row tile t / 4 of the stacked matrix. -/
theorem iblk0_apply (c : Dev nD) (t : Fin cfg0.N) (p : Fin 1024) (k : Fin 256) :
    (iblk m c 0 t : Vec Ideal S1024x256 .bf16) (ix2 p k) = zK m c (rowOf t p) k := by
  obtain ⟨e0, e1, -⟩ := idx_facts t
  unfold iblk zK
  rw [View.read_apply]
  show V m c main_v17 _ = V m c main_v17 _
  congr 1
  funext a
  apply Fin.ext
  match a with
  | ⟨0, _⟩ => show win0_0.index t 0 * 1024 + 1 * p.val = 1024 * (t.val / 4) + p.val; rw [e0]; omega
  | ⟨1, _⟩ => show win0_0.index t 1 * 256 + 1 * k.val = k.val; rw [e1]; omega

/-- The second window's block at point t is the column tile t % 4 of the stacked matrix. -/
theorem iblk1_apply (c : Dev nD) (t : Fin cfg0.N) (q : Fin 2048) (k : Fin 256) :
    (iblk m c 1 t : Vec Ideal S2048x256 .bf16) (ix2 q k) = zK m c (colOf t q) k := by
  obtain ⟨-, -, e0, e1, -⟩ := idx_facts t
  unfold iblk zK
  rw [View.read_apply]
  show V m c main_v17 _ = V m c main_v17 _
  congr 1
  funext a
  apply Fin.ext
  match a with
  | ⟨0, _⟩ => show win0_1.index t 0 * 2048 + 1 * q.val = 2048 * (t.val % 4) + q.val; rw [e0]; omega
  | ⟨1, _⟩ => show win0_1.index t 1 * 256 + 1 * k.val = k.val; rw [e1]; omega

/-- Entry (p, q) of the tile of exponentials at point t: the exponential of twice the similarity of the two rows. -/
theorem pay2_at (c : Dev nD) (t : Fin cfg0.N) (p : Fin 1024) (q : Fin 2048) :
    k0_pay2 (iblk m c 0 t) (iblk m c 1 t) (ix2 p q) = Cert.Spec.eK (zK m c) (rowOf t p) (colOf t q) := by
  rw [Cert.PayIdx.pay2_apply]
  unfold Cert.Spec.eK Cert.Spec.sim
  refine congrArg Ideal.exp (congrArg (· * Cert.Spec.w2) (Finset.sum_congr rfl fun k _ => ?_))
  rw [iblk0_apply, iblk1_apply]

/-- The body's step on the accumulator at point t, read at row p of the tile, is the specification's step for that
    row and the point's stretch. -/
theorem accStep_apply (c : Dev nD) (t : Fin cfg0.N) (xs : Vec Ideal S1024x1 .f32) (p : Fin 1024) :
    accStep (F := Ideal) (grid0.coords t) (iblk m c 0 t) (iblk m c 1 t) xs (ix2 p (0 : Fin 1))
      = Cert.Spec.step (zK m c) (rowOf t p) (stretchOf t) (xs (ix2 p (0 : Fin 1))) := by
  obtain ⟨-, -, -, -, -, -, g0, g1⟩ := idx_facts t
  have ht := t_lt t
  have hsum : ∑ q : Fin 2048, k0_pay2 (iblk m c 0 t) (iblk m c 1 t) (ix2 p q)
      = Cert.Spec.tileSum (zK m c) (rowOf t p) (stretchOf t) := by
    unfold Cert.Spec.tileSum
    exact Finset.sum_congr rfl fun q _ => pay2_at m c t p q
  have hdiag : ∑ q : Fin 2048, (if 1024 * (grid0.coords t 0).val + p.val = 2048 * (grid0.coords t 1).val + q.val
        then k0_pay2 (iblk m c 0 t) (iblk m c 1 t) (ix2 p q) else Cert.Spec.w0)
      = Cert.Spec.tileDiag (zK m c) (rowOf t p) (stretchOf t) := by
    unfold Cert.Spec.tileDiag
    refine Finset.sum_congr rfl fun q _ => ?_
    rw [g0, g1, pay2_at]
    rfl
  have hbase : (if cond1 (grid0.coords t) then k0_pay1 (F := Ideal) else xs) (ix2 p (0 : Fin 1))
      = (if (stretchOf t).val = 0 then Cert.Spec.w0 else xs (ix2 p (0 : Fin 1))) := by
    by_cases h1 : cond1 (grid0.coords t)
    · rw [if_pos h1, if_pos (show (stretchOf t).val = 0 from (hcond1 t).mp h1), Cert.PayIdx.pay1_apply]
    · rw [if_neg h1, if_neg (show ¬ (stretchOf t).val = 0 from fun h => h1 ((hcond1 t).mpr h))]
  unfold accStep Cert.Spec.step
  by_cases h2 : cond2 (grid0.coords t)
  · have hr : (rowOf t p).val / 2048 = (stretchOf t).val := by
      have h := (hcond2 t).mp h2
      show (1024 * (t.val / 4) + p.val) / 2048 = t.val % 4
      omega
    rw [if_pos h2, if_pos hr, Cert.PayIdx.pay4_apply, Cert.PayIdx.pay3_apply, hbase, hsum, hdiag]
  · have hr : ¬ (rowOf t p).val / 2048 = (stretchOf t).val := by
      intro h
      apply h2
      apply (hcond2 t).mpr
      change (1024 * (t.val / 4) + p.val) / 2048 = t.val % 4 at h
      omega
    rw [if_neg h2, if_neg hr, Cert.PayIdx.pay3_apply, hbase, hsum]

/-- After a point that is not the first, read at row p: the specification's step over what the point before left. -/
theorem accAt_succ_apply (c : Dev nD) (n : ℕ) (hn : n + 1 < cfg0.N) (p : Fin 1024) :
    accAt m c (n + 1) hn (ix2 p (0 : Fin 1))
      = Cert.Spec.step (zK m c) (rowOf ⟨n + 1, hn⟩ p) (stretchOf ⟨n + 1, hn⟩)
          (accAt m c n (Nat.lt_of_succ_lt hn) (ix2 p (0 : Fin 1))) := by
  show accStep (grid0.coords ⟨n + 1, hn⟩) (iblk m c 0 ⟨n + 1, hn⟩) (iblk m c 1 ⟨n + 1, hn⟩)
    (accAt m c n (Nat.lt_of_succ_lt hn)) (ix2 p (0 : Fin 1)) = _
  rw [accStep_apply]

/-- After a point on a first stretch, read at row p: the specification's step from zero. -/
theorem accAt_first_apply (c : Dev nD) (t : Fin cfg0.N) (h0 : t.val % 4 = 0) (p : Fin 1024) :
    accAt m c t.val t.isLt (ix2 p (0 : Fin 1))
      = Cert.Spec.step (zK m c) (rowOf t p) (stretchOf t) Cert.Spec.w0 := by
  rw [accAt_restart m c t ((hcond1 t).mpr h0) (k0_pay1 (F := Ideal)), accStep_apply, Cert.PayIdx.pay1_apply]

/-- The accumulator after the same point, named by an equal number. -/
theorem accAt_congr (c : Dev nD) {n n' : ℕ} (h : n = n') (hn : n < cfg0.N) :
    accAt m c n hn = accAt m c n' (h ▸ hn) := by
  subst h; rfl

/-- After the last stretch of row tile i₀ the accumulator holds, at row p, the denominator of row 1024·i₀ + p. -/
theorem accAt_last (c : Dev nD) (i₀ : Fin 8) (p : Fin 1024) (h : 4 * i₀.val + 3 < cfg0.N) :
    accAt m c (4 * i₀.val + 3) h (ix2 p (0 : Fin 1))
      = Cert.Spec.denK (zK m c) ⟨1024 * i₀.val + p.val, by omega⟩ Cert.Spec.w0 := by
  have hi := i₀.isLt
  have hN : cfg0.N = 32 := N_0
  have l0 : 4 * i₀.val < cfg0.N := by omega
  have l1 : 4 * i₀.val + 1 < cfg0.N := by omega
  have l2 : 4 * i₀.val + 1 + 1 < cfg0.N := by omega
  have l3 : 4 * i₀.val + 2 + 1 < cfg0.N := by omega
  have r0 : rowOf ⟨4 * i₀.val, l0⟩ p = ⟨1024 * i₀.val + p.val, by omega⟩ :=
    Fin.ext (by show 1024 * (4 * i₀.val / 4) + p.val = 1024 * i₀.val + p.val; omega)
  have r1 : rowOf ⟨4 * i₀.val + 1, l1⟩ p = ⟨1024 * i₀.val + p.val, by omega⟩ :=
    Fin.ext (by show 1024 * ((4 * i₀.val + 1) / 4) + p.val = 1024 * i₀.val + p.val; omega)
  have r2 : rowOf ⟨4 * i₀.val + 1 + 1, l2⟩ p = ⟨1024 * i₀.val + p.val, by omega⟩ :=
    Fin.ext (by show 1024 * ((4 * i₀.val + 1 + 1) / 4) + p.val = 1024 * i₀.val + p.val; omega)
  have r3 : rowOf ⟨4 * i₀.val + 2 + 1, l3⟩ p = ⟨1024 * i₀.val + p.val, by omega⟩ :=
    Fin.ext (by show 1024 * ((4 * i₀.val + 2 + 1) / 4) + p.val = 1024 * i₀.val + p.val; omega)
  have s0 : stretchOf ⟨4 * i₀.val, l0⟩ = 0 := Fin.ext (by show 4 * i₀.val % 4 = 0; omega)
  have s1 : stretchOf ⟨4 * i₀.val + 1, l1⟩ = 1 := Fin.ext (by show (4 * i₀.val + 1) % 4 = 1; omega)
  have s2 : stretchOf ⟨4 * i₀.val + 1 + 1, l2⟩ = 2 := Fin.ext (by show (4 * i₀.val + 1 + 1) % 4 = 2; omega)
  have s3 : stretchOf ⟨4 * i₀.val + 2 + 1, l3⟩ = 3 := Fin.ext (by show (4 * i₀.val + 2 + 1) % 4 = 3; omega)
  have e0 : accAt m c (4 * i₀.val) l0 (ix2 p (0 : Fin 1))
      = Cert.Spec.step (zK m c) (rowOf ⟨4 * i₀.val, l0⟩ p) (stretchOf ⟨4 * i₀.val, l0⟩) Cert.Spec.w0 :=
    accAt_first_apply m c ⟨4 * i₀.val, l0⟩ (by show 4 * i₀.val % 4 = 0; omega) p
  have e1 := accAt_succ_apply m c (4 * i₀.val) l1 p
  have e2 := accAt_succ_apply m c (4 * i₀.val + 1) l2 p
  have e3 := accAt_succ_apply m c (4 * i₀.val + 2) l3 p
  rw [r0, s0] at e0
  rw [r1, s1] at e1
  rw [r2, s2] at e2
  rw [r3, s3] at e3
  unfold Cert.Spec.denK
  show accAt m c (4 * i₀.val + 2 + 1) l3 (ix2 p (0 : Fin 1)) = _
  rw [e3, e2, e1, e0]

/-- The output array's closed form: row r holds the denominator of row r. -/
def G (c : Dev nD) : S8192x1.Idx → EReal := fun idx => Cert.Spec.denK (zK m c) (idx 0) Cert.Spec.w0

/-- What a point on a last stretch writes back is its block of the closed form. -/
theorem flushed_eq (c : Dev nD) (t : Fin cfg0.N) (hf : (cfg0.win 2).flush t = true) :
    (dats m 0 c).flushed 2 t = ((cfg0.win 2).blk t).view.read (Elt Ideal) (G m c) := by
  have h3 : t.val % 4 = 3 := (flush0_2 t).mp hf
  have ht := t_lt t
  obtain ⟨-, -, -, -, e0, e1, -⟩ := idx_facts t
  show (cfg0.win 2).cut (grid0.coords t) ((dats m 0 c).after 2 t) = _
  rw [after2]
  funext j
  obtain ⟨p, q, rfl⟩ : ∃ (p : Fin 1024) (q : Fin 1), j = ix2 p q := ⟨j 0, j 1, eq_ix2 j⟩
  obtain rfl : q = 0 := Subsingleton.elim _ _
  rw [View.read_apply]
  show accAt m c t.val t.isLt (ix2 p (0 : Fin 1)) = G m c (((cfg0.win 2).blk t).view.emb (ix2 p (0 : Fin 1)))
  rw [accAt_congr m c (show t.val = 4 * (⟨t.val / 4, by omega⟩ : Fin 8).val + 3 from by show t.val = 4 * (t.val / 4) + 3; omega) t.isLt,
    accAt_last m c ⟨t.val / 4, by omega⟩ p]
  unfold G
  congr 1
  apply Fin.ext
  show 1024 * (t.val / 4) + p.val = win0_2.index t 0 * 1024 + 1 * p.val
  rw [e0]
  omega

/-- The output array after the run: the denominator of every row. -/
theorem final (c : Dev nD) : (dats m 0 c).arrAt 2 cfg0.N = G m c :=
  (dats m 0 c).arrAt_eq_of_cover 2 (G m c) (flushed_eq m c) fun i => by
    have h0 : (i 0).val < 8192 := (i 0).isLt
    have h1 : (i 1).val < 1 := (i 1).isLt
    have hN : cfg0.N = 32 := N_0
    have hlt : 4 * ((i 0).val / 1024) + 3 < cfg0.N := by omega
    have htv : (⟨4 * ((i 0).val / 1024) + 3, hlt⟩ : Fin cfg0.N).val = 4 * ((i 0).val / 1024) + 3 := rfl
    obtain ⟨-, -, -, -, e0, e1, -⟩ := idx_facts ⟨4 * ((i 0).val / 1024) + 3, hlt⟩
    refine ⟨⟨4 * ((i 0).val / 1024) + 3, hlt⟩, (flush0_2 _).mpr (by rw [htv]; omega), ?_⟩
    show i ∈ ((View.whole main_v24).slice (win0_2.rect ⟨4 * ((i 0).val / 1024) + 3, hlt⟩)).set
    rw [View.set_slice_whole, Rect.mem_set_unit]
    intro a
    match a with
    | ⟨0, _⟩ =>
      show win0_2.index ⟨4 * ((i 0).val / 1024) + 3, hlt⟩ 0 * 1024 ≤ (i 0).val
        ∧ (i 0).val < win0_2.index ⟨4 * ((i 0).val / 1024) + 3, hlt⟩ 0 * 1024 + 1024
      rw [e0, htv]
      omega
    | ⟨1, _⟩ =>
      show win0_2.index ⟨4 * ((i 0).val / 1024) + 3, hlt⟩ 1 * 1 ≤ (i 1).val
        ∧ (i 1).val < win0_2.index ⟨4 * ((i 0).val / 1024) + 3, hlt⟩ 1 * 1 + 1
      rw [e1]
      omega

end Cert.KernelValue

end
-- ==== Proof.RefRead.lean ====
/-
  The reference program read at an index, in the terms of the specification.

  The stacked matrix zR is the reference's concatenation of the two normalised embedding arrays along the rows:
  rows 0 … 4095 are the rows of the first, rows 4096 … 8191 those of the second. The similarity matrix is the
  product of zR with its transpose, so its entry (r, c) is the inner product of rows r and c; the denominator of
  row r is the row sum of (1 - [r = c]) · exp (sim r c / (1/2)); and the numerator's argument at row r is the
  similarity of r with its partner row, read through two gathers whose start indices (i, i + 4096) and
  (i + 4096, i), i < 4096, are small non-negative numbers: the 32-bit additions never wrap, the branch for a
  negative index is never taken, and the clamp into 0 … 8191 changes nothing.
-/
import proofs.«138062_j35948876267977_2_alg».proof.Proof.Spec
import proofs.«138062_j35948876267977_2_alg».proof.Proof.ReadP

noncomputable section

namespace Cert.RefRead

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Words -/

/-- A number below 2³¹ read back signed off its 32-bit word is the number. -/
theorem toInt_ofNat_small (n : Nat) (h : n < 2147483648) : (BitVec.ofNat 32 n).toInt = (n : Int) := by
  have e : (BitVec.ofNat 32 n).toNat = n := by rw [BitVec.toNat_ofNat]; omega
  rw [BitVec.toInt_eq_toNat_of_lt (by rw [e]; omega), e]

/-- Read as a start index, such a word is the number. -/
theorem toNat_toInt_ofNat_small (n : Nat) (h : n < 2147483648) : (BitVec.ofNat 32 n).toInt.toNat = n := by
  rw [toInt_ofNat_small n h]; exact Int.toNat_natCast n

/-- Such a word is not negative: the signed comparison with zero gives the bit 0. -/
theorem slt_zero_small (n : Nat) (h : n < 2147483648) : IntOp.cmpi .slt (BitVec.ofNat 32 n) 0#32 = 0#1 := by
  show BitVec.ofBool ((BitVec.ofNat 32 n).slt 0#32) = 0#1
  rw [BitVec.slt_eq_decide, toInt_ofNat_small n h, BitVec.toInt_zero]
  have : ¬ ((n : Int) < 0) := by omega
  simp [this]

/-- Adding 4096 to the word of a number is the word of the sum. -/
theorem addi_4096 (n : Nat) : IntOp.addi (BitVec.ofNat 32 n) 4096#32 = BitVec.ofNat 32 (n + 4096) :=
  (BitVec.ofNat_add n 4096).symm

/-- The mask bit: comparing the words of two row numbers below 8192 for equality, converted to a float, is 1 on
    the diagonal and 0 off it. -/
theorem mask_bit (r c : Fin 8192) :
    (FloatOps.uitofp (F := Ideal) .f32 (IntOp.cmpi .eq (IntOp.addi (BitVec.ofNat 32 r.val) 0#32) (BitVec.ofNat 32 c.val)) : EReal)
      = if r = c then (1 : EReal) else 0 := by
  show (((IntOp.cmpi .eq (IntOp.addi (BitVec.ofNat 32 r.val) 0#32) (BitVec.ofNat 32 c.val)).toNat : ℝ) : EReal) = _
  have h0 : IntOp.addi (BitVec.ofNat 32 r.val) 0#32 = BitVec.ofNat 32 r.val := by
    show BitVec.ofNat 32 r.val + 0#32 = _; simp
  rw [h0]
  by_cases h : r = c
  · subst h
    rw [if_pos rfl]
    show (((BitVec.ofBool (BitVec.ofNat 32 r.val == BitVec.ofNat 32 r.val)).toNat : ℝ) : EReal) = 1
    simp
  · rw [if_neg h]
    have hne : BitVec.ofNat 32 r.val ≠ BitVec.ofNat 32 c.val := by
      intro e
      have := congrArg BitVec.toNat e
      rw [BitVec.toNat_ofNat, BitVec.toNat_ofNat] at this
      have hr := r.isLt; have hc := c.isLt
      exact h (Fin.ext (by omega))
    show (((BitVec.ofBool (BitVec.ofNat 32 r.val == BitVec.ofNat 32 c.val)).toNat : ℝ) : EReal) = 0
    simp [hne]

/-! ## The gather and the two-column concatenation at an index -/

/-- The gather of single elements of a square matrix at a two-column array of start indices, read at i: the
    matrix at (row, column) = the two start indices of line i, each read signed and clamped into 0 … 8191. -/
theorem gather_apply {α : Type} (x : S8192x8192.Idx → α) (idx : IVec S4096x2 32) (i : Fin 4096) :
    Host.gather gather_S8192x8192_S4096x2_S4096_n_01_n_n_01_1_11 x idx (ix1 i)
      = x (ix2 (⟨min (idx (ix2 i (0 : Fin 2))).toInt.toNat 8191, by omega⟩ : Fin 8192)
               (⟨min (idx (ix2 i (1 : Fin 2))).toInt.toNat 8191, by omega⟩ : Fin 8192)) := by
  unfold Host.gather
  congr 1
  funext a
  refine Fin.ext ?_
  have hb : ∀ a : Fin 2, gather_S8192x8192_S4096x2_S4096_n_01_n_n_01_1_11.batchCoord (ix1 i) a = 0 := fun a =>
    GatherDims.batchCoord_eq_zero _ _ _ List.not_mem_nil
  have ho : ∀ a : Fin 2, gather_S8192x8192_S4096x2_S4096_n_01_n_n_01_1_11.offCoord (ix1 i) a = 0 := fun a =>
    GatherDims.offCoord_eq_zero _ _ _ (fun h => ((GatherDims.mem_sKept _ _).mp h).1 (by
      show a ∈ ([0, 1] : List (Fin 2))
      match a with
      | ⟨0, _⟩ => exact List.mem_cons_self
      | ⟨1, _⟩ => exact List.mem_cons_of_mem _ List.mem_cons_self))
  show gather_S8192x8192_S4096x2_S4096_n_01_n_n_01_1_11.start (ix1 i) idx a
    + gather_S8192x8192_S4096x2_S4096_n_01_n_n_01_1_11.batchCoord (ix1 i) a
    + gather_S8192x8192_S4096x2_S4096_n_01_n_n_01_1_11.offCoord (ix1 i) a = _
  rw [hb, ho]
  simp only [Nat.add_zero]
  unfold GatherDims.start
  match a with
  | ⟨0, h0⟩ =>
    have hm : (⟨0, h0⟩ : Fin S8192x8192.rank) ∈ gather_S8192x8192_S4096x2_S4096_n_01_n_n_01_1_11.startIndexMap :=
      List.mem_cons_self
    rw [dif_pos hm]
    have hsi : gather_S8192x8192_S4096x2_S4096_n_01_n_n_01_1_11.siIdx (ix1 i)
        ⟨List.idxOf (⟨0, h0⟩ : Fin S8192x8192.rank) gather_S8192x8192_S4096x2_S4096_n_01_n_n_01_1_11.startIndexMap,
          List.idxOf_lt_length_iff.2 hm⟩ = ix2 i (0 : Fin 2) := by
      funext b; refine Fin.ext ?_
      match b with
      | ⟨0, _⟩ => rfl
      | ⟨1, _⟩ => rfl
    rw [hsi]
    rfl
  | ⟨1, h1⟩ =>
    have hm : (⟨1, h1⟩ : Fin S8192x8192.rank) ∈ gather_S8192x8192_S4096x2_S4096_n_01_n_n_01_1_11.startIndexMap :=
      List.mem_cons_of_mem _ List.mem_cons_self
    rw [dif_pos hm]
    have hsi : gather_S8192x8192_S4096x2_S4096_n_01_n_n_01_1_11.siIdx (ix1 i)
        ⟨List.idxOf (⟨1, h1⟩ : Fin S8192x8192.rank) gather_S8192x8192_S4096x2_S4096_n_01_n_n_01_1_11.startIndexMap,
          List.idxOf_lt_length_iff.2 hm⟩ = ix2 i (1 : Fin 2) := by
      funext b; refine Fin.ext ?_
      match b with
      | ⟨0, _⟩ => rfl
      | ⟨1, _⟩ => rfl
    rw [hsi]
    rfl

/-- When the two start indices of line i are the numbers of a row r and a column c of the matrix, the gather reads
    the matrix at (r, c). -/
theorem gather_at {α : Type} (x : S8192x8192.Idx → α) (idx : IVec S4096x2 32) (i : Fin 4096) (r c : Fin 8192)
    (hr : (idx (ix2 i (0 : Fin 2))).toInt.toNat = r.val) (hc : (idx (ix2 i (1 : Fin 2))).toInt.toNat = c.val) :
    Host.gather gather_S8192x8192_S4096x2_S4096_n_01_n_n_01_1_11 x idx (ix1 i) = x (ix2 r c) := by
  rw [gather_apply]
  have e0 : (⟨min (idx (ix2 i (0 : Fin 2))).toInt.toNat 8191, by omega⟩ : Fin 8192) = r :=
    Fin.ext (by show min (idx (ix2 i (0 : Fin 2))).toInt.toNat 8191 = r.val; rw [hr]; have := r.isLt; omega)
  have e1 : (⟨min (idx (ix2 i (1 : Fin 2))).toInt.toNat 8191, by omega⟩ : Fin 8192) = c :=
    Fin.ext (by show min (idx (ix2 i (1 : Fin 2))).toInt.toNat 8191 = c.val; rw [hc]; have := c.isLt; omega)
  rw [e0, e1]

/-- Two columns laid side by side: column 0 is the first, -/
theorem cat2_left {α : Type} (a b : S4096x1.Idx → α) (i : Fin 4096) :
    concatenate S4096x2 1 [⟨S4096x1, a⟩, ⟨S4096x1, b⟩] concatenates_S4096x1_S4096x1_S4096x2_d1 (ix2 i (0 : Fin 2))
      = a (ix2 i (0 : Fin 1)) :=
  concatenate_pair_apply_left (t := S4096x2) (s₁ := S4096x1) (s₂ := S4096x1) 1 a b
    concatenates_S4096x1_S4096x1_S4096x2_d1 (ix2 i (0 : Fin 2)) rfl (ix2 i (0 : Fin 1)) (fun d => match d with
    | ⟨0, _⟩ => rfl
    | ⟨1, _⟩ => rfl)

/-- and column 1 the second. -/
theorem cat2_right {α : Type} (a b : S4096x1.Idx → α) (i : Fin 4096) :
    concatenate S4096x2 1 [⟨S4096x1, a⟩, ⟨S4096x1, b⟩] concatenates_S4096x1_S4096x1_S4096x2_d1 (ix2 i (1 : Fin 2))
      = b (ix2 i (0 : Fin 1)) :=
  concatenate_pair_apply_right (t := S4096x2) (s₁ := S4096x1) (s₂ := S4096x1) 1 a b
    concatenates_S4096x1_S4096x1_S4096x2_d1 (ix2 i (1 : Fin 2)) rfl rfl (ix2 i (0 : Fin 1)) (fun d => match d with
    | ⟨0, _⟩ => fun _ => rfl
    | ⟨1, _⟩ => fun h => absurd rfl h) rfl

/-! ## The stacked matrix, the similarity and the denominator -/

/-- An argument array: 4096 rows of 256 extended reals. -/
abbrev Arg := (⟨S4096x256, .f32⟩ : BufTy).Contents (Elt Ideal)

/-- The stacked matrix as the reference builds it: row r, entry k of the concatenation. -/
def zR (x0 x1 : Arg) : Cert.Spec.Mat := fun r k => val_main_v16 (F := Ideal) x0 x1 (ix2 r k)

variable (x0 x1 : Arg)

/-- A row below 4096 of the stacked matrix is that row of the first normalised array. -/
theorem zR_lo (i : Fin 4096) (k : Fin 256) :
    zR x0 x1 ⟨i.val, by have := i.isLt; omega⟩ k = val_main_v7 (F := Ideal) x0 (ix2 i k) := by
  unfold zR val_main_v16
  exact concatenate_pair_apply_left (t := S8192x256) (s₁ := S4096x256) (s₂ := S4096x256) 0 _ _
    concatenates_S4096x256_S4096x256_S8192x256_d0 (ix2 (⟨i.val, by have := i.isLt; omega⟩ : Fin 8192) k) rfl (ix2 i k) (fun b => match b with
    | ⟨0, _⟩ => rfl
    | ⟨1, _⟩ => rfl)

/-- Row i + 4096 of the stacked matrix is row i of the second normalised array. -/
theorem zR_hi (i : Fin 4096) (k : Fin 256) :
    zR x0 x1 ⟨i.val + 4096, by have := i.isLt; omega⟩ k = val_main_v15 (F := Ideal) x1 (ix2 i k) := by
  unfold zR val_main_v16
  exact concatenate_pair_apply_right (t := S8192x256) (s₁ := S4096x256) (s₂ := S4096x256) 0 _ _
    concatenates_S4096x256_S4096x256_S8192x256_d0 (ix2 (⟨i.val + 4096, by have := i.isLt; omega⟩ : Fin 8192) k) rfl rfl (ix2 i k) (fun b => match b with
    | ⟨0, _⟩ => fun h => absurd rfl h
    | ⟨1, _⟩ => fun _ => rfl) rfl

/-- The similarity matrix at (r, c) is the inner product of rows r and c of the stacked matrix. -/
theorem sim_apply (r c : Fin 8192) :
    val_main_v18 (F := Ideal) x0 x1 (ix2 r c) = Cert.Spec.sim (zR x0 x1) r c := by
  rw [val_main_v18_apply]
  unfold Cert.Spec.sim
  refine Finset.sum_congr rfl fun k _ => ?_
  rw [val_main_v17_apply]
  have e1 : lidx_main_v18 (ix2 r c) k = ix2 r k :=
    funext fun a => Fin.ext (by match a with | ⟨0, _⟩ => rfl | ⟨1, _⟩ => rfl)
  have e2 : idx_main_v17 (ridx_main_v18 (ix2 r c) k) = ix2 c k :=
    funext fun a => Fin.ext (by match a with | ⟨0, _⟩ => rfl | ⟨1, _⟩ => rfl)
  rw [e1, e2]
  rfl

/-- The denominator of row r: the masked row sum of the exponentials. -/
theorem den_apply (r : Fin 8192) :
    val_main_v68 (F := Ideal) x0 x1 (ix1 r) = Cert.Spec.denR (zR x0 x1) r := by
  rw [val_main_v68_apply]
  unfold Cert.Spec.denR
  refine congrArg₂ (· + ·) rfl (Finset.sum_congr rfl fun c _ => ?_)
  have e : idx_main_v68 (ix1 r) c = ix2 r c :=
    funext fun a => Fin.ext (by match a with | ⟨0, _⟩ => rfl | ⟨1, _⟩ => rfl)
  rw [e, val_main_v67_apply, val_main_v63_apply, val_main_v62_apply, val_main_cst_14_apply, val_main_v61_apply,
    val_main_v60_apply, val_main_v59_apply, val_main_v56_apply, val_main_v58_apply, val_main_c_13_apply,
    val_main_v57_apply, val_main_v66_apply, val_main_v65_apply, val_main_v64_apply, val_main_cst_15_apply,
    sim_apply]
  show (Cert.Spec.w1 - FloatOps.uitofp (F := Ideal) .f32
      (IntOp.cmpi .eq (IntOp.addi (BitVec.ofNat 32 r.val) 0#32) (BitVec.ofNat 32 c.val)))
    * Cert.Spec.eR (zR x0 x1) r c = _
  rw [mask_bit]

/-! ## The start indices of the two gathers -/

/-- First gather, column 0: the line number itself; -/
theorem start_v34_0 (i : Fin 4096) : val_main_v34 (F := Ideal) (ix2 i (0 : Fin 2)) = BitVec.ofNat 32 i.val := by
  unfold val_main_v34
  rw [cat2_left, val_main_v32_apply]
  have e : idx_main_v32 (ix2 i (0 : Fin 1)) = ix1 i := funext fun a => Fin.ext (by match a with | ⟨0, _⟩ => rfl)
  rw [e, val_main_v26_apply, val_main_v23_apply, val_main_v19_apply, val_main_v22_apply, val_main_c_3_apply]
  show Scalar.select (IntOp.cmpi .slt (BitVec.ofNat 32 i.val) 0#32) _ (BitVec.ofNat 32 i.val) = _
  rw [slt_zero_small i.val (by have := i.isLt; omega), select_zero]

/-- column 1: the line number plus 4096. -/
theorem start_v34_1 (i : Fin 4096) : val_main_v34 (F := Ideal) (ix2 i (1 : Fin 2)) = BitVec.ofNat 32 (i.val + 4096) := by
  unfold val_main_v34
  rw [cat2_right, val_main_v33_apply]
  have e : idx_main_v33 (ix2 i (0 : Fin 1)) = ix1 i := funext fun a => Fin.ext (by match a with | ⟨0, _⟩ => rfl)
  rw [e, val_main_v31_apply, val_main_v28_apply, val_main_v21_apply, val_main_v19_apply, val_main_v20_apply,
    val_main_c_apply, val_main_v27_apply, val_main_c_5_apply]
  show Scalar.select (IntOp.cmpi .slt (IntOp.addi (BitVec.ofNat 32 i.val) 4096#32) 0#32) _
    (IntOp.addi (BitVec.ofNat 32 i.val) 4096#32) = _
  rw [addi_4096, slt_zero_small _ (by have := i.isLt; omega), select_zero]

/-- Second gather, column 0: the line number plus 4096; -/
theorem start_v50_0 (i : Fin 4096) : val_main_v50 (F := Ideal) (ix2 i (0 : Fin 2)) = BitVec.ofNat 32 (i.val + 4096) := by
  unfold val_main_v50
  rw [cat2_left, val_main_v48_apply]
  have e : idx_main_v48 (ix2 i (0 : Fin 1)) = ix1 i := funext fun a => Fin.ext (by match a with | ⟨0, _⟩ => rfl)
  rw [e, val_main_v42_apply, val_main_v39_apply, val_main_v37_apply, val_main_v19_apply, val_main_v36_apply,
    val_main_c_7_apply, val_main_v38_apply, val_main_c_8_apply]
  show Scalar.select (IntOp.cmpi .slt (IntOp.addi (BitVec.ofNat 32 i.val) 4096#32) 0#32) _
    (IntOp.addi (BitVec.ofNat 32 i.val) 4096#32) = _
  rw [addi_4096, slt_zero_small _ (by have := i.isLt; omega), select_zero]

/-- column 1: the line number itself. -/
theorem start_v50_1 (i : Fin 4096) : val_main_v50 (F := Ideal) (ix2 i (1 : Fin 2)) = BitVec.ofNat 32 i.val := by
  unfold val_main_v50
  rw [cat2_right, val_main_v49_apply]
  have e : idx_main_v49 (ix2 i (0 : Fin 1)) = ix1 i := funext fun a => Fin.ext (by match a with | ⟨0, _⟩ => rfl)
  rw [e, val_main_v47_apply, val_main_v44_apply, val_main_v19_apply, val_main_v43_apply, val_main_c_10_apply]
  show Scalar.select (IntOp.cmpi .slt (BitVec.ofNat 32 i.val) 0#32) _ (BitVec.ofNat 32 i.val) = _
  rw [slt_zero_small i.val (by have := i.isLt; omega), select_zero]

/-! ## The numerator's argument -/

/-- The first gather at line i reads the similarity of row i with row i + 4096 … -/
theorem nom_lo (i : Fin 4096) (r c : Fin 8192) (hr : r.val = i.val) (hc : c.val = i.val + 4096) :
    val_main_v35 (F := Ideal) x0 x1 (ix1 i) = Cert.Spec.sim (zR x0 x1) r c := by
  unfold val_main_v35
  refine (gather_at _ _ i r c ?_ ?_).trans (sim_apply x0 x1 r c)
  · rw [start_v34_0, toNat_toInt_ofNat_small _ (by have := i.isLt; omega), hr]
  · rw [start_v34_1, toNat_toInt_ofNat_small _ (by have := i.isLt; omega), hc]

/-- … and the second that of row i + 4096 with row i. -/
theorem nom_hi (i : Fin 4096) (r c : Fin 8192) (hr : r.val = i.val + 4096) (hc : c.val = i.val) :
    val_main_v51 (F := Ideal) x0 x1 (ix1 i) = Cert.Spec.sim (zR x0 x1) r c := by
  unfold val_main_v51
  refine (gather_at _ _ i r c ?_ ?_).trans (sim_apply x0 x1 r c)
  · rw [start_v50_0, toNat_toInt_ofNat_small _ (by have := i.isLt; omega), hr]
  · rw [start_v50_1, toNat_toInt_ofNat_small _ (by have := i.isLt; omega), hc]

/-- The two gathers laid end to end: at row r, the similarity of r with its partner. -/
theorem nom_apply (r : Fin 8192) :
    val_main_v52 (F := Ideal) x0 x1 (ix1 r) = Cert.Spec.sim (zR x0 x1) r (Cert.Spec.partner r) := by
  unfold val_main_v52
  by_cases h : r.val < 4096
  · refine (concatenate_pair_apply_left (t := S8192) (s₁ := S4096) (s₂ := S4096) 0 _ _
      concatenates_S4096_S4096_S8192_d0 (ix1 r) rfl (ix1 (⟨r.val, h⟩ : Fin 4096)) (fun b => match b with
      | ⟨0, _⟩ => rfl)).trans (nom_lo x0 x1 ⟨r.val, h⟩ r (Cert.Spec.partner r) rfl ?_)
    unfold Cert.Spec.partner
    rw [dif_pos h]
  · have hr := r.isLt
    refine (concatenate_pair_apply_right (t := S8192) (s₁ := S4096) (s₂ := S4096) 0 _ _
      concatenates_S4096_S4096_S8192_d0 (ix1 r) rfl rfl (ix1 (⟨r.val - 4096, by omega⟩ : Fin 4096))
      (fun b => match b with
        | ⟨0, _⟩ => fun hne => absurd rfl hne) ?_).trans
      (nom_hi x0 x1 ⟨r.val - 4096, by omega⟩ r (Cert.Spec.partner r) ?_ ?_)
    · show r.val - 4096 + 4096 = r.val
      omega
    · show r.val = r.val - 4096 + 4096
      omega
    · unfold Cert.Spec.partner
      rw [dif_neg h]

/-- The numerator at row r: the exponential of that similarity over the temperature. -/
theorem nomexp_apply (r : Fin 8192) :
    val_main_v55 (F := Ideal) x0 x1 (ix1 r) = Cert.Spec.eR (zR x0 x1) r (Cert.Spec.partner r) := by
  rw [val_main_v55_apply, val_main_v54_apply, nom_apply, val_main_v53_apply, val_main_cst_12_apply]
  rfl

end Cert.RefRead

end
-- ==== Proof.Bridge.lean ====
/-
  The two programs compute one value.

  Both end with the same last stretch: the mean over the 8192 rows of minus the logarithm of numerator over
  denominator. The numerator of row r is, in both, exp of the similarity of r with its partner row over the temperature
  1/2: the reference reads it off its similarity matrix through two gathers, the kernel program computes the 4096 inner
  products of the rows of the two normalised matrices directly and lays them out twice; since the stacked matrix has
  the first normalised matrix in rows 0 … 4095 and the second in rows 4096 … 8191, row i with row i + 4096 (or, by
  commutativity of the product, row i + 4096 with row i) is that inner product. The denominator of row r is the
  masked row sum in the reference and the four-stretch accumulator in the kernel; the stacked matrix the region reads
  is the reference's stacked matrix, its entries are real numbers under the precondition, and over the real numbers
  the two denominators agree.
-/
import proofs.«138062_j35948876267977_2_alg».proof.Proof.KernelHost
import proofs.«138062_j35948876267977_2_alg».proof.Proof.Algebra
import proofs.«138062_j35948876267977_2_alg».proof.Proof.LibReal
import proofs.«138062_j35948876267977_2_alg».proof.Proof.Finite
import proofs.«138062_j35948876267977_2_alg».proof.Proof.KernelValue
import proofs.«138062_j35948876267977_2_alg».proof.Proof.RefRead
import proofs.«138062_j35948876267977_2_alg».proof.Proof.KernelIdealLaunch

set_option maxRecDepth 16384

noncomputable section

open scoped BigOperators

namespace Cert.Bridge

open Idealize.ShloMosaic Idealize.ShloMosaic.ValueIdx Idealize.ShloMosaic.TcCoe Idealize.ShloMosaic.StableHlo
open Idealize.SL.Sem
open Cert.KernelIdeal Cert.KernelIdeal.Gen Cert.KernelIdeal.Data Cert.KernelIdeal.Launch
open Cert.LibReal
open Cert.RefRead (Arg zR)

/-! ## The common value -/

/-- The value both programs compute, from the two argument arrays: the common last stretch at the numerator
    exp (sim r (partner r) / (1/2)) and the masked denominator of every row r of the stacked matrix. -/
def common (x0 x1 : Arg) : (⟨0, ![]⟩ : Shape).Idx → EReal :=
  Cert.KernelHost.lossTail
    (fun idx => Ideal.exp (Ideal.div (Cert.Spec.sim (zR x0 x1) (idx 0) (Cert.Spec.partner (idx 0))) Cert.Spec.wHalf))
    (fun idx => Cert.Spec.denR (zR x0 x1) (idx 0))

/-- The reference computes it. -/
theorem ref_value (x0 x1 : Arg) : Cert.ReferenceIdeal.Read.val_main_v73 (F := Ideal) x0 x1 = common x0 x1 := by
  rw [Cert.KernelHost.ref_tail]
  unfold common
  refine congrArg₂ Cert.KernelHost.lossTail (funext fun idx => ?_) (funext fun idx => ?_)
  · obtain ⟨r, rfl⟩ : ∃ r : Fin 8192, idx = ix1 r := ⟨idx 0, eq_ix1 idx⟩
    exact Cert.RefRead.nomexp_apply x0 x1 r
  · obtain ⟨r, rfl⟩ : ∃ r : Fin 8192, idx = ix1 r := ⟨idx 0, eq_ix1 idx⟩
    exact Cert.RefRead.den_apply x0 x1 r

/-! ## Rows of the stacked matrix and partners, by their numbers -/

/-- The partner of a row below 4096 is 4096 rows further; -/
theorem partner_val_lo (r : Fin 8192) (h : r.val < 4096) : (Cert.Spec.partner r).val = r.val + 4096 := by
  unfold Cert.Spec.partner
  rw [dif_pos h]
/-- that of a row from 4096 on is 4096 rows back. -/
theorem partner_val_hi (r : Fin 8192) (h : ¬ r.val < 4096) : (Cert.Spec.partner r).val = r.val - 4096 := by
  unfold Cert.Spec.partner
  rw [dif_neg h]

/-- The row numbered i < 4096 of the stacked matrix is row i of the first normalised matrix; -/
theorem zR_row_lo (x0 x1 : Arg) (r : Fin 8192) (i : Fin 4096) (h : r.val = i.val) (k : Fin 256) :
    zR x0 x1 r k = Cert.ReferenceIdeal.Read.val_main_v7 (F := Ideal) x0 (ix2 i k) := by
  have e : r = ⟨i.val, by have := i.isLt; omega⟩ := Fin.ext h
  rw [e]
  exact Cert.RefRead.zR_lo x0 x1 i k
/-- the row numbered i + 4096 is row i of the second. -/
theorem zR_row_hi (x0 x1 : Arg) (r : Fin 8192) (i : Fin 4096) (h : r.val = i.val + 4096) (k : Fin 256) :
    zR x0 x1 r k = Cert.ReferenceIdeal.Read.val_main_v15 (F := Ideal) x1 (ix2 i k) := by
  have e : r = ⟨i.val + 4096, by have := i.isLt; omega⟩ := Fin.ext h
  rw [e]
  exact Cert.RefRead.zR_hi x0 x1 i k

/-- The similarity of a row with its partner is the inner product of the pair's two normalised rows, whichever half
    the row is in. -/
theorem sim_partner (x0 x1 : Arg) (r : Fin 8192) :
    Cert.Spec.sim (zR x0 x1) r (Cert.Spec.partner r)
      = ∑ k : Fin 256, (Cert.ReferenceIdeal.Read.val_main_v7 (F := Ideal) x0 (ix2 (⟨r.val % 4096, Nat.mod_lt _ (by decide)⟩ : Fin 4096) k) : EReal)
          * (Cert.ReferenceIdeal.Read.val_main_v15 (F := Ideal) x1 (ix2 (⟨r.val % 4096, Nat.mod_lt _ (by decide)⟩ : Fin 4096) k) : EReal) := by
  have hr : r.val < 8192 := r.isLt
  unfold Cert.Spec.sim
  refine Finset.sum_congr rfl fun k _ => ?_
  by_cases h : r.val < 4096
  · rw [zR_row_lo x0 x1 r ⟨r.val % 4096, Nat.mod_lt _ (by decide)⟩ (by show r.val = r.val % 4096; omega) k,
      zR_row_hi x0 x1 (Cert.Spec.partner r) ⟨r.val % 4096, Nat.mod_lt _ (by decide)⟩
        (by rw [partner_val_lo r h]; show r.val + 4096 = r.val % 4096 + 4096; omega) k]
  · rw [zR_row_hi x0 x1 r ⟨r.val % 4096, Nat.mod_lt _ (by decide)⟩ (by show r.val = r.val % 4096 + 4096; omega) k,
      zR_row_lo x0 x1 (Cert.Spec.partner r) ⟨r.val % 4096, Nat.mod_lt _ (by decide)⟩
        (by rw [partner_val_hi r h]; show r.val - 4096 = r.val % 4096; omega) k]
    exact mul_comm _ _

/-- Every entry of the stacked matrix of two arrays of real numbers is a real number. -/
theorem zR_real (x0 x1 : Arg) (h0 : ∀ i, IsReal (x0 i)) (h1 : ∀ i, IsReal (x1 i)) (r : Fin 8192) (k : Fin 256) :
    IsReal (zR x0 x1 r k) := by
  have hr : r.val < 8192 := r.isLt
  by_cases h : r.val < 4096
  · rw [zR_row_lo x0 x1 r ⟨r.val, h⟩ rfl k]
    exact Cert.Finite.v7_real x0 h0 _
  · rw [zR_row_hi x0 x1 r ⟨r.val - 4096, by omega⟩ (by show r.val = r.val - 4096 + 4096; omega) k]
    exact Cert.Finite.v15_real x1 h1 _

/-! ## The kernel program -/

variable (m : (ℓ : Loc nD τ sig) → Buf (Elt Ideal) ℓ) (c : Dev nD)

/-- The two argument arrays as launched. -/
abbrev a0 : Arg := m ((c : Thread nD τ).loc main_arg0)
abbrev a1 : Arg := m ((c : Thread nD τ).loc main_arg1)

/-- The numerator array is not the region's: it leaves the region as the first host stretch wrote it. -/
theorem V1_nom : V1 m c (Proc.devRef .tc main_v23)
    = StableHlo.after (hostOps0 (F := Ideal)) (Vl m c) (Proc.devRef .tc main_v23) :=
  Function.update_of_ne (by decide) _ _

/-- The denominator column leaves the region at the accumulator's closed form. -/
theorem V1_den : V1 m c (Proc.devRef .tc main_v24) = Cert.KernelValue.G m c :=
  (Function.update_self _ _ _).trans (Cert.KernelValue.final m c)

/-- The stacked matrix the region reads is the reference's stacked matrix of the launched arguments. -/
theorem zK_eq : Cert.KernelValue.zK m c = zR (a0 m c) (a1 m c) := by
  funext r k
  unfold Cert.KernelValue.zK zR
  exact congrFun (Cert.KernelHost.z_eq (Vl m c)) (ix2 r k)

/-- The kernel program's numerator of row r. -/
theorem nom_value (r : Fin 8192) :
    (StableHlo.after (hostOps0 (F := Ideal)) (Vl m c) (Proc.devRef .tc main_v23) : S8192.Idx → EReal) (ix1 r)
      = Ideal.exp (Ideal.div (Cert.Spec.sim (zR (a0 m c) (a1 m c)) r (Cert.Spec.partner r)) Cert.Spec.wHalf) := by
  refine (Cert.KernelHost.nomK_apply (Vl m c) r).trans ?_
  refine congrArg (fun x : EReal => Ideal.exp (Ideal.div x Cert.Spec.wHalf)) ?_
  rw [Cert.Algebra.w0_eq, zero_add]
  exact (sim_partner (a0 m c) (a1 m c) r).symm

/-- The kernel program's denominator of row r, under the precondition. -/
theorem den_value
    (hpre : Cert.Pre_finite_inputs.fn (F := Ideal) (m ((c : Thread nD τ).loc main_arg0)) (m ((c : Thread nD τ).loc main_arg1))
      = (fun _ => 1#1)) (r : Fin 8192) :
    Cert.KernelValue.G m c (ix2 r (0 : Fin 1)) = Cert.Spec.denR (zR (a0 m c) (a1 m c)) r := by
  obtain ⟨h0, h1⟩ := Cert.Finite.inputs_real _ _ hpre
  show Cert.Spec.denK (Cert.KernelValue.zK m c) r Cert.Spec.w0 = _
  rw [zK_eq]
  exact Cert.Algebra.den_eq _ (zR_real (a0 m c) (a1 m c) h0 h1) r Cert.Spec.w0

/-- The kernel program computes the common value, under the precondition. -/
theorem kernel_value
    (hpre : Cert.Pre_finite_inputs.fn (F := Ideal) (m ((c : Thread nD τ).loc main_arg0)) (m ((c : Thread nD τ).loc main_arg1))
      = (fun _ => 1#1)) :
    V2 m c (Proc.devRef .tc main_v30) = common (m ((c : Thread nD τ).loc main_arg0)) (m ((c : Thread nD τ).loc main_arg1)) := by
  show StableHlo.after (hostOps1 (F := Ideal)) (V1 m c) (Proc.devRef .tc main_v30) = _
  rw [Cert.KernelHost.ker_tail (V1 m c)]
  unfold common
  refine congrArg₂ Cert.KernelHost.lossTail (funext fun idx => ?_) (funext fun idx => ?_)
  · obtain ⟨r, rfl⟩ : ∃ r : Fin 8192, idx = ix1 r := ⟨idx 0, eq_ix1 idx⟩
    rw [V1_nom]
    exact nom_value m c r
  · obtain ⟨r, rfl⟩ : ∃ r : Fin 8192, idx = ix1 r := ⟨idx 0, eq_ix1 idx⟩
    rw [V1_den]
    exact den_value m c hpre r

end Cert.Bridge

end
-- ==== Proof.lean ====
/-
  The certificate's five claims, assembled.

  Both programs compute the normalised-temperature cross-entropy loss of 4096 pairs of embeddings. From the
  stacked matrix z of the 8192 normalised rows, with sim r c the inner product of rows r and c: the numerator of
  row r is exp (sim r r' / (1/2)) at r's partner row r', the denominator the sum over c ≠ r of
  exp (sim r c / (1/2)), and the loss the mean over r of -log (numerator / denominator).
  The reference forms the whole 8192 × 8192 similarity matrix, masks its diagonal and sums rows. The kernel walks
  it in tiles of 1024 rows by 2048 columns: per tile a matrix product, exp of twice the product, a row sum added to
  an accumulator, the diagonal's term taken out again on the tile that holds it; it takes the numerators from the
  row-wise inner products of the two halves directly.

  The frames: the kernel's run is proved once for any float instance (the body at a symbolic grid point, the
  accumulator point by point, the launch with the stacked matrix's buffer shared between the two windows that read
  it) and read at the word level and on the extended reals; the reference's is the run of its list of host
  operations, each result the operations' value of the launch contents, read stage by stage.
  The value: under the precondition every input is a real number, so every normalised entry, similarity and
  exponential is real, and over the reals the accumulator's walk is the masked sum (twice x is x over a half; a
  sum less one of its terms is the sum of the others); both results are then one function of equal arguments.
-/
import proofs.«138062_j35948876267977_2_alg».proof.Defs
import proofs.«138062_j35948876267977_2_alg».proof.Proof.Gen.Kernel
import proofs.«138062_j35948876267977_2_alg».proof.Proof.Gen.Kernel.Skeleton
import proofs.«138062_j35948876267977_2_alg».proof.Proof.Gen.Kernel.Launch
import proofs.«138062_j35948876267977_2_alg».proof.Proof.Gen.Kernel.Points
import proofs.«138062_j35948876267977_2_alg».proof.Proof.Gen.KernelIdeal
import proofs.«138062_j35948876267977_2_alg».proof.Proof.Gen.KernelIdeal.Skeleton
import proofs.«138062_j35948876267977_2_alg».proof.Proof.Gen.KernelIdeal.Launch
import proofs.«138062_j35948876267977_2_alg».proof.Proof.Gen.KernelIdeal.Points
import proofs.«138062_j35948876267977_2_alg».proof.Proof.Gen.ReferenceIdeal
import proofs.«138062_j35948876267977_2_alg».proof.Proof.Gen.Pre_finite_inputs
import proofs.«138062_j35948876267977_2_alg».proof.Proof.RunP
import proofs.«138062_j35948876267977_2_alg».proof.Proof.ReadP
import proofs.«138062_j35948876267977_2_alg».proof.Proof.RefRun
import proofs.«138062_j35948876267977_2_alg».proof.Proof.KernelLaunch
import proofs.«138062_j35948876267977_2_alg».proof.Proof.KernelIdealLaunch
import proofs.«138062_j35948876267977_2_alg».proof.Proof.Bridge
import Idealize.ShloMosaic.Adequacy
import Idealize.ShloMosaic.Init

noncomputable section

namespace Cert.Proof

open Idealize.ShloMosaic Idealize.SL.Sem Cert.Kernel

/-- The word-level kernel runs to the end and keeps its arguments. -/
theorem frame_k : Cert.frame_Kernel := fun m ρ _ =>
  (θ_run (Cert.Kernel.defs (F := Bits)) _ _).mono (fun _ h c => ⟨(h c).2.1, (h c).2.2⟩)
    (Cert.Kernel.Launch.run_main (F := Bits) m ρ)

/-- So does the kernel read on the extended reals. -/
theorem frame_ki : Cert.frame_KernelIdeal := fun m ρ _ =>
  (θ_run (Cert.KernelIdeal.defs (F := Ideal)) _ _).mono (fun _ h c => ⟨(h c).2.1, (h c).2.2⟩)
    (Cert.KernelIdeal.Launch.run_main (F := Ideal) m ρ)

/-- And the reference. -/
theorem frame_ri : Cert.frame_ReferenceIdeal := fun m ρ _ =>
  (θ_run (Cert.ReferenceIdeal.defs (F := Ideal)) _ _).mono
    (fun _ h c => ⟨(h c Cert.ReferenceIdeal.main_arg0).trans (Cert.RefRun.arg0_kept _),
      (h c Cert.ReferenceIdeal.main_arg1).trans (Cert.RefRun.arg1_kept _)⟩)
    (Cert.ReferenceIdeal.ValueP.run (F := Ideal) m ρ)

/-- The idealisation rewrote nothing. -/
theorem preserves : Cert.preserves_Kernel_KernelIdeal := trivial

/-- From memories agreeing on the arguments, both programs end at the one value Bridge.common of them. -/
theorem algebraic : Cert.algebraic_KernelIdeal_ReferenceIdeal := by
  intro m ρ m' ρ' hpre hagree
  refine ⟨fun c => Cert.Bridge.common (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run (Cert.KernelIdeal.defs (F := Ideal)) _ _).mono
      (fun _ h c => ⟨(h c).1.trans (Cert.Bridge.kernel_value m c (hpre c)), (h c).2.1, (h c).2.2⟩)
      (Cert.KernelIdeal.Launch.run_main (F := Ideal) m ρ)
  · refine (θ_run (Cert.ReferenceIdeal.defs (F := Ideal)) _ _).mono
      (fun _ h c => ⟨(h c Cert.ReferenceIdeal.main_v73).trans ?_,
        (h c Cert.ReferenceIdeal.main_arg0).trans (Cert.RefRun.arg0_kept _),
        (h c Cert.ReferenceIdeal.main_arg1).trans (Cert.RefRun.arg1_kept _)⟩)
      (Cert.ReferenceIdeal.ValueP.run (F := Ideal) m' ρ')
    refine (Cert.RefRun.ref_after (StableHlo.launchContents m' c)).trans ?_
    show Cert.ReferenceIdeal.Read.val_main_v73 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) = _
    rw [(hagree c).1, (hagree c).2]
    exact Cert.Bridge.ref_value _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
